-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16384x64 : Shape := ⟨3, ![2, 16384, 64]⟩
abbrev S2x16384x16x64 : Shape := ⟨4, ![2, 16384, 16, 64]⟩
abbrev S2x16384x3 : Shape := ⟨3, ![2, 16384, 3]⟩
abbrev S2x16384x16x3 : Shape := ⟨4, ![2, 16384, 16, 3]⟩
abbrev S64x64 : Shape := ⟨2, ![64, 64]⟩
abbrev S64 : Shape := ⟨1, ![64]⟩
abbrev S3x64 : Shape := ⟨2, ![3, 64]⟩
abbrev S_ : Shape := ⟨0, ![]⟩

class Facts : Prop where
  bcast_S_S2x16384x64 : S_.BroadcastsInDim S2x16384x64 (![] : Fin 0 → Fin S2x16384x64.rank)
  reducesTo_S2x16384x64_S_d0_1_2 : S2x16384x64.ReducesTo [0, 1, 2] S_
  h_S_ : 0 < S_.numel
  bcast_S_S2x16384x16x64 : S_.BroadcastsInDim S2x16384x16x64 (![] : Fin 0 → Fin S2x16384x16x64.rank)
  reducesTo_S2x16384x16x64_S_d0_1_2_3 : S2x16384x16x64.ReducesTo [0, 1, 2, 3] S_
  bcast_S_S2x16384x3 : S_.BroadcastsInDim S2x16384x3 (![] : Fin 0 → Fin S2x16384x3.rank)
  reducesTo_S2x16384x3_S_d0_1_2 : S2x16384x3.ReducesTo [0, 1, 2] S_
  bcast_S_S2x16384x16x3 : S_.BroadcastsInDim S2x16384x16x3 (![] : Fin 0 → Fin S2x16384x16x3.rank)
  reducesTo_S2x16384x16x3_S_d0_1_2_3 : S2x16384x16x3.ReducesTo [0, 1, 2, 3] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S3x64 : S_.BroadcastsInDim S3x64 (![] : Fin 0 → Fin S3x64.rank)
  reducesTo_S3x64_S_d0_1 : S3x64.ReducesTo [0, 1] S_

variable [Facts]

def fn_part5 {F : FTy → Type} [FloatOps F] (main_arg18 : FVec F S64x64 .f32) (main_arg19 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x64 .f32 := Host.absf main_arg18
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  main_v98

def fn_part4 {F : FTy → Type} [FloatOps F] (main_arg14 : FVec F S64x64 .f32) (main_arg15 : FVec F S64 .f32) (main_arg16 : FVec F S3x64 .f32) (main_arg17 : FVec F S64 .f32) (main_arg18 : FVec F S64x64 .f32) (main_arg19 : FVec F S64 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S3x64 .f32 := Host.absf main_arg16
  let main_cst_30 : FVec F S_ .f32 := constant S_ .f32 0x7F800000#32
  let main_v80 : FVec F S3x64 .f32 := broadcastInDim S3x64 ![] bcast_S_S3x64 main_cst_30
  let main_v81 : IVec S3x64 1 := cmpf .olt main_v79 main_v80
  let main_c_31 : IVec S_ 1 := constantI S_ 1 1#1
  let main_v82 : IVec S_ 1 := (fun x v => Host.reduce IntOp.andi x v reducesTo_S3x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S64 .f32) (main_arg12 : FVec F S64x64 .f32) (main_arg13 : FVec F S64 .f32) (main_arg14 : FVec F S64x64 .f32) (main_arg15 : FVec F S64 .f32) (main_arg16 : FVec F S3x64 .f32) (main_arg17 : FVec F S64 .f32) (main_arg18 : FVec F S64x64 .f32) (main_arg19 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_v63 main_v67

def fn_part2 {F : FTy → Type} [FloatOps F] (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S3x64 .f32) (main_arg17 : FVec F S64 .f32) (main_arg18 : FVec F S64x64 .f32) (main_arg19 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S3x64 .f32) (main_arg17 : FVec F S64 .f32) (main_arg18 : FVec F S64x64 .f32) (main_arg19 : FVec F S64 .f32) (main_v13 : IVec S_ 1) (main_v16 : IVec S2x16384x16x3 1) : IVec S_ 1 :=
  let main_c_5 : IVec S_ 1 := constantI S_ 1 1#1
  let main_v17 : IVec S_ 1 := (fun x v => Host.reduce IntOp.andi x v reducesTo_S2x16384x16x3_S_d0_1_2_3 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S2x16384x64 .f32) (main_arg1 : FVec F S2x16384x16x64 .f32) (main_arg2 : FVec F S2x16384x3 .f32) (main_arg3 : FVec F S2x16384x16x3 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S3x64 .f32) (main_arg17 : FVec F S64 .f32) (main_arg18 : FVec F S64x64 .f32) (main_arg19 : FVec F S64 .f32) : IVec S_ 1 :=
  let main_v0 : FVec F S2x16384x64 .f32 := Host.absf main_arg0
  let main_cst : FVec F S_ .f32 := constant S_ .f32 0x7F800000#32
  let main_v1 : FVec F S2x16384x64 .f32 := broadcastInDim S2x16384x64 ![] bcast_S_S2x16384x64 main_cst
  let main_v2 : IVec S2x16384x64 1 := cmpf .olt main_v0 main_v1
  let main_c : IVec S_ 1 := constantI S_ 1 1#1
  let main_v3 : IVec S_ 1 := (fun x v => Host.reduce IntOp.andi x v reducesTo_S2x16384x64_S_d0_1_2 h_S_) main_v2 main_c
  let main_v4 : FVec F S2x16384x16x64 .f32 := Host.absf main_arg1
  let main_cst_0 : FVec F S_ .f32 := constant S_ .f32 0x7F800000#32
  let main_v5 : FVec F S2x16384x16x64 .f32 := broadcastInDim S2x16384x16x64 ![] bcast_S_S2x16384x16x64 main_cst_0
  let main_v6 : IVec S2x16384x16x64 1 := cmpf .olt main_v4 main_v5
  let main_c_1 : IVec S_ 1 := constantI S_ 1 1#1
  let main_v7 : IVec S_ 1 := (fun x v => Host.reduce IntOp.andi x v reducesTo_S2x16384x16x64_S_d0_1_2_3 h_S_) main_v6 main_c_1
  let main_v8 : IVec S_ 1 := andi main_v3 main_v7
  let main_v9 : FVec F S2x16384x3 .f32 := Host.absf main_arg2
  let main_cst_2 : FVec F S_ .f32 := constant S_ .f32 0x7F800000#32
  let main_v10 : FVec F S2x16384x3 .f32 := broadcastInDim S2x16384x3 ![] bcast_S_S2x16384x3 main_cst_2
  let main_v11 : IVec S2x16384x3 1 := cmpf .olt main_v9 main_v10
  let main_c_3 : IVec S_ 1 := constantI S_ 1 1#1
  let main_v12 : IVec S_ 1 := (fun x v => Host.reduce IntOp.andi x v reducesTo_S2x16384x3_S_d0_1_2 h_S_) main_v11 main_c_3
  let main_v13 : IVec S_ 1 := andi main_v8 main_v12
  let main_v14 : FVec F S2x16384x16x3 .f32 := Host.absf main_arg3
  let main_cst_4 : FVec F S_ .f32 := constant S_ .f32 0x7F800000#32
  let main_v15 : FVec F S2x16384x16x3 .f32 := broadcastInDim S2x16384x16x3 ![] bcast_S_S2x16384x16x3 main_cst_4
  let main_v16 : IVec S2x16384x16x3 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S2x16384x64 : Shape := ⟨3, ![2, 16384, 64]⟩
abbrev S2x16384x16x64 : Shape := ⟨4, ![2, 16384, 16, 64]⟩
abbrev S2x16384x3 : Shape := ⟨3, ![2, 16384, 3]⟩
abbrev S2x16384x16x3 : Shape := ⟨4, ![2, 16384, 16, 3]⟩
abbrev S64x64 : Shape := ⟨2, ![64, 64]⟩
abbrev S64 : Shape := ⟨1, ![64]⟩
abbrev S3x64 : Shape := ⟨2, ![3, 64]⟩
abbrev S32768x64 : Shape := ⟨2, ![32768, 64]⟩
abbrev S32768x16x64 : Shape := ⟨3, ![32768, 16, 64]⟩
abbrev S32768x3 : Shape := ⟨2, ![32768, 3]⟩
abbrev S32768x16x3 : Shape := ⟨3, ![32768, 16, 3]⟩
abbrev S32768x3x16 : Shape := ⟨3, ![32768, 3, 16]⟩
abbrev S64x128 : Shape := ⟨2, ![64, 128]⟩
abbrev S128 : Shape := ⟨1, ![128]⟩
abbrev S1x128 : Shape := ⟨2, ![1, 128]⟩
abbrev S_ : Shape := ⟨0, ![]⟩
abbrev S64x192 : Shape := ⟨2, ![64, 192]⟩
abbrev S192x192 : Shape := ⟨2, ![192, 192]⟩
abbrev S192 : Shape := ⟨1, ![192]⟩
abbrev S1x192 : Shape := ⟨2, ![1, 192]⟩
abbrev S1x64 : Shape := ⟨2, ![1, 64]⟩
abbrev S256x64 : Shape := ⟨2, ![256, 64]⟩
abbrev S256x16x64 : Shape := ⟨3, ![256, 16, 64]⟩
abbrev S256x3 : Shape := ⟨2, ![256, 3]⟩
abbrev S256x3x16 : Shape := ⟨3, ![256, 3, 16]⟩
abbrev S4096x64 : Shape := ⟨2, ![4096, 64]⟩
abbrev S4096x128 : Shape := ⟨2, ![4096, 128]⟩
abbrev S256x1 : Shape := ⟨2, ![256, 1]⟩
abbrev S256x1x16 : Shape := ⟨3, ![256, 1, 16]⟩
abbrev S256x16 : Shape := ⟨2, ![256, 16]⟩
abbrev S1x1x64 : Shape := ⟨3, ![1, 1, 64]⟩
abbrev S256x16x1 : Shape := ⟨3, ![256, 16, 1]⟩
abbrev S4096x192 : Shape := ⟨2, ![4096, 192]⟩
abbrev S256x1x64 : Shape := ⟨3, ![256, 1, 64]⟩

abbrev nBuf : Space → Nat
  | .hbm => 44
  | .vmem => 22
  | .smem => 0
  | _ => 0

abbrev bufTy : (tb : Table) → Fin (tcTables nBuf tb) → BufTy
  | .hbm, ⟨0, _⟩ => ⟨S2x16384x64, .f32⟩
  | .hbm, ⟨1, _⟩ => ⟨S2x16384x16x64, .f32⟩
  | .hbm, ⟨2, _⟩ => ⟨S2x16384x3, .f32⟩
  | .hbm, ⟨3, _⟩ => ⟨S2x16384x16x3, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S3x64, .f32⟩
  | .hbm, ⟨17, _⟩ => ⟨S64, .f32⟩
  | .hbm, ⟨18, _⟩ => ⟨S64x64, .f32⟩
  | .hbm, ⟨19, _⟩ => ⟨S64, .f32⟩
  | .hbm, ⟨20, _⟩ => ⟨S32768x64, .f32⟩
  | .hbm, ⟨21, _⟩ => ⟨S32768x16x64, .f32⟩
  | .hbm, ⟨22, _⟩ => ⟨S32768x3, .f32⟩
  | .hbm, ⟨23, _⟩ => ⟨S32768x16x3, .f32⟩
  | .hbm, ⟨24, _⟩ => ⟨S32768x3x16, .f32⟩
  | .hbm, ⟨25, _⟩ => ⟨S64x128, .f32⟩
  | .hbm, ⟨26, _⟩ => ⟨S128, .f32⟩
  | .hbm, ⟨27, _⟩ => ⟨S1x128, .f32⟩
  | .hbm, ⟨28, _⟩ => ⟨S_, .f32⟩
  | .hbm, ⟨29, _⟩ => ⟨S64x64, .f32⟩
  | .hbm, ⟨30, _⟩ => ⟨S64x192, .f32⟩
  | .hbm, ⟨31, _⟩ => ⟨S64x192, .f32⟩
  | .hbm, ⟨32, _⟩ => ⟨S64x192, .f32⟩
  | .hbm, ⟨33, _⟩ => ⟨S192x192, .f32⟩
  | .hbm, ⟨34, _⟩ => ⟨S192, .f32⟩
  | .hbm, ⟨35, _⟩ => ⟨S1x192, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S32768x64, .f32⟩
  | .hbm, ⟨43, _⟩ => ⟨S2x16384x64, .f32⟩
  | .local _ .vmem, ⟨0, _⟩ => ⟨S256x64, .f32⟩
  | .local _ .vmem, ⟨1, _⟩ => ⟨S256x64, .f32⟩
  | .local _ .vmem, ⟨2, _⟩ => ⟨S256x16x64, .f32⟩
  | .local _ .vmem, ⟨3, _⟩ => ⟨S256x16x64, .f32⟩
  | .local _ .vmem, ⟨4, _⟩ => ⟨S256x3, .f32⟩
  | .local _ .vmem, ⟨5, _⟩ => ⟨S256x3, .f32⟩
  | .local _ .vmem, ⟨6, _⟩ => ⟨S256x3x16, .f32⟩
  | .local _ .vmem, ⟨7, _⟩ => ⟨S256x3x16, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x128, .f32⟩
  | .local _ .vmem, ⟨13, _⟩ => ⟨S1x128, .f32⟩
  | .local _ .vmem, ⟨14, _⟩ => ⟨S192x192, .f32⟩
  | .local _ .vmem, ⟨15, _⟩ => ⟨S1x192, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S256x64, .f32⟩
  | .local _ .vmem, ⟨21, _⟩ => ⟨S256x64, .f32⟩
  | _, _ => ⟨S2x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S2x16384x64_S32768x64 : S2x16384x64.ShapeCasts S32768x64
  shapeCasts_S2x16384x16x64_S32768x16x64 : S2x16384x16x64.ShapeCasts S32768x16x64
  shapeCasts_S2x16384x3_S32768x3 : S2x16384x3.ShapeCasts S32768x3
  shapeCasts_S2x16384x16x3_S32768x16x3 : S2x16384x16x3.ShapeCasts S32768x16x3
  transposes_S32768x16x3_S32768x3x16_0_2_1 : S32768x16x3.Transposes [0, 2, 1] S32768x3x16
  concatenates_S64x64_S64x64_S64x128_d1 : Shape.Concatenates [S64x64, S64x64] S64x128 1
  concatenates_S64_S64_S128_d0 : Shape.Concatenates [S64, S64] S128 0
  shapeCasts_S128_S1x128 : S128.ShapeCasts S1x128
  bcast_S_S64x64 : S_.BroadcastsInDim S64x64 (![] : Fin 0 → Fin S64x64.rank)
  concatenates_S64x64_S64x64_S64x64_S64x192_d1 : Shape.Concatenates [S64x64, S64x64, S64x64] S64x192 1
  concatenates_S64x192_S64x192_S64x192_S192x192_d0 : Shape.Concatenates [S64x192, S64x192, S64x192] S192x192 0
  concatenates_S64_S64_S64_S192_d0 : Shape.Concatenates [S64, S64, S64] S192 0
  shapeCasts_S192_S1x192 : S192.ShapeCasts S1x192
  slices_S3x64_S1x64_0_0 : S3x64.Slices ![0, 0] S1x64
  slices_S3x64_S1x64_1_0 : S3x64.Slices ![1, 0] S1x64
  slices_S3x64_S1x64_2_0 : S3x64.Slices ![2, 0] S1x64
  shapeCasts_S64_S1x64 : S64.ShapeCasts S1x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x16x64_S256x16x64_0_0_0 : ∀ a, (![0, 0, 0] : Fin 3 → Nat) a + S256x16x64.size a ≤ S256x16x64.size a
  h_S256x16x64 : 0 < S256x16x64.numel
  shapeCasts_S256x16x64_S256x16x64 : S256x16x64.ShapeCasts S256x16x64
  shapeCasts_S256x16x64_S4096x64 : S256x16x64.ShapeCasts S4096x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S256x3x16_S256x3x16_0_0_0 : ∀ a, (![0, 0, 0] : Fin 3 → Nat) a + S256x3x16.size a ≤ S256x3x16.size a
  h_S256x3x16 : 0 < S256x3x16.numel
  shapeCasts_S256x3x16_S256x3x16 : S256x3x16.ShapeCasts S256x3x16
  slices_S256x3_o0_0_S256x1 : S256x3.Slices ![0, 0] S256x1
  slices_S256x3x16_o0_0_0_S256x1x16 : S256x3x16.Slices ![0, 0, 0] S256x1x16
  shapeCasts_S256x1x16_S256x16 : S256x1x16.ShapeCasts S256x16
  broadcasts_S256x1_S256x16 : S256x1.Broadcasts S256x16
  slices_S256x3_o0_1_S256x1 : S256x3.Slices ![0, 1] S256x1
  slices_S256x3x16_o0_1_0_S256x1x16 : S256x3x16.Slices ![0, 1, 0] S256x1x16
  slices_S256x3_o0_2_S256x1 : S256x3.Slices ![0, 2] S256x1
  slices_S256x3x16_o0_2_0_S256x1x16 : S256x3x16.Slices ![0, 2, 0] S256x1x16
  shapeCasts_S1x64_S1x1x64 : S1x64.ShapeCasts S1x1x64
  shapeCasts_S256x16_S256x16x1 : S256x16.ShapeCasts S256x16x1
  broadcasts_S256x16x1_S256x16x64 : S256x16x1.Broadcasts S256x16x64
  broadcasts_S1x1x64_S256x16x64 : S1x1x64.Broadcasts S256x16x64
  concatenates_S4096x128_S4096x64_S4096x192_d1 : Shape.Concatenates [S4096x128, S4096x64] S4096x192 1
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S4096x192 : S1x192.Broadcasts S4096x192
  slices_S4096x192_o0_0_S4096x64 : S4096x192.Slices ![0, 0] S4096x64
  shapeCasts_S4096x64_S256x16x64 : S4096x64.ShapeCasts S256x16x64
  slices_S4096x192_o0_64_S4096x64 : S4096x192.Slices ![0, 64] S4096x64
  slices_S4096x192_o0_128_S4096x64 : S4096x192.Slices ![0, 128] S4096x64
  shapeCasts_S256x64_S256x1x64 : S256x64.ShapeCasts S256x1x64
  broadcasts_S256x1x64_S256x16x64 : S256x1x64.Broadcasts S256x16x64
  reduces_S256x16x64_S256x64 : S256x16x64.Reduces [1] S256x64
  shapeCasts_S32768x64_S2x16384x64 : S32768x64.ShapeCasts S2x16384x64
  dot_S256x64_S64x64_S256x64_1_0_0_1_n_n_wf : DotDims.WF S256x64 S64x64 S256x64 [1] [0] [0] [1] [] []
  dot_S4096x64_S64x128_S4096x128_1_0_0_1_n_n_wf : DotDims.WF S4096x64 S64x128 S4096x128 [1] [0] [0] [1] [] []
  dot_S4096x192_S192x192_S4096x192_1_0_0_1_n_n_wf : DotDims.WF S4096x192 S192x192 S4096x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S32768x64.size a
  hwx0_0 : ∀ i : grid0.Coords, EltTy.bits .f32 = 32 ∨ (Rect.block (s := S32768x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16x64.size a ≤ S32768x16x64.size a
  hwx0_1 : ∀ i : grid0.Coords, EltTy.bits .f32 = 32 ∨ (Rect.block (s := S32768x16x64) S256x16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3.size a ≤ S32768x3.size a
  hwx0_2 : ∀ i : grid0.Coords, EltTy.bits .f32 = 32 ∨ (Rect.block (s := S32768x3) S256x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3x16.size a ≤ S32768x3x16.size a
  hwx0_3 : ∀ i : grid0.Coords, EltTy.bits .f32 = 32 ∨ (Rect.block (s := S32768x3x16) S256x3x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .f32 = 32 ∨ (Rect.block (s := S64x128) S64x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S192x192.size a ≤ S192x192.size a
  hwx0_10 : ∀ i : grid0.Coords, EltTy.bits .f32 = 32 ∨ (Rect.block (s := S192x192) S192x192.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x192.size a ≤ S1x192.size a
  hwx0_11 : ∀ i : grid0.Coords, EltTy.bits .f32 = 32 ∨ (Rect.block (s := S1x192) S1x192.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x64.size a ≤ S32768x64.size a
  hwx0_16 : ∀ i : grid0.Coords, EltTy.bits .f32 = 32 ∨ (Rect.block (s := S32768x64) S256x64.size (cc0_transform_16 i) (hinb0_16 i)).WholeWords (EltTy.packing .f32)

variable [Facts₀]

def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x192_S192x192_S4096x192_1_0_0_1_n_n : DotDims S4096x192 S192x192 S4096x192 where
  lhsContracting := [1]
  rhsContracting := [0]
  lhsNonContracting := [0]
  rhsNonContracting := [1]
  lhsBatch := []
  rhsBatch := []
  wf := dot_S4096x192_S192x192_S4096x192_1_0_0_1_n_n_wf

abbrev win0_0 : Pipeline.Window sig grid0 :=
  Pipeline.Window.ofSpec (Memref.whole main_v0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x3x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S64x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S192x192.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S1x192.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v16) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v17) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v18) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v21) S256x64.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S2x16384x64 : Shape := ⟨3, ![2, 16384, 64]⟩
abbrev S2x16384x16x64 : Shape := ⟨4, ![2, 16384, 16, 64]⟩
abbrev S2x16384x3 : Shape := ⟨3, ![2, 16384, 3]⟩
abbrev S2x16384x16x3 : Shape := ⟨4, ![2, 16384, 16, 3]⟩
abbrev S64x64 : Shape := ⟨2, ![64, 64]⟩
abbrev S64 : Shape := ⟨1, ![64]⟩
abbrev S3x64 : Shape := ⟨2, ![3, 64]⟩
abbrev S1x1x64 : Shape := ⟨3, ![1, 1, 64]⟩
abbrev S_ : Shape := ⟨0, ![]⟩
abbrev S2x16384x1x64 : Shape := ⟨4, ![2, 16384, 1, 64]⟩
abbrev S1x1x1x64 : Shape := ⟨4, ![1, 1, 1, 64]⟩
abbrev S2x16384x1x3 : Shape := ⟨4, ![2, 16384, 1, 3]⟩

abbrev nBuf : Space → Nat
  | .hbm => 89
  | .vmem => 0
  | .smem => 0
  | _ => 0

abbrev bufTy : (tb : Table) → Fin (tcTables nBuf tb) → BufTy
  | .hbm, ⟨0, _⟩ => ⟨S2x16384x64, .f32⟩
  | .hbm, ⟨1, _⟩ => ⟨S2x16384x16x64, .f32⟩
  | .hbm, ⟨2, _⟩ => ⟨S2x16384x3, .f32⟩
  | .hbm, ⟨3, _⟩ => ⟨S2x16384x16x3, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S3x64, .f32⟩
  | .hbm, ⟨17, _⟩ => ⟨S64, .f32⟩
  | .hbm, ⟨18, _⟩ => ⟨S64x64, .f32⟩
  | .hbm, ⟨19, _⟩ => ⟨S64, .f32⟩
  | .hbm, ⟨20, _⟩ => ⟨S2x16384x64, .f32⟩
  | .hbm, ⟨21, _⟩ => ⟨S1x1x64, .f32⟩
  | .hbm, ⟨22, _⟩ => ⟨S2x16384x64, .f32⟩
  | .hbm, ⟨23, _⟩ => ⟨S2x16384x64, .f32⟩
  | .hbm, ⟨24, _⟩ => ⟨S_, .f32⟩
  | .hbm, ⟨25, _⟩ => ⟨S2x16384x64, .f32⟩
  | .hbm, ⟨26, _⟩ => ⟨S2x16384x64, .f32⟩
  | .hbm, ⟨27, _⟩ => ⟨S2x16384x64, .f32⟩
  | .hbm, ⟨28, _⟩ => ⟨S1x1x64, .f32⟩
  | .hbm, ⟨29, _⟩ => ⟨S2x16384x64, .f32⟩
  | .hbm, ⟨30, _⟩ => ⟨S2x16384x64, .f32⟩
  | .hbm, ⟨31, _⟩ => ⟨S2x16384x1x64, .f32⟩
  | .hbm, ⟨32, _⟩ => ⟨S2x16384x16x64, .f32⟩
  | .hbm, ⟨33, _⟩ => ⟨S1x1x1x64, .f32⟩
  | .hbm, ⟨34, _⟩ => ⟨S2x16384x16x64, .f32⟩
  | .hbm, ⟨35, _⟩ => ⟨S2x16384x16x64, .f32⟩
  | .hbm, ⟨36, _⟩ => ⟨S_, .f32⟩
  | .hbm, ⟨37, _⟩ => ⟨S2x16384x16x64, .f32⟩
  | .hbm, ⟨38, _⟩ => ⟨S2x16384x16x64, .f32⟩
  | .hbm, ⟨39, _⟩ => ⟨S2x16384x16x64, .f32⟩
  | .hbm, ⟨40, _⟩ => ⟨S1x1x1x64, .f32⟩
  | .hbm, ⟨41, _⟩ => ⟨S2x16384x16x64, .f32⟩
  | .hbm, ⟨42, _⟩ => ⟨S2x16384x16x64, .f32⟩
  | .hbm, ⟨43, _⟩ => ⟨S2x16384x16x64, .f32⟩
  | .hbm, ⟨44, _⟩ => ⟨S1x1x1x64, .f32⟩
  | .hbm, ⟨45, _⟩ => ⟨S2x16384x16x64, .f32⟩
  | .hbm, ⟨46, _⟩ => ⟨S2x16384x16x64, .f32⟩
  | .hbm, ⟨47, _⟩ => ⟨S_, .f32⟩
  | .hbm, ⟨48, _⟩ => ⟨S2x16384x16x64, .f32⟩
  | .hbm, ⟨49, _⟩ => ⟨S2x16384x16x64, .f32⟩
  | .hbm, ⟨50, _⟩ => ⟨S2x16384x16x64, .f32⟩
  | .hbm, ⟨51, _⟩ => ⟨S1x1x1x64, .f32⟩
  | .hbm, ⟨52, _⟩ => ⟨S2x16384x16x64, .f32⟩
  | .hbm, ⟨53, _⟩ => ⟨S2x16384x16x64, .f32⟩
  | .hbm, ⟨54, _⟩ => ⟨S2x16384x1x3, .f32⟩
  | .hbm, ⟨55, _⟩ => ⟨S2x16384x16x3, .f32⟩
  | .hbm, ⟨56, _⟩ => ⟨S2x16384x16x3, .f32⟩
  | .hbm, ⟨57, _⟩ => ⟨S2x16384x16x64, .f32⟩
  | .hbm, ⟨58, _⟩ => ⟨S1x1x1x64, .f32⟩
  | .hbm, ⟨59, _⟩ => ⟨S2x16384x16x64, .f32⟩
  | .hbm, ⟨60, _⟩ => ⟨S2x16384x16x64, .f32⟩
  | .hbm, ⟨61, _⟩ => ⟨S_, .f32⟩
  | .hbm, ⟨62, _⟩ => ⟨S2x16384x16x64, .f32⟩
  | .hbm, ⟨63, _⟩ => ⟨S2x16384x16x64, .f32⟩
  | .hbm, ⟨64, _⟩ => ⟨S2x16384x16x64, .f32⟩
  | .hbm, ⟨65, _⟩ => ⟨S1x1x1x64, .f32⟩
  | .hbm, ⟨66, _⟩ => ⟨S2x16384x16x64, .f32⟩
  | .hbm, ⟨67, _⟩ => ⟨S2x16384x16x64, .f32⟩
  | .hbm, ⟨68, _⟩ => ⟨S2x16384x16x64, .f32⟩
  | .hbm, ⟨69, _⟩ => ⟨S2x16384x16x64, .f32⟩
  | .hbm, ⟨70, _⟩ => ⟨S2x16384x16x64, .f32⟩
  | .hbm, ⟨71, _⟩ => ⟨S_, .f32⟩
  | .hbm, ⟨72, _⟩ => ⟨S2x16384x64, .f32⟩
  | .hbm, ⟨73, _⟩ => ⟨S_, .f32⟩
  | .hbm, ⟨74, _⟩ => ⟨S2x16384x64, .f32⟩
  | .hbm, ⟨75, _⟩ => ⟨S2x16384x64, .f32⟩
  | .hbm, ⟨76, _⟩ => ⟨S2x16384x1x64, .f32⟩
  | .hbm, ⟨77, _⟩ => ⟨S2x16384x16x64, .f32⟩
  | .hbm, ⟨78, _⟩ => ⟨S2x16384x16x64, .f32⟩
  | .hbm, ⟨79, _⟩ => ⟨S2x16384x16x64, .f32⟩
  | .hbm, ⟨80, _⟩ => ⟨S_, .f32⟩
  | .hbm, ⟨81, _⟩ => ⟨S2x16384x64, .f32⟩
  | .hbm, ⟨82, _⟩ => ⟨S2x16384x1x64, .f32⟩
  | .hbm, ⟨83, _⟩ => ⟨S2x16384x16x64, .f32⟩
  | .hbm, ⟨84, _⟩ => ⟨S2x16384x16x64, .f32⟩
  | .hbm, ⟨85, _⟩ => ⟨S2x16384x16x64, .f32⟩
  | .hbm, ⟨86, _⟩ => ⟨S2x16384x16x64, .f32⟩
  | .hbm, ⟨87, _⟩ => ⟨S_, .f32⟩
  | .hbm, ⟨88, _⟩ => ⟨S2x16384x64, .f32⟩
  | _, _ => ⟨S2x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_cst : Ref sig .tc := ⟨.hbm, 24, rfl⟩
abbrev main_call0_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_call1_cst : Ref sig .tc := ⟨.hbm, 36, rfl⟩
abbrev main_call1_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call2_cst : Ref sig .tc := ⟨.hbm, 47, rfl⟩
abbrev main_call2_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call3_cst : Ref sig .tc := ⟨.hbm, 61, rfl⟩
abbrev main_call3_v0 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst : Ref sig .tc := ⟨.hbm, 71, rfl⟩
abbrev main_v43 : Ref sig .tc := ⟨.hbm, 72, rfl⟩
abbrev main_cst_0 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_1 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_2 : Ref sig .tc := ⟨.hbm, 87, rfl⟩
abbrev main_v56 : Ref sig .tc := ⟨.hbm, 88, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S2x16384x64_0_1_2 : S1x1x64.BroadcastsInDim S2x16384x64 (![0, 1, 2] : Fin 3 → Fin S2x16384x64.rank)
  bcast_S_S2x16384x64 : S_.BroadcastsInDim S2x16384x64 (![] : Fin 0 → Fin S2x16384x64.rank)
  bcast_S2x16384x64_S2x16384x1x64_0_1_3 : S2x16384x64.BroadcastsInDim S2x16384x1x64 (![0, 1, 3] : Fin 3 → Fin S2x16384x1x64.rank)
  bcast_S64_S1x1x1x64_3 : S64.BroadcastsInDim S1x1x1x64 (![3] : Fin 1 → Fin S1x1x1x64.rank)
  bcast_S1x1x1x64_S2x16384x16x64_0_1_2_3 : S1x1x1x64.BroadcastsInDim S2x16384x16x64 (![0, 1, 2, 3] : Fin 4 → Fin S2x16384x16x64.rank)
  bcast_S_S2x16384x16x64 : S_.BroadcastsInDim S2x16384x16x64 (![] : Fin 0 → Fin S2x16384x16x64.rank)
  bcast_S2x16384x3_S2x16384x1x3_0_1_3 : S2x16384x3.BroadcastsInDim S2x16384x1x3 (![0, 1, 3] : Fin 3 → Fin S2x16384x1x3.rank)
  bcast_S2x16384x1x3_S2x16384x16x3_0_1_2_3 : S2x16384x1x3.BroadcastsInDim S2x16384x16x3 (![0, 1, 2, 3] : Fin 4 → Fin S2x16384x16x3.rank)
  bcast_S2x16384x1x64_S2x16384x16x64_0_1_2_3 : S2x16384x1x64.BroadcastsInDim S2x16384x16x64 (![0, 1, 2, 3] : Fin 4 → Fin S2x16384x16x64.rank)
  reducesTo_S2x16384x16x64_S2x16384x64_d2 : S2x16384x16x64.ReducesTo [2] S2x16384x64
  h_S_ : 0 < S_.numel
  dot_S2x16384x64_S64x64_S2x16384x64_2_0_01_1_n_n_wf : DotDims.WF S2x16384x64 S64x64 S2x16384x64 [2] [0] [0, 1] [1] [] []
  dot_S2x16384x16x64_S64x64_S2x16384x16x64_3_0_012_1_n_n_wf : DotDims.WF S2x16384x16x64 S64x64 S2x16384x16x64 [3] [0] [0, 1, 2] [1] [] []
  dot_S2x16384x16x3_S3x64_S2x16384x16x64_3_0_012_1_n_n_wf : DotDims.WF S2x16384x16x3 S3x64 S2x16384x16x64 [3] [0] [0, 1, 2] [1] [] []

variable [Facts₀]

def dot_S2x16384x64_S64x64_S2x16384x64_2_0_01_1_n_n : DotDims S2x16384x64 S64x64 S2x16384x64 where
  lhsContracting := [2]
  rhsContracting := [0]
  lhsNonContracting := [0, 1]
  rhsNonContracting := [1]
  lhsBatch := []
  rhsBatch := []
  wf := dot_S2x16384x64_S64x64_S2x16384x64_2_0_01_1_n_n_wf
def dot_S2x16384x16x64_S64x64_S2x16384x16x64_3_0_012_1_n_n : DotDims S2x16384x16x64 S64x64 S2x16384x16x64 where
  lhsContracting := [3]
  rhsContracting := [0]
  lhsNonContracting := [0, 1, 2]
  rhsNonContracting := [1]
  lhsBatch := []
  rhsBatch := []
  wf := dot_S2x16384x16x64_S64x64_S2x16384x16x64_3_0_012_1_n_n_wf
def dot_S2x16384x16x3_S3x64_S2x16384x16x64_3_0_012_1_n_n : DotDims S2x16384x16x3 S3x64 S2x16384x16x64 where
  lhsContracting := [3]
  rhsContracting := [0]
  lhsNonContracting := [0, 1, 2]
  rhsNonContracting := [1]
  lhsBatch := []
  rhsBatch := []
  wf := dot_S2x16384x16x3_S3x64_S2x16384x16x64_3_0_012_1_n_n_wf

class Facts : Prop extends Facts₀ where

variable [Facts]
-- ==== Proof.FrameBits.lean ====
/- The frame of the program `Kernel`: @main is twenty-two host operations (reshapes, a transpose, concatenations,
   a constant and its broadcast, slices), one pipelined region on a static grid of 128 points with seventeen
   windows (sixteen inputs, one output), and one reshape of the region's result. The region's body loads every
   input block whole, and stores one whole block into the output window. Hence every argument array of @main
   ends as it was launched. -/
import proofs.«140518_j51651276702286_2_alg».proof.Proof.Gen.Kernel.Launch
import proofs.«140518_j51651276702286_2_alg».proof.Proof.Gen.Kernel.Skeleton
import proofs.«140518_j51651276702286_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: the launch contents after the
    twenty-two host operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation before the region leaves a buffer undetermined. -/
theorem hostOps0_fresh : (hostOps0 : List (HloOp τ sig (Elt F))).Forall fun op => op.fresh = ∅ := by
  simp only [List.Forall]; repeat' constructor
/-- Nor does the reshape after it. -/
theorem hostOps1_fresh : (hostOps1 : List (HloOp τ sig (Elt F))).Forall fun op => op.fresh = ∅ := by
  simp only [List.Forall]; repeat' constructor

/-- The references the host operations before the region write: each its own result. -/
abbrev hostOps0_W : List (Ref sig .tc) := [main_v0, main_v1, main_v2, main_v3, main_v4, main_v5, main_v6, main_v7, main_cst, main_v8, main_v9, main_v10, main_v11, main_v12, main_v13, main_v14, main_v15, main_v16, main_v17, main_v18, main_v19, main_v20]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The reference the reshape after the region writes. -/
abbrev hostOps1_W : List (Ref sig .tc) := [main_v22]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)

/-- @main around the region: it reduces to the region continued by the reshape after it, the unscoped buffers held at
    the contents the host operations before the region leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: it writes its own result, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- A reference no host operation before the region writes is found by the region as launched. -/
theorem V_of (c : Dev nD) (r : Ref sig .tc) (h : r ∉ hostOps0_W) : V m c r = m ((c : Thread nD τ).loc r) := by
  dsimp only [V, V0]
  simp only [List.flatten_cons, List.flatten_nil, List.append_nil]
  exact StableHlo.after_of_writes_sub hostOps0 _ hostOps0_writes h

theorem V_main_arg0 (c : Dev nD) : V m c main_arg0 = m ((c : Thread nD τ).loc main_arg0) := V_of m c main_arg0 (by decide)
theorem V_main_arg1 (c : Dev nD) : V m c main_arg1 = m ((c : Thread nD τ).loc main_arg1) := V_of m c main_arg1 (by decide)
theorem V_main_arg2 (c : Dev nD) : V m c main_arg2 = m ((c : Thread nD τ).loc main_arg2) := V_of m c main_arg2 (by decide)
theorem V_main_arg3 (c : Dev nD) : V m c main_arg3 = m ((c : Thread nD τ).loc main_arg3) := V_of m c main_arg3 (by decide)
theorem V_main_arg4 (c : Dev nD) : V m c main_arg4 = m ((c : Thread nD τ).loc main_arg4) := V_of m c main_arg4 (by decide)
theorem V_main_arg5 (c : Dev nD) : V m c main_arg5 = m ((c : Thread nD τ).loc main_arg5) := V_of m c main_arg5 (by decide)
theorem V_main_arg6 (c : Dev nD) : V m c main_arg6 = m ((c : Thread nD τ).loc main_arg6) := V_of m c main_arg6 (by decide)
theorem V_main_arg7 (c : Dev nD) : V m c main_arg7 = m ((c : Thread nD τ).loc main_arg7) := V_of m c main_arg7 (by decide)
theorem V_main_arg8 (c : Dev nD) : V m c main_arg8 = m ((c : Thread nD τ).loc main_arg8) := V_of m c main_arg8 (by decide)
theorem V_main_arg9 (c : Dev nD) : V m c main_arg9 = m ((c : Thread nD τ).loc main_arg9) := V_of m c main_arg9 (by decide)
theorem V_main_arg10 (c : Dev nD) : V m c main_arg10 = m ((c : Thread nD τ).loc main_arg10) := V_of m c main_arg10 (by decide)
theorem V_main_arg11 (c : Dev nD) : V m c main_arg11 = m ((c : Thread nD τ).loc main_arg11) := V_of m c main_arg11 (by decide)
theorem V_main_arg12 (c : Dev nD) : V m c main_arg12 = m ((c : Thread nD τ).loc main_arg12) := V_of m c main_arg12 (by decide)
theorem V_main_arg13 (c : Dev nD) : V m c main_arg13 = m ((c : Thread nD τ).loc main_arg13) := V_of m c main_arg13 (by decide)
theorem V_main_arg14 (c : Dev nD) : V m c main_arg14 = m ((c : Thread nD τ).loc main_arg14) := V_of m c main_arg14 (by decide)
theorem V_main_arg15 (c : Dev nD) : V m c main_arg15 = m ((c : Thread nD τ).loc main_arg15) := V_of m c main_arg15 (by decide)
theorem V_main_arg16 (c : Dev nD) : V m c main_arg16 = m ((c : Thread nD τ).loc main_arg16) := V_of m c main_arg16 (by decide)
theorem V_main_arg17 (c : Dev nD) : V m c main_arg17 = m ((c : Thread nD τ).loc main_arg17) := V_of m c main_arg17 (by decide)
theorem V_main_arg18 (c : Dev nD) : V m c main_arg18 = m ((c : Thread nD τ).loc main_arg18) := V_of m c main_arg18 (by decide)
theorem V_main_arg19 (c : Dev nD) : V m c main_arg19 = m ((c : Thread nD τ).loc main_arg19) := V_of m c main_arg19 (by decide)

/-- A reference that no host operation writes and no window stages ends as launched: the reshape after the region does
    not write it, the region passes it by, and the host operations before the region do not write it. -/
theorem W_of (dats : (p : Fin _) → (c : Dev nD) → Dat τ (Elt F) Unit ℕ (UR sig nD τ) ℕ (cfgs p) c) (c : Dev nD) (r : Ref sig .tc)
    (h1 : r ∉ hostOps1_W) (ha : ∀ w, Pipeline.arrRef spec0 w ≠ r) (h0 : r ∉ hostOps0_W) :
    Pipeline.afterTail₀ cfgs dats 0 (V0 m) [hostOps1] c r = m ((c : Thread nD τ).loc r) := by
  unfold Pipeline.afterTail₀
  simp only [List.flatten_cons, List.flatten_nil, List.append_nil]
  rw [StableHlo.after_of_writes_sub hostOps1 _ hostOps1_writes h1, Pipeline.withArrays_of_ne _ c (V0 m c) _ r ha]
  exact V_of m c r h0

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is the region-entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof data
    whose array is the region-entry contents and whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof data
    whose array is the region-entry contents and whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof data
    whose array is the region-entry contents and whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof data
    whose array is the region-entry contents and whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof data
    whose array is the region-entry contents and whose body leaves the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof data
    whose array is the region-entry contents and whose body leaves the block in place. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof data
    whose array is the region-entry contents and whose body leaves the block in place. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for any proof data
    whose array is the region-entry contents and whose body leaves the block in place. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for any proof data
    whose array is the region-entry contents and whose body leaves the block in place. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for any proof data
    whose array is the region-entry contents and whose body leaves the block in place. -/
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the
    library's frame post read at the argument arrays — an argument a window stages by the post's first clause (an input
    array ends as the region found it), every other argument by its second clause — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).2 main_arg0 (Pipeline.mem_restRefs_of main_arg0 (by decide) (by decide))).trans (W_of m dats c main_arg0 (by decide) (by decide) (by decide)),
      ((h c).2 main_arg1 (Pipeline.mem_restRefs_of main_arg1 (by decide) (by decide))).trans (W_of m dats c main_arg1 (by decide) (by decide) (by decide)),
      ((h c).2 main_arg2 (Pipeline.mem_restRefs_of main_arg2 (by decide) (by decide))).trans (W_of m dats c main_arg2 (by decide) (by decide) (by decide)),
      ((h c).2 main_arg3 (Pipeline.mem_restRefs_of main_arg3 (by decide) (by decide))).trans (W_of m dats c main_arg3 (by decide) (by decide) (by decide)),
      ((h c).1 4).trans (((dats 0 c).arrAt_in 4 rfl _).trans ((hA c 4).trans (V_main_arg4 m c))),
      ((h c).2 main_arg5 (Pipeline.mem_restRefs_of main_arg5 (by decide) (by decide))).trans (W_of m dats c main_arg5 (by decide) (by decide) (by decide)),
      ((h c).1 6).trans (((dats 0 c).arrAt_in 6 rfl _).trans ((hA c 6).trans (V_main_arg6 m c))),
      ((h c).2 main_arg7 (Pipeline.mem_restRefs_of main_arg7 (by decide) (by decide))).trans (W_of m dats c main_arg7 (by decide) (by decide) (by decide)),
      ((h c).2 main_arg8 (Pipeline.mem_restRefs_of main_arg8 (by decide) (by decide))).trans (W_of m dats c main_arg8 (by decide) (by decide) (by decide)),
      ((h c).2 main_arg9 (Pipeline.mem_restRefs_of main_arg9 (by decide) (by decide))).trans (W_of m dats c main_arg9 (by decide) (by decide) (by decide)),
      ((h c).2 main_arg10 (Pipeline.mem_restRefs_of main_arg10 (by decide) (by decide))).trans (W_of m dats c main_arg10 (by decide) (by decide) (by decide)),
      ((h c).2 main_arg11 (Pipeline.mem_restRefs_of main_arg11 (by decide) (by decide))).trans (W_of m dats c main_arg11 (by decide) (by decide) (by decide)),
      ((h c).2 main_arg12 (Pipeline.mem_restRefs_of main_arg12 (by decide) (by decide))).trans (W_of m dats c main_arg12 (by decide) (by decide) (by decide)),
      ((h c).2 main_arg13 (Pipeline.mem_restRefs_of main_arg13 (by decide) (by decide))).trans (W_of m dats c main_arg13 (by decide) (by decide) (by decide)),
      ((h c).2 main_arg14 (Pipeline.mem_restRefs_of main_arg14 (by decide) (by decide))).trans (W_of m dats c main_arg14 (by decide) (by decide) (by decide)),
      ((h c).2 main_arg15 (Pipeline.mem_restRefs_of main_arg15 (by decide) (by decide))).trans (W_of m dats c main_arg15 (by decide) (by decide) (by decide)),
      ((h c).2 main_arg16 (Pipeline.mem_restRefs_of main_arg16 (by decide) (by decide))).trans (W_of m dats c main_arg16 (by decide) (by decide) (by decide)),
      ((h c).2 main_arg17 (Pipeline.mem_restRefs_of main_arg17 (by decide) (by decide))).trans (W_of m dats c main_arg17 (by decide) (by decide) (by decide)),
      ((h c).2 main_arg18 (Pipeline.mem_restRefs_of main_arg18 (by decide) (by decide))).trans (W_of m dats c main_arg18 (by decide) (by decide) (by decide)),
      ((h c).2 main_arg19 (Pipeline.mem_restRefs_of main_arg19 (by decide) (by decide))).trans (W_of m dats c main_arg19 (by decide) (by decide) (by decide))⟩) h

/-! ## The body's accesses -/

/-- The whole-block rectangle of each window, as the body's loads and its store name it. -/
abbrev r0 : Rect S256x64 := Rect.unit (s := S256x64) ![0, 0] S256x64.size inb_S256x64_S256x64_0_0
abbrev r1 : Rect S256x16x64 := Rect.unit (s := S256x16x64) ![0, 0, 0] S256x16x64.size inb_S256x16x64_S256x16x64_0_0_0
abbrev r2 : Rect S256x3 := Rect.unit (s := S256x3) ![0, 0] S256x3.size inb_S256x3_S256x3_0_0
abbrev r3 : Rect S256x3x16 := Rect.unit (s := S256x3x16) ![0, 0, 0] S256x3x16.size inb_S256x3x16_S256x3x16_0_0_0
abbrev r4 : Rect S64x64 := Rect.unit (s := S64x64) ![0, 0] S64x64.size inb_S64x64_S64x64_0_0
abbrev r5 : Rect S1x64 := Rect.unit (s := S1x64) ![0, 0] S1x64.size inb_S1x64_S1x64_0_0
abbrev r6 : Rect S64x64 := Rect.unit (s := S64x64) ![0, 0] S64x64.size inb_S64x64_S64x64_0_0
abbrev r7 : Rect S1x64 := Rect.unit (s := S1x64) ![0, 0] S1x64.size inb_S1x64_S1x64_0_0
abbrev r8 : Rect S64x128 := Rect.unit (s := S64x128) ![0, 0] S64x128.size inb_S64x128_S64x128_0_0
abbrev r9 : Rect S1x128 := Rect.unit (s := S1x128) ![0, 0] S1x128.size inb_S1x128_S1x128_0_0
abbrev r10 : Rect S192x192 := Rect.unit (s := S192x192) ![0, 0] S192x192.size inb_S192x192_S192x192_0_0
abbrev r11 : Rect S1x192 := Rect.unit (s := S1x192) ![0, 0] S1x192.size inb_S1x192_S1x192_0_0
abbrev r12 : Rect S1x64 := Rect.unit (s := S1x64) ![0, 0] S1x64.size inb_S1x64_S1x64_0_0
abbrev r13 : Rect S1x64 := Rect.unit (s := S1x64) ![0, 0] S1x64.size inb_S1x64_S1x64_0_0
abbrev r14 : Rect S1x64 := Rect.unit (s := S1x64) ![0, 0] S1x64.size inb_S1x64_S1x64_0_0
abbrev r15 : Rect S1x64 := Rect.unit (s := S1x64) ![0, 0] S1x64.size inb_S1x64_S1x64_0_0
abbrev r16 : Rect S256x64 := Rect.unit (s := S256x64) ![0, 0] S256x64.size inb_S256x64_S256x64_0_0

/-! ## What the body leaves in the output window's buffer -/

/-- The output window's staging buffer after the body, from the input windows' blocks: its one store, of the whole
    block, of the body's value at the loaded input blocks. -/
def out16 (x0 : Vec F S256x64 .f32) (x1 : Vec F S256x16x64 .f32) (x2 : Vec F S256x3 .f32) (x3 : Vec F S256x3x16 .f32) (x4 : Vec F S64x64 .f32) (x5 : Vec F S1x64 .f32) (x6 : Vec F S64x64 .f32) (x7 : Vec F S1x64 .f32) (x8 : Vec F S64x128 .f32) (x9 : Vec F S1x128 .f32) (x10 : Vec F S192x192 .f32) (x11 : Vec F S1x192 .f32) (x12 : Vec F S1x64 .f32) (x13 : Vec F S1x64 .f32) (x14 : Vec F S1x64 .f32) (x15 : Vec F S1x64 .f32) : Vec F S256x64 .f32 :=
  View.canon [⟨r16, k0_pay1 (k0_pay2 (View.ld x0 r0) (View.ld x4 r4) (View.ld x5 r5) (View.ld x6 r6) (View.ld x7 r7)) (k0_pay3 (View.ld x1 r1) (View.ld x8 r8) (View.ld x9 r9)) (k0_pay4 (View.ld x2 r2) (View.ld x3 r3) (View.ld x12 r12) (View.ld x13 r13) (View.ld x14 r14) (View.ld x15 r15)) (View.ld x10 r10) (View.ld x11 r11)⟩]

/-- The one store is of the whole block, so it covers the buffer. -/
theorem cover16 (p0 : Vec F S256x64 .f32) (y : S256x64.Idx) :
    ∃ pc ∈ ([⟨r16, p0⟩] : List (View.Piece (Elt F) S256x64 .f32)), y ∈ pc.1.set :=
  View.cover_of_tiled [⟨r16, p0⟩] S256x64.size (by rfl) y

/-! ## The body's triple -/

-- the body reads sixteen whole blocks (the largest 256 × 16 × 64) and writes one: a long chain of steps
set_option maxHeartbeats 4000000 in
/-- The kernel body on whole staging memrefs, the inputs' at contents `xW` and the output's at anything, runs to the
    continuation holding the inputs' as they were and the output's at `out16` of the inputs'. -/
theorem sound_kernel (c : Dev nD) (E : Set ℕ) (i : grid0.Coords) (arg1 : Memref sig .tc .vmem S256x64 .f32) (harg1 : arg1.IsWhole) (arg2 : Memref sig .tc .vmem S256x16x64 .f32) (harg2 : arg2.IsWhole) (arg3 : Memref sig .tc .vmem S256x3 .f32) (harg3 : arg3.IsWhole) (arg4 : Memref sig .tc .vmem S256x3x16 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x128 .f32) (harg9 : arg9.IsWhole) (arg10 : Memref sig .tc .vmem S1x128 .f32) (harg10 : arg10.IsWhole) (arg11 : Memref sig .tc .vmem S192x192 .f32) (harg11 : arg11.IsWhole) (arg12 : Memref sig .tc .vmem S1x192 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S256x64 .f32) (harg17 : arg17.IsWhole)
    (x0 : Vec F S256x64 .f32) (x1 : Vec F S256x16x64 .f32) (x2 : Vec F S256x3 .f32) (x3 : Vec F S256x3x16 .f32) (x4 : Vec F S64x64 .f32) (x5 : Vec F S1x64 .f32) (x6 : Vec F S64x64 .f32) (x7 : Vec F S1x64 .f32) (x8 : Vec F S64x128 .f32) (x9 : Vec F S1x128 .f32) (x10 : Vec F S192x192 .f32) (x11 : Vec F S1x192 .f32) (x12 : Vec F S1x64 .f32) (x13 : Vec F S1x64 .f32) (x14 : Vec F S1x64 .f32) (x15 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out16 x0 x1 x2 x3 x4 x5 x6 x7 x8 x9 x10 x11 x12 x13 x14 x15)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__kernel_eq_skeleton]; unfold cc0__kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  try dsimp only
  exact View.read_writes_eq_canon _ _ _ (cover16 _)

/-! ## The pipeline's proof data -/

/-- The proof data of the one pipeline on core `c`: the arrays as the region finds them (`V`); after the body at
    point `t` each input's buffer at its block and the output's at `out16` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 17, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

/-- Each input's current staging buffer holds its block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

-- seventeen windows' ownership is threaded through the body's triple
set_option maxHeartbeats 1000000 in
/-- The body at any point: the inputs' memrefs hold their blocks, so the body's triple applies; the invariant and the
    core's owed transfers pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame run's statement is matched against this one up to unfolding of plain definitions
set_option backward.isDefEq.respectTransparency.types false in
/-- At the compiled mesh, for any values, from any memory with zero counters: every weakly fair execution of @main on the
    TensorCores terminates, and every final state has every array of the pipeline at what the library computes from the
    proof data and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every argument array of @main ends as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

end Cert.Kernel.Hand

end
-- ==== Proof.FrameIdeal.lean ====
/- The frame of the program `KernelIdeal`: @main is twenty-two host operations (reshapes, a transpose, concatenations,
   a constant and its broadcast, slices), one pipelined region on a static grid of 128 points with seventeen
   windows (sixteen inputs, one output), and one reshape of the region's result. The region's body loads every
   input block whole, and stores one whole block into the output window. Hence every argument array of @main
   ends as it was launched. -/
import proofs.«140518_j51651276702286_2_alg».proof.Proof.Gen.KernelIdeal.Launch
import proofs.«140518_j51651276702286_2_alg».proof.Proof.Gen.KernelIdeal.Skeleton
import proofs.«140518_j51651276702286_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: the launch contents after the
    twenty-two host operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation before the region leaves a buffer undetermined. -/
theorem hostOps0_fresh : (hostOps0 : List (HloOp τ sig (Elt F))).Forall fun op => op.fresh = ∅ := by
  simp only [List.Forall]; repeat' constructor
/-- Nor does the reshape after it. -/
theorem hostOps1_fresh : (hostOps1 : List (HloOp τ sig (Elt F))).Forall fun op => op.fresh = ∅ := by
  simp only [List.Forall]; repeat' constructor

/-- The references the host operations before the region write: each its own result. -/
abbrev hostOps0_W : List (Ref sig .tc) := [main_v0, main_v1, main_v2, main_v3, main_v4, main_v5, main_v6, main_v7, main_cst, main_v8, main_v9, main_v10, main_v11, main_v12, main_v13, main_v14, main_v15, main_v16, main_v17, main_v18, main_v19, main_v20]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The reference the reshape after the region writes. -/
abbrev hostOps1_W : List (Ref sig .tc) := [main_v22]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)

/-- @main around the region: it reduces to the region continued by the reshape after it, the unscoped buffers held at
    the contents the host operations before the region leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: it writes its own result, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- A reference no host operation before the region writes is found by the region as launched. -/
theorem V_of (c : Dev nD) (r : Ref sig .tc) (h : r ∉ hostOps0_W) : V m c r = m ((c : Thread nD τ).loc r) := by
  dsimp only [V, V0]
  simp only [List.flatten_cons, List.flatten_nil, List.append_nil]
  exact StableHlo.after_of_writes_sub hostOps0 _ hostOps0_writes h

theorem V_main_arg0 (c : Dev nD) : V m c main_arg0 = m ((c : Thread nD τ).loc main_arg0) := V_of m c main_arg0 (by decide)
theorem V_main_arg1 (c : Dev nD) : V m c main_arg1 = m ((c : Thread nD τ).loc main_arg1) := V_of m c main_arg1 (by decide)
theorem V_main_arg2 (c : Dev nD) : V m c main_arg2 = m ((c : Thread nD τ).loc main_arg2) := V_of m c main_arg2 (by decide)
theorem V_main_arg3 (c : Dev nD) : V m c main_arg3 = m ((c : Thread nD τ).loc main_arg3) := V_of m c main_arg3 (by decide)
theorem V_main_arg4 (c : Dev nD) : V m c main_arg4 = m ((c : Thread nD τ).loc main_arg4) := V_of m c main_arg4 (by decide)
theorem V_main_arg5 (c : Dev nD) : V m c main_arg5 = m ((c : Thread nD τ).loc main_arg5) := V_of m c main_arg5 (by decide)
theorem V_main_arg6 (c : Dev nD) : V m c main_arg6 = m ((c : Thread nD τ).loc main_arg6) := V_of m c main_arg6 (by decide)
theorem V_main_arg7 (c : Dev nD) : V m c main_arg7 = m ((c : Thread nD τ).loc main_arg7) := V_of m c main_arg7 (by decide)
theorem V_main_arg8 (c : Dev nD) : V m c main_arg8 = m ((c : Thread nD τ).loc main_arg8) := V_of m c main_arg8 (by decide)
theorem V_main_arg9 (c : Dev nD) : V m c main_arg9 = m ((c : Thread nD τ).loc main_arg9) := V_of m c main_arg9 (by decide)
theorem V_main_arg10 (c : Dev nD) : V m c main_arg10 = m ((c : Thread nD τ).loc main_arg10) := V_of m c main_arg10 (by decide)
theorem V_main_arg11 (c : Dev nD) : V m c main_arg11 = m ((c : Thread nD τ).loc main_arg11) := V_of m c main_arg11 (by decide)
theorem V_main_arg12 (c : Dev nD) : V m c main_arg12 = m ((c : Thread nD τ).loc main_arg12) := V_of m c main_arg12 (by decide)
theorem V_main_arg13 (c : Dev nD) : V m c main_arg13 = m ((c : Thread nD τ).loc main_arg13) := V_of m c main_arg13 (by decide)
theorem V_main_arg14 (c : Dev nD) : V m c main_arg14 = m ((c : Thread nD τ).loc main_arg14) := V_of m c main_arg14 (by decide)
theorem V_main_arg15 (c : Dev nD) : V m c main_arg15 = m ((c : Thread nD τ).loc main_arg15) := V_of m c main_arg15 (by decide)
theorem V_main_arg16 (c : Dev nD) : V m c main_arg16 = m ((c : Thread nD τ).loc main_arg16) := V_of m c main_arg16 (by decide)
theorem V_main_arg17 (c : Dev nD) : V m c main_arg17 = m ((c : Thread nD τ).loc main_arg17) := V_of m c main_arg17 (by decide)
theorem V_main_arg18 (c : Dev nD) : V m c main_arg18 = m ((c : Thread nD τ).loc main_arg18) := V_of m c main_arg18 (by decide)
theorem V_main_arg19 (c : Dev nD) : V m c main_arg19 = m ((c : Thread nD τ).loc main_arg19) := V_of m c main_arg19 (by decide)

/-- A reference that no host operation writes and no window stages ends as launched: the reshape after the region does
    not write it, the region passes it by, and the host operations before the region do not write it. -/
theorem W_of (dats : (p : Fin _) → (c : Dev nD) → Dat τ (Elt F) Unit ℕ (UR sig nD τ) ℕ (cfgs p) c) (c : Dev nD) (r : Ref sig .tc)
    (h1 : r ∉ hostOps1_W) (ha : ∀ w, Pipeline.arrRef spec0 w ≠ r) (h0 : r ∉ hostOps0_W) :
    Pipeline.afterTail₀ cfgs dats 0 (V0 m) [hostOps1] c r = m ((c : Thread nD τ).loc r) := by
  unfold Pipeline.afterTail₀
  simp only [List.flatten_cons, List.flatten_nil, List.append_nil]
  rw [StableHlo.after_of_writes_sub hostOps1 _ hostOps1_writes h1, Pipeline.withArrays_of_ne _ c (V0 m c) _ r ha]
  exact V_of m c r h0

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is the region-entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof data
    whose array is the region-entry contents and whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof data
    whose array is the region-entry contents and whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof data
    whose array is the region-entry contents and whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof data
    whose array is the region-entry contents and whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof data
    whose array is the region-entry contents and whose body leaves the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof data
    whose array is the region-entry contents and whose body leaves the block in place. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof data
    whose array is the region-entry contents and whose body leaves the block in place. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for any proof data
    whose array is the region-entry contents and whose body leaves the block in place. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for any proof data
    whose array is the region-entry contents and whose body leaves the block in place. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for any proof data
    whose array is the region-entry contents and whose body leaves the block in place. -/
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the
    library's frame post read at the argument arrays — an argument a window stages by the post's first clause (an input
    array ends as the region found it), every other argument by its second clause — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).2 main_arg0 (Pipeline.mem_restRefs_of main_arg0 (by decide) (by decide))).trans (W_of m dats c main_arg0 (by decide) (by decide) (by decide)),
      ((h c).2 main_arg1 (Pipeline.mem_restRefs_of main_arg1 (by decide) (by decide))).trans (W_of m dats c main_arg1 (by decide) (by decide) (by decide)),
      ((h c).2 main_arg2 (Pipeline.mem_restRefs_of main_arg2 (by decide) (by decide))).trans (W_of m dats c main_arg2 (by decide) (by decide) (by decide)),
      ((h c).2 main_arg3 (Pipeline.mem_restRefs_of main_arg3 (by decide) (by decide))).trans (W_of m dats c main_arg3 (by decide) (by decide) (by decide)),
      ((h c).1 4).trans (((dats 0 c).arrAt_in 4 rfl _).trans ((hA c 4).trans (V_main_arg4 m c))),
      ((h c).2 main_arg5 (Pipeline.mem_restRefs_of main_arg5 (by decide) (by decide))).trans (W_of m dats c main_arg5 (by decide) (by decide) (by decide)),
      ((h c).1 6).trans (((dats 0 c).arrAt_in 6 rfl _).trans ((hA c 6).trans (V_main_arg6 m c))),
      ((h c).2 main_arg7 (Pipeline.mem_restRefs_of main_arg7 (by decide) (by decide))).trans (W_of m dats c main_arg7 (by decide) (by decide) (by decide)),
      ((h c).2 main_arg8 (Pipeline.mem_restRefs_of main_arg8 (by decide) (by decide))).trans (W_of m dats c main_arg8 (by decide) (by decide) (by decide)),
      ((h c).2 main_arg9 (Pipeline.mem_restRefs_of main_arg9 (by decide) (by decide))).trans (W_of m dats c main_arg9 (by decide) (by decide) (by decide)),
      ((h c).2 main_arg10 (Pipeline.mem_restRefs_of main_arg10 (by decide) (by decide))).trans (W_of m dats c main_arg10 (by decide) (by decide) (by decide)),
      ((h c).2 main_arg11 (Pipeline.mem_restRefs_of main_arg11 (by decide) (by decide))).trans (W_of m dats c main_arg11 (by decide) (by decide) (by decide)),
      ((h c).2 main_arg12 (Pipeline.mem_restRefs_of main_arg12 (by decide) (by decide))).trans (W_of m dats c main_arg12 (by decide) (by decide) (by decide)),
      ((h c).2 main_arg13 (Pipeline.mem_restRefs_of main_arg13 (by decide) (by decide))).trans (W_of m dats c main_arg13 (by decide) (by decide) (by decide)),
      ((h c).2 main_arg14 (Pipeline.mem_restRefs_of main_arg14 (by decide) (by decide))).trans (W_of m dats c main_arg14 (by decide) (by decide) (by decide)),
      ((h c).2 main_arg15 (Pipeline.mem_restRefs_of main_arg15 (by decide) (by decide))).trans (W_of m dats c main_arg15 (by decide) (by decide) (by decide)),
      ((h c).2 main_arg16 (Pipeline.mem_restRefs_of main_arg16 (by decide) (by decide))).trans (W_of m dats c main_arg16 (by decide) (by decide) (by decide)),
      ((h c).2 main_arg17 (Pipeline.mem_restRefs_of main_arg17 (by decide) (by decide))).trans (W_of m dats c main_arg17 (by decide) (by decide) (by decide)),
      ((h c).2 main_arg18 (Pipeline.mem_restRefs_of main_arg18 (by decide) (by decide))).trans (W_of m dats c main_arg18 (by decide) (by decide) (by decide)),
      ((h c).2 main_arg19 (Pipeline.mem_restRefs_of main_arg19 (by decide) (by decide))).trans (W_of m dats c main_arg19 (by decide) (by decide) (by decide))⟩) h

/-! ## The body's accesses -/

/-- The whole-block rectangle of each window, as the body's loads and its store name it. -/
abbrev r0 : Rect S256x64 := Rect.unit (s := S256x64) ![0, 0] S256x64.size inb_S256x64_S256x64_0_0
abbrev r1 : Rect S256x16x64 := Rect.unit (s := S256x16x64) ![0, 0, 0] S256x16x64.size inb_S256x16x64_S256x16x64_0_0_0
abbrev r2 : Rect S256x3 := Rect.unit (s := S256x3) ![0, 0] S256x3.size inb_S256x3_S256x3_0_0
abbrev r3 : Rect S256x3x16 := Rect.unit (s := S256x3x16) ![0, 0, 0] S256x3x16.size inb_S256x3x16_S256x3x16_0_0_0
abbrev r4 : Rect S64x64 := Rect.unit (s := S64x64) ![0, 0] S64x64.size inb_S64x64_S64x64_0_0
abbrev r5 : Rect S1x64 := Rect.unit (s := S1x64) ![0, 0] S1x64.size inb_S1x64_S1x64_0_0
abbrev r6 : Rect S64x64 := Rect.unit (s := S64x64) ![0, 0] S64x64.size inb_S64x64_S64x64_0_0
abbrev r7 : Rect S1x64 := Rect.unit (s := S1x64) ![0, 0] S1x64.size inb_S1x64_S1x64_0_0
abbrev r8 : Rect S64x128 := Rect.unit (s := S64x128) ![0, 0] S64x128.size inb_S64x128_S64x128_0_0
abbrev r9 : Rect S1x128 := Rect.unit (s := S1x128) ![0, 0] S1x128.size inb_S1x128_S1x128_0_0
abbrev r10 : Rect S192x192 := Rect.unit (s := S192x192) ![0, 0] S192x192.size inb_S192x192_S192x192_0_0
abbrev r11 : Rect S1x192 := Rect.unit (s := S1x192) ![0, 0] S1x192.size inb_S1x192_S1x192_0_0
abbrev r12 : Rect S1x64 := Rect.unit (s := S1x64) ![0, 0] S1x64.size inb_S1x64_S1x64_0_0
abbrev r13 : Rect S1x64 := Rect.unit (s := S1x64) ![0, 0] S1x64.size inb_S1x64_S1x64_0_0
abbrev r14 : Rect S1x64 := Rect.unit (s := S1x64) ![0, 0] S1x64.size inb_S1x64_S1x64_0_0
abbrev r15 : Rect S1x64 := Rect.unit (s := S1x64) ![0, 0] S1x64.size inb_S1x64_S1x64_0_0
abbrev r16 : Rect S256x64 := Rect.unit (s := S256x64) ![0, 0] S256x64.size inb_S256x64_S256x64_0_0

/-! ## What the body leaves in the output window's buffer -/

/-- The output window's staging buffer after the body, from the input windows' blocks: its one store, of the whole
    block, of the body's value at the loaded input blocks. -/
def out16 (x0 : Vec F S256x64 .f32) (x1 : Vec F S256x16x64 .f32) (x2 : Vec F S256x3 .f32) (x3 : Vec F S256x3x16 .f32) (x4 : Vec F S64x64 .f32) (x5 : Vec F S1x64 .f32) (x6 : Vec F S64x64 .f32) (x7 : Vec F S1x64 .f32) (x8 : Vec F S64x128 .f32) (x9 : Vec F S1x128 .f32) (x10 : Vec F S192x192 .f32) (x11 : Vec F S1x192 .f32) (x12 : Vec F S1x64 .f32) (x13 : Vec F S1x64 .f32) (x14 : Vec F S1x64 .f32) (x15 : Vec F S1x64 .f32) : Vec F S256x64 .f32 :=
  View.canon [⟨r16, k0_pay1 (k0_pay2 (View.ld x0 r0) (View.ld x4 r4) (View.ld x5 r5) (View.ld x6 r6) (View.ld x7 r7)) (k0_pay3 (View.ld x1 r1) (View.ld x8 r8) (View.ld x9 r9)) (k0_pay4 (View.ld x2 r2) (View.ld x3 r3) (View.ld x12 r12) (View.ld x13 r13) (View.ld x14 r14) (View.ld x15 r15)) (View.ld x10 r10) (View.ld x11 r11)⟩]

/-- The one store is of the whole block, so it covers the buffer. -/
theorem cover16 (p0 : Vec F S256x64 .f32) (y : S256x64.Idx) :
    ∃ pc ∈ ([⟨r16, p0⟩] : List (View.Piece (Elt F) S256x64 .f32)), y ∈ pc.1.set :=
  View.cover_of_tiled [⟨r16, p0⟩] S256x64.size (by rfl) y

/-! ## The body's triple -/

-- the body reads sixteen whole blocks (the largest 256 × 16 × 64) and writes one: a long chain of steps
set_option maxHeartbeats 4000000 in
/-- The kernel body on whole staging memrefs, the inputs' at contents `xW` and the output's at anything, runs to the
    continuation holding the inputs' as they were and the output's at `out16` of the inputs'. -/
theorem sound_kernel (c : Dev nD) (E : Set ℕ) (i : grid0.Coords) (arg1 : Memref sig .tc .vmem S256x64 .f32) (harg1 : arg1.IsWhole) (arg2 : Memref sig .tc .vmem S256x16x64 .f32) (harg2 : arg2.IsWhole) (arg3 : Memref sig .tc .vmem S256x3 .f32) (harg3 : arg3.IsWhole) (arg4 : Memref sig .tc .vmem S256x3x16 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x128 .f32) (harg9 : arg9.IsWhole) (arg10 : Memref sig .tc .vmem S1x128 .f32) (harg10 : arg10.IsWhole) (arg11 : Memref sig .tc .vmem S192x192 .f32) (harg11 : arg11.IsWhole) (arg12 : Memref sig .tc .vmem S1x192 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S256x64 .f32) (harg17 : arg17.IsWhole)
    (x0 : Vec F S256x64 .f32) (x1 : Vec F S256x16x64 .f32) (x2 : Vec F S256x3 .f32) (x3 : Vec F S256x3x16 .f32) (x4 : Vec F S64x64 .f32) (x5 : Vec F S1x64 .f32) (x6 : Vec F S64x64 .f32) (x7 : Vec F S1x64 .f32) (x8 : Vec F S64x128 .f32) (x9 : Vec F S1x128 .f32) (x10 : Vec F S192x192 .f32) (x11 : Vec F S1x192 .f32) (x12 : Vec F S1x64 .f32) (x13 : Vec F S1x64 .f32) (x14 : Vec F S1x64 .f32) (x15 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out16 x0 x1 x2 x3 x4 x5 x6 x7 x8 x9 x10 x11 x12 x13 x14 x15)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__kernel_eq_skeleton]; unfold cc0__kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  try dsimp only
  exact View.read_writes_eq_canon _ _ _ (cover16 _)

/-! ## The pipeline's proof data -/

/-- The proof data of the one pipeline on core `c`: the arrays as the region finds them (`V`); after the body at
    point `t` each input's buffer at its block and the output's at `out16` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 17, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

/-- Each input's current staging buffer holds its block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

-- seventeen windows' ownership is threaded through the body's triple
set_option maxHeartbeats 1000000 in
/-- The body at any point: the inputs' memrefs hold their blocks, so the body's triple applies; the invariant and the
    core's owed transfers pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame run's statement is matched against this one up to unfolding of plain definitions
set_option backward.isDefEq.respectTransparency.types false in
/-- At the compiled mesh, for any values, from any memory with zero counters: every weakly fair execution of @main on the
    TensorCores terminates, and every final state has every array of the pipeline at what the library computes from the
    proof data and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every argument array of @main ends as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

end Cert.KernelIdeal.Hand

end
-- ==== Proof.KernelFinal.lean ====
/- From the blocks of the output window to @main's result: given that each grid point's output block is the
   restriction of ONE function of the core (`Gres c`, over the result's own shape [2, 16384, 64]) to the rows
   that point covers, the output window's array after the run is that function read at flat rows (row r of 32768
   is (r / 16384, r % 16384)), and the reshape after the region returns the function itself. -/
import proofs.«140518_j51651276702286_2_alg».proof.Proof.FrameIdeal
import Idealize.ShloMosaic.Lib.Pipeline.Value
import Idealize.ShloMosaic.Lib.ValueIdx

noncomputable section

namespace Cert.KernelIdeal.KVal

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)
variable (Gres : Dev nD → S2x16384x64.Idx → Elt F .f32)

/-- The hypothesis on the body's value: at grid point `t`, row `q` and column `j` of the output block is the result
    function at the batch `b` and position `n` with `b * 16384 + n = t * 256 + q`, and column `j`. -/
abbrev BlockEq : Prop :=
  ∀ (c : Dev nD) (t : Fin cfg0.N) (q : Fin 256) (j : Fin 64) (b : Fin 2) (n : Fin 16384), b.val * 16384 + n.val = t.val * 256 + q.val →
    out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 q j) = Gres c (ix3 b n j)

/-- The result function read at an index of the flat array [32768, 64]: row `r` is batch `r / 16384`, position
    `r % 16384`. -/
def Gflat (c : Dev nD) : S32768x64.Idx → Elt F .f32 := fun i =>
  Gres c (ix3 (⟨(i 0).val / 16384, by have h : (i 0).val < 32768 := (i 0).isLt; omega⟩ : Fin 2)
    (⟨(i 0).val % 16384, Nat.mod_lt _ (by decide)⟩ : Fin 16384) (i 1 : Fin 64))

/-! ## The output window's index map -/

/-- Point `t`'s output block is block row `t`, block column 0 (decided over the grid). -/
theorem idx16 : ∀ t : Fin cfg0.N, win0_16.index t (0 : Fin 2) = t.val ∧ win0_16.index t (1 : Fin 2) = 0 :=
  (by decide +kernel : ∀ t : Fin grid0.N, _)

/-! ## What a point writes back -/

/-- The output block at a point, at an index of the block, is the flat function at the array index with row
    `t * 256 +` the block row and the same column. -/
theorem point_eq (hG : BlockEq m Gres) (c : Dev nD) (t : Fin cfg0.N) (y : S256x64.Idx) (i : S32768x64.Idx)
    (h0 : (i 0).val = t.val * 256 + (y 0).val) (h1 : (i 1).val = (y 1).val) :
    out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = Gflat Gres c i := by
  have hlt : (i 0).val < 32768 := (i 0).isLt
  have hi1 : (i 1 : Fin 64) = y 1 := Fin.ext h1
  refine (congrArg (out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (eq_ix2 y)).trans ?_
  refine (hG c t (y 0) (y 1) ⟨(i 0).val / 16384, by omega⟩ ⟨(i 0).val % 16384, Nat.mod_lt _ (by decide)⟩ ?_).trans ?_
  · show (i 0).val / 16384 * 16384 + (i 0).val % 16384 = t.val * 256 + (y 0).val
    omega
  · unfold Gflat
    rw [hi1]

/-- What point `t` writes back is block `t` of the flat function. -/
theorem flushed16_eq (hG : BlockEq m Gres) (c : Dev nD) (t : Fin cfg0.N) :
    (dats m 0 c).flushed 16 t = ((cfg0.win 16).blk t).view.read (Elt F) (Gflat Gres c) := by
  show (cfg0.win 16).cut (grid0.coords t) ((dats m 0 c).after 16 t) = _
  rw [after16]
  obtain ⟨e0, e1⟩ := idx16 t
  funext y
  show out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = Gflat Gres c (((cfg0.win 16).blk t).view.emb y)
  refine point_eq m Gres hG c t y _ ?_ ?_
  · show win0_16.index t (0 : Fin 2) * 256 + 1 * (y 0).val = t.val * 256 + (y 0).val
    omega
  · show win0_16.index t (1 : Fin 2) * 64 + 1 * (y 1).val = (y 1).val
    omega

/-! ## The blocks cover the array -/

/-- An index of the array is in point `t`'s block iff each coordinate is in the block's range on its axis. -/
theorem mem_blk16 (t : Fin cfg0.N) (i : S32768x64.Idx) :
    i ∈ ((cfg0.win 16).blk t).view.set ↔ ∀ a : Fin 2, win0_16.index t a * S256x64.size a ≤ (i a).val ∧ (i a).val < win0_16.index t a * S256x64.size a + S256x64.size a := by
  show i ∈ ((View.whole main_v21).slice (win0_16.rect t)).set ↔ _
  rw [View.set_slice_whole, Rect.mem_set_unit]
  exact Iff.rfl

/-- Every index of the array is in the block of the point its row falls in: row `r` in that of point `r / 256`. -/
theorem covered16 (i : S32768x64.Idx) :
    ∃ t : Fin cfg0.N, (cfg0.win 16).flush t = true ∧ i ∈ ((cfg0.win 16).blk t).view.set := by
  have hi0 : (i 0).val < 32768 := (i 0).isLt
  have hi1 : (i 1).val < 64 := (i 1).isLt
  obtain ⟨t, ht⟩ : ∃ t : Fin cfg0.N, t.val = (i 0).val / 256 := ⟨⟨(i 0).val / 256, by have hN : cfg0.N = 128 := N_0; omega⟩, rfl⟩
  obtain ⟨e0, e1⟩ := idx16 t
  refine ⟨t, flush0_16 t, ?_⟩
  rw [mem_blk16]
  intro a
  match a with
  | ⟨0, _⟩ => show win0_16.index t (0 : Fin 2) * 256 ≤ (i 0).val ∧ (i 0).val < win0_16.index t (0 : Fin 2) * 256 + 256; omega
  | ⟨1, _⟩ => show win0_16.index t (1 : Fin 2) * 64 ≤ (i 1).val ∧ (i 1).val < win0_16.index t (1 : Fin 2) * 64 + 64; omega

/-- The output window's array after the run is the flat function. -/
theorem final16 (hG : BlockEq m Gres) (c : Dev nD) : (dats m 0 c).arrAt 16 cfg0.N = Gflat Gres c :=
  (dats m 0 c).arrAt_eq_of_cover 16 (Gflat Gres c) (fun t _ => flushed16_eq m Gres hG c t) covered16

/-! ## The reshape after the region -/

/-- @main's result: the reshape of the output window's array to [2, 16384, 64] is the result function. -/
theorem result22 (hG : BlockEq m Gres) (c : Dev nD) :
    Pipeline.afterTail₀ cfgs (dats m) 0 (V0 m) [hostOps1] c main_v22 = Gres c := by
  unfold Pipeline.afterTail₀
  show StableHlo.after hostOps1 _ (Proc.devRef .tc main_v22) = _
  after_results
  rw [(Pipeline.withArrays_arr spec0 launch0.win.arr_inj c _ _ 16).trans (final16 m Gres hG c)]
  funext i
  have hb : (i 0).val < 2 := (i 0).isLt
  have hn : (i 1).val < 16384 := (i 1).isLt
  show shapeCast S2x16384x64 (Gflat Gres c) shapeCasts_S32768x64_S2x16384x64 i = Gres c i
  rw [shapeCast_apply (Gflat Gres c) shapeCasts_S32768x64_S2x16384x64 i (ix2 (⟨(i 0).val * 16384 + (i 1).val, by omega⟩ : Fin 32768) (i 2 : Fin 64))
    (by rw [Shape.rowMajor_val_two, Shape.rowMajor_val_three]; rfl)]
  unfold Gflat
  refine congrArg (Gres c) ?_
  refine Eq.trans ?_ (eq_ix3 i).symm
  have e0 : (⟨((i 0).val * 16384 + (i 1).val) / 16384, by omega⟩ : Fin 2) = i 0 := Fin.ext (by show ((i 0).val * 16384 + (i 1).val) / 16384 = (i 0).val; omega)
  have e1 : (⟨((i 0).val * 16384 + (i 1).val) % 16384, Nat.mod_lt _ (by decide)⟩ : Fin 16384) = i 1 := Fin.ext (by show ((i 0).val * 16384 + (i 1).val) % 16384 = (i 1).val; omega)
  show ix3 (⟨((i 0).val * 16384 + (i 1).val) / 16384, by omega⟩ : Fin 2) (⟨((i 0).val * 16384 + (i 1).val) % 16384, Nat.mod_lt _ (by decide)⟩ : Fin 16384) (i 2 : Fin 64) = ix3 (i 0) (i 1) (i 2)
  rw [e0, e1]
  rfl

/-! ## The run, read -/

/-- The run with @main's result named: every weakly fair execution of @main terminates, its result holds the result
    function, and every argument array ends as launched. -/
theorem run_value (hG : BlockEq m Gres) : θ_run defs (onTc (τ := τ) (main (F := F))) ⟨m, fun _ => 0, ρ⟩ (fun r => ∀ c : Dev nD,
      r.2.mem ((c.tc : Thread nD τ).loc main_v22) = Gres c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).2 main_v22 (Pipeline.mem_restRefs_of main_v22 (by decide) (by decide))).trans (result22 m Gres hG c),
      ((h c).2 main_arg0 (Pipeline.mem_restRefs_of main_arg0 (by decide) (by decide))).trans (W_of m (dats m) c main_arg0 (by decide) (by decide) (by decide)),
      ((h c).2 main_arg1 (Pipeline.mem_restRefs_of main_arg1 (by decide) (by decide))).trans (W_of m (dats m) c main_arg1 (by decide) (by decide) (by decide)),
      ((h c).2 main_arg2 (Pipeline.mem_restRefs_of main_arg2 (by decide) (by decide))).trans (W_of m (dats m) c main_arg2 (by decide) (by decide) (by decide)),
      ((h c).2 main_arg3 (Pipeline.mem_restRefs_of main_arg3 (by decide) (by decide))).trans (W_of m (dats m) c main_arg3 (by decide) (by decide) (by decide)),
      ((h c).1 4).trans (((dats m 0 c).arrAt_in 4 rfl _).trans ((A_eq m c 4).trans (V_main_arg4 m c))),
      ((h c).2 main_arg5 (Pipeline.mem_restRefs_of main_arg5 (by decide) (by decide))).trans (W_of m (dats m) c main_arg5 (by decide) (by decide) (by decide)),
      ((h c).1 6).trans (((dats m 0 c).arrAt_in 6 rfl _).trans ((A_eq m c 6).trans (V_main_arg6 m c))),
      ((h c).2 main_arg7 (Pipeline.mem_restRefs_of main_arg7 (by decide) (by decide))).trans (W_of m (dats m) c main_arg7 (by decide) (by decide) (by decide)),
      ((h c).2 main_arg8 (Pipeline.mem_restRefs_of main_arg8 (by decide) (by decide))).trans (W_of m (dats m) c main_arg8 (by decide) (by decide) (by decide)),
      ((h c).2 main_arg9 (Pipeline.mem_restRefs_of main_arg9 (by decide) (by decide))).trans (W_of m (dats m) c main_arg9 (by decide) (by decide) (by decide)),
      ((h c).2 main_arg10 (Pipeline.mem_restRefs_of main_arg10 (by decide) (by decide))).trans (W_of m (dats m) c main_arg10 (by decide) (by decide) (by decide)),
      ((h c).2 main_arg11 (Pipeline.mem_restRefs_of main_arg11 (by decide) (by decide))).trans (W_of m (dats m) c main_arg11 (by decide) (by decide) (by decide)),
      ((h c).2 main_arg12 (Pipeline.mem_restRefs_of main_arg12 (by decide) (by decide))).trans (W_of m (dats m) c main_arg12 (by decide) (by decide) (by decide)),
      ((h c).2 main_arg13 (Pipeline.mem_restRefs_of main_arg13 (by decide) (by decide))).trans (W_of m (dats m) c main_arg13 (by decide) (by decide) (by decide)),
      ((h c).2 main_arg14 (Pipeline.mem_restRefs_of main_arg14 (by decide) (by decide))).trans (W_of m (dats m) c main_arg14 (by decide) (by decide) (by decide)),
      ((h c).2 main_arg15 (Pipeline.mem_restRefs_of main_arg15 (by decide) (by decide))).trans (W_of m (dats m) c main_arg15 (by decide) (by decide) (by decide)),
      ((h c).2 main_arg16 (Pipeline.mem_restRefs_of main_arg16 (by decide) (by decide))).trans (W_of m (dats m) c main_arg16 (by decide) (by decide) (by decide)),
      ((h c).2 main_arg17 (Pipeline.mem_restRefs_of main_arg17 (by decide) (by decide))).trans (W_of m (dats m) c main_arg17 (by decide) (by decide) (by decide)),
      ((h c).2 main_arg18 (Pipeline.mem_restRefs_of main_arg18 (by decide) (by decide))).trans (W_of m (dats m) c main_arg18 (by decide) (by decide) (by decide)),
      ((h c).2 main_arg19 (Pipeline.mem_restRefs_of main_arg19 (by decide) (by decide))).trans (W_of m (dats m) c main_arg19 (by decide) (by decide) (by decide))⟩) (run_main m ρ)

end Cert.KernelIdeal.KVal

end
-- ==== Proof.Spec.lean ====
/-
  The mathematics both programs compute, stated once over the extended reals.

  A point has a feature row `x`, sixteen neighbours with feature rows `xn k`, a position `p` and neighbour positions
  `pn k` (three coordinates each). Four two-layer perceptrons `relu (v·W₁ + b₁)·W₂ + b₂` give a query from `x`, a key
  and a value from each `xn k`, and a positional code from each difference `p - pn k`. Column by column, the weights
  over the neighbours are the softmax of `query - key + code` (the maximum subtracted first), and the result is the
  weighted sum of `value + code`.

  `mlp` is one output column of such a perceptron for one row; `attend` is the softmax-weighted sum over the sixteen
  neighbours for one column; `G` is the whole result `[2, 16384, 64]` as a function of the twenty argument arrays.
  `Kspec` is the same quantity written over the blocks one grid point of the kernel sees: the key and value first
  layers side by side in one `[64, 128]` matrix, the positional first layer as three multiply-adds, and the three second
  layers as one `[192, 192]` matrix read in three column ranges.
-/
import Idealize.ShloMosaic.PureOps.Ideal
import Idealize.ShloMosaic.Lib.ValueIdx

noncomputable section

namespace Cert.Attn

open Idealize.ShloMosaic Idealize.ShloMosaic.ValueIdx

/-- The rectifier. -/
def relu (v : EReal) : EReal := max v 0

/-- Column `j` of `relu (v·W₁ + b₁)·W₂ + b₂` for a row `v` of `K` entries and a hidden layer of 64. -/
def mlp {K : ℕ} (v : Fin K → EReal) (W₁ : Fin K → Fin 64 → EReal) (b₁ : Fin 64 → EReal)
    (W₂ : Fin 64 → Fin 64 → EReal) (b₂ : Fin 64 → EReal) (j : Fin 64) : EReal :=
  (∑ h : Fin 64, relu ((∑ i : Fin K, v i * W₁ i h) + b₁ h) * W₂ h j) + b₂ j

/-- One column of the attention over sixteen neighbours: with logits `q - kf k + pe k`, their maximum `μ` and
    `e k = exp (logit k - μ)`, the sum over `k` of `(e k / ∑ e) · (vf k + pe k)`. -/
def attend (q : EReal) (kf vf pe : Fin 16 → EReal) : EReal :=
  ∑ k : Fin 16,
    Ideal.div (Ideal.exp ((q - kf k + pe k) - Finset.univ.fold max ⊥ fun k' : Fin 16 => q - kf k' + pe k'))
        (∑ k'' : Fin 16, Ideal.exp ((q - kf k'' + pe k'') - Finset.univ.fold max ⊥ fun k' : Fin 16 => q - kf k' + pe k'))
      * (vf k + pe k)

/-- The result array as a function of the twenty argument arrays, index by index. -/
def G (x : (⟨3, ![2, 16384, 64]⟩ : Shape).Idx → EReal) (xn : (⟨4, ![2, 16384, 16, 64]⟩ : Shape).Idx → EReal)
    (p : (⟨3, ![2, 16384, 3]⟩ : Shape).Idx → EReal) (pn : (⟨4, ![2, 16384, 16, 3]⟩ : Shape).Idx → EReal)
    (qW1 : (⟨2, ![64, 64]⟩ : Shape).Idx → EReal) (qb1 : (⟨1, ![64]⟩ : Shape).Idx → EReal)
    (qW2 : (⟨2, ![64, 64]⟩ : Shape).Idx → EReal) (qb2 : (⟨1, ![64]⟩ : Shape).Idx → EReal)
    (kW1 : (⟨2, ![64, 64]⟩ : Shape).Idx → EReal) (kb1 : (⟨1, ![64]⟩ : Shape).Idx → EReal)
    (kW2 : (⟨2, ![64, 64]⟩ : Shape).Idx → EReal) (kb2 : (⟨1, ![64]⟩ : Shape).Idx → EReal)
    (vW1 : (⟨2, ![64, 64]⟩ : Shape).Idx → EReal) (vb1 : (⟨1, ![64]⟩ : Shape).Idx → EReal)
    (vW2 : (⟨2, ![64, 64]⟩ : Shape).Idx → EReal) (vb2 : (⟨1, ![64]⟩ : Shape).Idx → EReal)
    (pW1 : (⟨2, ![3, 64]⟩ : Shape).Idx → EReal) (pb1 : (⟨1, ![64]⟩ : Shape).Idx → EReal)
    (pW2 : (⟨2, ![64, 64]⟩ : Shape).Idx → EReal) (pb2 : (⟨1, ![64]⟩ : Shape).Idx → EReal) :
    (⟨3, ![2, 16384, 64]⟩ : Shape).Idx → EReal := fun i =>
  attend
    (mlp (fun a => x (ix3 (i 0) (i 1) a)) (fun a h => qW1 (ix2 a h)) (fun h => qb1 (ix1 h))
      (fun a h => qW2 (ix2 a h)) (fun h => qb2 (ix1 h)) (i 2))
    (fun k => mlp (fun a => xn (ix4 (i 0) (i 1) k a)) (fun a h => kW1 (ix2 a h)) (fun h => kb1 (ix1 h))
      (fun a h => kW2 (ix2 a h)) (fun h => kb2 (ix1 h)) (i 2))
    (fun k => mlp (fun a => xn (ix4 (i 0) (i 1) k a)) (fun a h => vW1 (ix2 a h)) (fun h => vb1 (ix1 h))
      (fun a h => vW2 (ix2 a h)) (fun h => vb2 (ix1 h)) (i 2))
    (fun k => mlp (fun a : Fin 3 => p (ix3 (i 0) (i 1) a) - pn (ix4 (i 0) (i 1) k a)) (fun a h => pW1 (ix2 a h))
      (fun h => pb1 (ix1 h)) (fun a h => pW2 (ix2 a h)) (fun h => pb2 (ix1 h)) (i 2))

/-! ## The same over the blocks of one grid point -/

/-- Hidden layer of the key and value perceptrons, side by side: row `(q, k)`, column `c` of `[256·16, 128]`. -/
def hkv (x1 : (⟨3, ![256, 16, 64]⟩ : Shape).Idx → EReal) (x8 : (⟨2, ![64, 128]⟩ : Shape).Idx → EReal)
    (x9 : (⟨2, ![1, 128]⟩ : Shape).Idx → EReal) (q : Fin 256) (k : Fin 16) (c : Fin 128) : EReal :=
  relu ((∑ i : Fin 64, x1 (ix3 q k i) * x8 (ix2 i c)) + x9 (ix2 0 c))

/-- Hidden layer of the positional perceptron as three multiply-adds: row `(q, k)`, column `h`. The positions of the
    neighbours arrive transposed, `[256, 3, 16]`. -/
def hpe (x2 : (⟨2, ![256, 3]⟩ : Shape).Idx → EReal) (x3 : (⟨3, ![256, 3, 16]⟩ : Shape).Idx → EReal)
    (x12 x13 x14 x15 : (⟨2, ![1, 64]⟩ : Shape).Idx → EReal) (q : Fin 256) (k : Fin 16) (h : Fin 64) : EReal :=
  relu ((((x2 (ix2 q 0) - x3 (ix3 q 0 k)) * x12 (ix2 0 h) + (x2 (ix2 q 1) - x3 (ix3 q 1 k)) * x13 (ix2 0 h))
    + (x2 (ix2 q 2) - x3 (ix3 q 2 k)) * x14 (ix2 0 h)) + x15 (ix2 0 h))

/-- Column `c` of the fused second layer for one row: the 128 key/value hidden entries against rows `0 … 127` of the
    `[192, 192]` matrix, the 64 positional hidden entries against rows `128 … 191`, plus the bias. -/
def fused (hk : Fin 128 → EReal) (hp : Fin 64 → EReal) (x10 : (⟨2, ![192, 192]⟩ : Shape).Idx → EReal)
    (x11 : (⟨2, ![1, 192]⟩ : Shape).Idx → EReal) (c : Fin 192) : EReal :=
  ((∑ a : Fin 128, hk a * x10 (ix2 ⟨a.val, by omega⟩ c)) + (∑ a : Fin 64, hp a * x10 (ix2 ⟨128 + a.val, by omega⟩ c)))
    + x11 (ix2 0 c)

/-- What one grid point stores at `(q, j)` of its `[256, 64]` output block, from its sixteen input blocks. -/
def Kspec (x0 : (⟨2, ![256, 64]⟩ : Shape).Idx → EReal) (x1 : (⟨3, ![256, 16, 64]⟩ : Shape).Idx → EReal)
    (x2 : (⟨2, ![256, 3]⟩ : Shape).Idx → EReal) (x3 : (⟨3, ![256, 3, 16]⟩ : Shape).Idx → EReal)
    (x4 : (⟨2, ![64, 64]⟩ : Shape).Idx → EReal) (x5 : (⟨2, ![1, 64]⟩ : Shape).Idx → EReal)
    (x6 : (⟨2, ![64, 64]⟩ : Shape).Idx → EReal) (x7 : (⟨2, ![1, 64]⟩ : Shape).Idx → EReal)
    (x8 : (⟨2, ![64, 128]⟩ : Shape).Idx → EReal) (x9 : (⟨2, ![1, 128]⟩ : Shape).Idx → EReal)
    (x10 : (⟨2, ![192, 192]⟩ : Shape).Idx → EReal) (x11 : (⟨2, ![1, 192]⟩ : Shape).Idx → EReal)
    (x12 x13 x14 x15 : (⟨2, ![1, 64]⟩ : Shape).Idx → EReal) (q : Fin 256) (j : Fin 64) : EReal :=
  attend
    (mlp (fun a => x0 (ix2 q a)) (fun a h => x4 (ix2 a h)) (fun h => x5 (ix2 0 h)) (fun a h => x6 (ix2 a h))
      (fun h => x7 (ix2 0 h)) j)
    (fun k => fused (hkv x1 x8 x9 q k) (hpe x2 x3 x12 x13 x14 x15 q k) x10 x11 ⟨j.val, by omega⟩)
    (fun k => fused (hkv x1 x8 x9 q k) (hpe x2 x3 x12 x13 x14 x15 q k) x10 x11 ⟨64 + j.val, by omega⟩)
    (fun k => fused (hkv x1 x8 x9 q k) (hpe x2 x3 x12 x13 x14 x15 q k) x10 x11 ⟨128 + j.val, by omega⟩)

end Cert.Attn

end
-- ==== Proof.LibMaxReduce.lean ====
/-
  A maximum-reduction over ONE axis read at the ideal values, free of the order the definitions fold in: a kernel's
  `vector.multi_reduction <maximumf>` from the accumulator `-∞`, and the host's one-operand `stablehlo.reduce` with a
  `maximum` body from an initial value `-∞`, are at a result index `j` the fold of `max` from `⊥` over the reduced
  axis's coordinates of the source at `j` with the coordinate inserted — for any rank, axis and extents.
-/
import Idealize.ShloMosaic.PureOps.Ideal.Laws

namespace Cert.LibMaxReduce

open Idealize.ShloMosaic

/-- The f32 pattern of `-∞` is the bottom of the extended reals. -/
theorem ofBits_neg_inf : Ideal.ofBits .f32 0xFF800000#32 = (⊥ : EReal) := by simp [Ideal.ofBits, Ideal.ieee]

/-- A kernel's f32 `multi_reduction <maximumf>` over one axis from `-∞`. -/
theorem multiReduction_maximumf_single {s t : Shape} {a : Fin s.rank} (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j
      = Finset.univ.fold max ⊥ fun k : Fin (s.size a) => src (h.lift j k) := by
  rw [multiReduction_maximumf_eq_fold]
  refine (h.fold_filter_drop_single FloatOps.maximumf _ src j).trans ?_
  show Finset.univ.fold max (Ideal.ofBits .f32 0xFF800000#32) (src ∘ h.lift j) = _
  rw [ofBits_neg_inf]
  rfl

/-- The host's `stablehlo.reduce` with a `maximum` body over one axis, its initial value the f32 `-∞`. -/
theorem hostReduce_maximumf_single {s t u : Shape} {a : Fin s.rank} (x : s.Idx → EReal) (init : u.Idx → EReal)
    (h' : s.ReducesTo [a] t) (h : s.Reduces [a] t) (hu : 0 < u.numel)
    (hinit : init (Shape.Idx.first hu) = Ideal.ofBits .f32 0xFF800000#32) (j : t.Idx) :
    Host.reduce (FloatOps.maximumf (F := Ideal) (φ := .f32)) x init h' hu j
      = Finset.univ.fold max ⊥ fun k : Fin (s.size a) => x (h.lift j k) := by
  rw [Host.reduce_eq_fold_single (FloatOps.maximumf (F := Ideal) (φ := .f32)) x init h' h hu j, hinit]
  show Finset.univ.fold max (Ideal.ofBits .f32 0xFF800000#32) (x ∘ h.lift j) = _
  rw [ofBits_neg_inf]
  rfl

end Cert.LibMaxReduce
-- ==== Proof.RefIsSpec.lean ====
/-
  The reference's result is the specification.

  The reference computes, stage by stage over whole arrays, four two-layer perceptrons (a query from each point's
  feature row, a key and a value from each neighbour's feature row, a positional code from each difference of
  positions), the logits `query - key + code`, their maximum over the sixteen neighbours, the exponentials of the
  logits less that maximum, their sum, the quotient, and the sum over the neighbours of the quotient times
  `value + code`. Each stage is read here at one index `(b, n, k, j)` or `(b, n, j)` from the stages before it:
  a contraction is the sum over the contracted coordinate, a broadcast reads its operand at the kept coordinates,
  the rectifier is the maximum with the zero word, a sum-reduction from the zero word is the plain sum, and the
  maximum-reduction from `-∞` is the fold of `max` from `⊥`. Composed, the last stage at `(b, n, j)` is
  `Cert.Attn.G` there.
-/
import proofs.«140518_j51651276702286_2_alg».proof.Proof.Gen.ReferenceIdeal.Read
import proofs.«140518_j51651276702286_2_alg».proof.Proof.Spec
import proofs.«140518_j51651276702286_2_alg».proof.Proof.LibMaxReduce

noncomputable section

namespace Cert.RefValue

open Cert.ReferenceIdeal Cert.ReferenceIdeal.Gen Cert.ReferenceIdeal.Read Cert.Attn Idealize.ShloMosaic Idealize.ShloMosaic.ValueIdx

/-! ## The query perceptron -/

/-- The first layer of the query perceptron before the rectifier. -/
theorem v3_at (x0 : (⟨S2x16384x64, .f32⟩ : BufTy).Contents (Elt Ideal)) (x4 : (⟨S64x64, .f32⟩ : BufTy).Contents (Elt Ideal))
    (x5 : (⟨S64, .f32⟩ : BufTy).Contents (Elt Ideal)) (b : Fin 2) (n : Fin 16384) (h : Fin 64) :
    val_main_v3 (F := Ideal) x0 x4 x5 (ix3 b n h) = (∑ a : Fin 64, x0 (ix3 b n a) * x4 (ix2 a h)) + x5 (ix1 h) := by
  rw [val_main_v3_apply, val_main_v0_apply, val_main_v2_apply, val_main_v1_apply, Ideal.addf_def]
  have e1 : ∀ k : Fin 64, lidx_main_v0 (ix3 b n h) k = ix3 b n k := fun k => funext fun a => Fin.ext (by
    match a with | ⟨0, _⟩ => rfl | ⟨1, _⟩ => rfl | ⟨2, _⟩ => rfl)
  have e2 : ∀ k : Fin 64, ridx_main_v0 (ix3 b n h) k = ix2 k h := fun k => funext fun a => Fin.ext (by
    match a with | ⟨0, _⟩ => rfl | ⟨1, _⟩ => rfl)
  have e3 : idx_main_v1 (idx_main_v2 (ix3 b n h)) = ix1 h := funext fun a => Fin.ext (by
    match a with | ⟨0, _⟩ => rfl)
  simp only [e1, e2, e3]

/-- The hidden layer of the query perceptron. -/
theorem v4_at (x0 : (⟨S2x16384x64, .f32⟩ : BufTy).Contents (Elt Ideal)) (x4 : (⟨S64x64, .f32⟩ : BufTy).Contents (Elt Ideal))
    (x5 : (⟨S64, .f32⟩ : BufTy).Contents (Elt Ideal)) (b : Fin 2) (n : Fin 16384) (h : Fin 64) :
    val_main_v4 (F := Ideal) x0 x4 x5 (ix3 b n h) = relu ((∑ a : Fin 64, x0 (ix3 b n a) * x4 (ix2 a h)) + x5 (ix1 h)) := by
  rw [val_main_v4_apply, v3_at, val_main_call0_v0_apply, val_main_call0_cst_apply, Ideal.maximumf_def, Ideal.ofBits_def,
    Ideal.ofBits_zero_f32]
  rfl

/-- The query: column `j` of the perceptron of the row `x[b, n, :]`. -/
theorem v8_at (x0 : (⟨S2x16384x64, .f32⟩ : BufTy).Contents (Elt Ideal)) (x4 : (⟨S64x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (b : Fin 2) (n : Fin 16384) (j : Fin 64) :
    val_main_v8 (F := Ideal) x0 x4 x5 x6 x7 (ix3 b n j)
      = mlp (fun a => x0 (ix3 b n a)) (fun a h => x4 (ix2 a h)) (fun h => x5 (ix1 h)) (fun a h => x6 (ix2 a h))
          (fun h => x7 (ix1 h)) j := by
  rw [val_main_v8_apply, val_main_v5_apply, val_main_v7_apply, val_main_v6_apply, Ideal.addf_def]
  have e1 : ∀ k : Fin 64, lidx_main_v5 (ix3 b n j) k = ix3 b n k := fun k => funext fun a => Fin.ext (by
    match a with | ⟨0, _⟩ => rfl | ⟨1, _⟩ => rfl | ⟨2, _⟩ => rfl)
  have e2 : ∀ k : Fin 64, ridx_main_v5 (ix3 b n j) k = ix2 k j := fun k => funext fun a => Fin.ext (by
    match a with | ⟨0, _⟩ => rfl | ⟨1, _⟩ => rfl)
  have e3 : idx_main_v6 (idx_main_v7 (ix3 b n j)) = ix1 j := funext fun a => Fin.ext (by
    match a with | ⟨0, _⟩ => rfl)
  simp only [e1, e2, e3, v4_at]
  rfl

/-! ## The key perceptron -/

/-- The first layer of the key perceptron before the rectifier. -/
theorem v13_at (x1 : (⟨S2x16384x16x64, .f32⟩ : BufTy).Contents (Elt Ideal)) (x8 : (⟨S64x64, .f32⟩ : BufTy).Contents (Elt Ideal))
    (x9 : (⟨S64, .f32⟩ : BufTy).Contents (Elt Ideal)) (b : Fin 2) (n : Fin 16384) (k : Fin 16) (h : Fin 64) :
    val_main_v13 (F := Ideal) x1 x8 x9 (ix4 b n k h) = (∑ a : Fin 64, x1 (ix4 b n k a) * x8 (ix2 a h)) + x9 (ix1 h) := by
  rw [val_main_v13_apply, val_main_v10_apply, val_main_v12_apply, val_main_v11_apply, Ideal.addf_def]
  have e1 : ∀ a : Fin 64, lidx_main_v10 (ix4 b n k h) a = ix4 b n k a := fun a => funext fun d => Fin.ext (by
    match d with | ⟨0, _⟩ => rfl | ⟨1, _⟩ => rfl | ⟨2, _⟩ => rfl | ⟨3, _⟩ => rfl)
  have e2 : ∀ a : Fin 64, ridx_main_v10 (ix4 b n k h) a = ix2 a h := fun a => funext fun d => Fin.ext (by
    match d with | ⟨0, _⟩ => rfl | ⟨1, _⟩ => rfl)
  have e3 : idx_main_v11 (idx_main_v12 (ix4 b n k h)) = ix1 h := funext fun d => Fin.ext (by
    match d with | ⟨0, _⟩ => rfl)
  simp only [e1, e2, e3]

/-- The hidden layer of the key perceptron. -/
theorem v14_at (x1 : (⟨S2x16384x16x64, .f32⟩ : BufTy).Contents (Elt Ideal)) (x8 : (⟨S64x64, .f32⟩ : BufTy).Contents (Elt Ideal))
    (x9 : (⟨S64, .f32⟩ : BufTy).Contents (Elt Ideal)) (b : Fin 2) (n : Fin 16384) (k : Fin 16) (h : Fin 64) :
    val_main_v14 (F := Ideal) x1 x8 x9 (ix4 b n k h) = relu ((∑ a : Fin 64, x1 (ix4 b n k a) * x8 (ix2 a h)) + x9 (ix1 h)) := by
  rw [val_main_v14_apply, v13_at, val_main_call1_v0_apply, val_main_call1_cst_apply, Ideal.maximumf_def,
    Ideal.ofBits_def, Ideal.ofBits_zero_f32]
  rfl

/-- The key of neighbour `k`: column `j` of the perceptron of the row `xn[b, n, k, :]`. -/
theorem v18_at (x1 : (⟨S2x16384x16x64, .f32⟩ : BufTy).Contents (Elt Ideal)) (x8 : (⟨S64x64, .f32⟩ : BufTy).Contents (Elt Ideal))
    (x9 : (⟨S64, .f32⟩ : BufTy).Contents (Elt Ideal)) (x10 : (⟨S64x64, .f32⟩ : BufTy).Contents (Elt Ideal))
    (x11 : (⟨S64, .f32⟩ : BufTy).Contents (Elt Ideal)) (b : Fin 2) (n : Fin 16384) (k : Fin 16) (j : Fin 64) :
    val_main_v18 (F := Ideal) x1 x8 x9 x10 x11 (ix4 b n k j)
      = mlp (fun a => x1 (ix4 b n k a)) (fun a h => x8 (ix2 a h)) (fun h => x9 (ix1 h)) (fun a h => x10 (ix2 a h))
          (fun h => x11 (ix1 h)) j := by
  rw [val_main_v18_apply, val_main_v15_apply, val_main_v17_apply, val_main_v16_apply, Ideal.addf_def]
  have e1 : ∀ a : Fin 64, lidx_main_v15 (ix4 b n k j) a = ix4 b n k a := fun a => funext fun d => Fin.ext (by
    match d with | ⟨0, _⟩ => rfl | ⟨1, _⟩ => rfl | ⟨2, _⟩ => rfl | ⟨3, _⟩ => rfl)
  have e2 : ∀ a : Fin 64, ridx_main_v15 (ix4 b n k j) a = ix2 a j := fun a => funext fun d => Fin.ext (by
    match d with | ⟨0, _⟩ => rfl | ⟨1, _⟩ => rfl)
  have e3 : idx_main_v16 (idx_main_v17 (ix4 b n k j)) = ix1 j := funext fun d => Fin.ext (by
    match d with | ⟨0, _⟩ => rfl)
  simp only [e1, e2, e3, v14_at]
  rfl

/-! ## The value perceptron -/

/-- The first layer of the value perceptron before the rectifier. -/
theorem v22_at (x1 : (⟨S2x16384x16x64, .f32⟩ : BufTy).Contents (Elt Ideal)) (x12 : (⟨S64x64, .f32⟩ : BufTy).Contents (Elt Ideal))
    (x13 : (⟨S64, .f32⟩ : BufTy).Contents (Elt Ideal)) (b : Fin 2) (n : Fin 16384) (k : Fin 16) (h : Fin 64) :
    val_main_v22 (F := Ideal) x1 x12 x13 (ix4 b n k h) = (∑ a : Fin 64, x1 (ix4 b n k a) * x12 (ix2 a h)) + x13 (ix1 h) := by
  rw [val_main_v22_apply, val_main_v19_apply, val_main_v21_apply, val_main_v20_apply, Ideal.addf_def]
  have e1 : ∀ a : Fin 64, lidx_main_v19 (ix4 b n k h) a = ix4 b n k a := fun a => funext fun d => Fin.ext (by
    match d with | ⟨0, _⟩ => rfl | ⟨1, _⟩ => rfl | ⟨2, _⟩ => rfl | ⟨3, _⟩ => rfl)
  have e2 : ∀ a : Fin 64, ridx_main_v19 (ix4 b n k h) a = ix2 a h := fun a => funext fun d => Fin.ext (by
    match d with | ⟨0, _⟩ => rfl | ⟨1, _⟩ => rfl)
  have e3 : idx_main_v20 (idx_main_v21 (ix4 b n k h)) = ix1 h := funext fun d => Fin.ext (by
    match d with | ⟨0, _⟩ => rfl)
  simp only [e1, e2, e3]

/-- The hidden layer of the value perceptron. -/
theorem v23_at (x1 : (⟨S2x16384x16x64, .f32⟩ : BufTy).Contents (Elt Ideal)) (x12 : (⟨S64x64, .f32⟩ : BufTy).Contents (Elt Ideal))
    (x13 : (⟨S64, .f32⟩ : BufTy).Contents (Elt Ideal)) (b : Fin 2) (n : Fin 16384) (k : Fin 16) (h : Fin 64) :
    val_main_v23 (F := Ideal) x1 x12 x13 (ix4 b n k h) = relu ((∑ a : Fin 64, x1 (ix4 b n k a) * x12 (ix2 a h)) + x13 (ix1 h)) := by
  rw [val_main_v23_apply, v22_at, val_main_call2_v0_apply, val_main_call2_cst_apply, Ideal.maximumf_def,
    Ideal.ofBits_def, Ideal.ofBits_zero_f32]
  rfl

/-- The value of neighbour `k`: column `j` of the perceptron of the row `xn[b, n, k, :]`. -/
theorem v27_at (x1 : (⟨S2x16384x16x64, .f32⟩ : BufTy).Contents (Elt Ideal)) (x12 : (⟨S64x64, .f32⟩ : BufTy).Contents (Elt Ideal))
    (x13 : (⟨S64, .f32⟩ : BufTy).Contents (Elt Ideal)) (x14 : (⟨S64x64, .f32⟩ : BufTy).Contents (Elt Ideal))
    (x15 : (⟨S64, .f32⟩ : BufTy).Contents (Elt Ideal)) (b : Fin 2) (n : Fin 16384) (k : Fin 16) (j : Fin 64) :
    val_main_v27 (F := Ideal) x1 x12 x13 x14 x15 (ix4 b n k j)
      = mlp (fun a => x1 (ix4 b n k a)) (fun a h => x12 (ix2 a h)) (fun h => x13 (ix1 h)) (fun a h => x14 (ix2 a h))
          (fun h => x15 (ix1 h)) j := by
  rw [val_main_v27_apply, val_main_v24_apply, val_main_v26_apply, val_main_v25_apply, Ideal.addf_def]
  have e1 : ∀ a : Fin 64, lidx_main_v24 (ix4 b n k j) a = ix4 b n k a := fun a => funext fun d => Fin.ext (by
    match d with | ⟨0, _⟩ => rfl | ⟨1, _⟩ => rfl | ⟨2, _⟩ => rfl | ⟨3, _⟩ => rfl)
  have e2 : ∀ a : Fin 64, ridx_main_v24 (ix4 b n k j) a = ix2 a j := fun a => funext fun d => Fin.ext (by
    match d with | ⟨0, _⟩ => rfl | ⟨1, _⟩ => rfl)
  have e3 : idx_main_v25 (idx_main_v26 (ix4 b n k j)) = ix1 j := funext fun d => Fin.ext (by
    match d with | ⟨0, _⟩ => rfl)
  simp only [e1, e2, e3, v23_at]
  rfl

/-! ## The positional perceptron -/

/-- The difference of positions: coordinate `a` of `p[b, n, :] - pn[b, n, k, :]`. -/
theorem v30_at (x2 : (⟨S2x16384x3, .f32⟩ : BufTy).Contents (Elt Ideal)) (x3 : (⟨S2x16384x16x3, .f32⟩ : BufTy).Contents (Elt Ideal)) (b : Fin 2) (n : Fin 16384) (k : Fin 16) (a : Fin 3) :
    val_main_v30 (F := Ideal) x2 x3 (ix4 b n k a) = x2 (ix3 b n a) - x3 (ix4 b n k a) := by
  rw [val_main_v30_apply, val_main_v29_apply, val_main_v28_apply, Ideal.subf_def]
  have e : idx_main_v28 (idx_main_v29 (ix4 b n k a)) = ix3 b n a := funext fun d => Fin.ext (by
    match d with | ⟨0, _⟩ => rfl | ⟨1, _⟩ => rfl | ⟨2, _⟩ => rfl)
  rw [e]

/-! ## Its two layers -/

/-- The first layer of the positional perceptron before the rectifier. -/
theorem v34_at (x2 : (⟨S2x16384x3, .f32⟩ : BufTy).Contents (Elt Ideal)) (x3 : (⟨S2x16384x16x3, .f32⟩ : BufTy).Contents (Elt Ideal)) (x16 : (⟨S3x64, .f32⟩ : BufTy).Contents (Elt Ideal))
    (x17 : (⟨S64, .f32⟩ : BufTy).Contents (Elt Ideal)) (b : Fin 2) (n : Fin 16384) (k : Fin 16) (h : Fin 64) :
    val_main_v34 (F := Ideal) x2 x3 x16 x17 (ix4 b n k h) = (∑ a : Fin 3, (x2 (ix3 b n a) - x3 (ix4 b n k a)) * x16 (ix2 a h)) + x17 (ix1 h) := by
  rw [val_main_v34_apply, val_main_v31_apply, val_main_v33_apply, val_main_v32_apply, Ideal.addf_def]
  have e1 : ∀ a : Fin 3, lidx_main_v31 (ix4 b n k h) a = ix4 b n k a := fun a => funext fun d => Fin.ext (by
    match d with | ⟨0, _⟩ => rfl | ⟨1, _⟩ => rfl | ⟨2, _⟩ => rfl | ⟨3, _⟩ => rfl)
  have e2 : ∀ a : Fin 3, ridx_main_v31 (ix4 b n k h) a = ix2 a h := fun a => funext fun d => Fin.ext (by
    match d with | ⟨0, _⟩ => rfl | ⟨1, _⟩ => rfl)
  have e3 : idx_main_v32 (idx_main_v33 (ix4 b n k h)) = ix1 h := funext fun d => Fin.ext (by
    match d with | ⟨0, _⟩ => rfl)
  simp only [e1, e2, e3, v30_at]

/-- The hidden layer of the positional perceptron. -/
theorem v35_at (x2 : (⟨S2x16384x3, .f32⟩ : BufTy).Contents (Elt Ideal)) (x3 : (⟨S2x16384x16x3, .f32⟩ : BufTy).Contents (Elt Ideal)) (x16 : (⟨S3x64, .f32⟩ : BufTy).Contents (Elt Ideal))
    (x17 : (⟨S64, .f32⟩ : BufTy).Contents (Elt Ideal)) (b : Fin 2) (n : Fin 16384) (k : Fin 16) (h : Fin 64) :
    val_main_v35 (F := Ideal) x2 x3 x16 x17 (ix4 b n k h) = relu ((∑ a : Fin 3, (x2 (ix3 b n a) - x3 (ix4 b n k a)) * x16 (ix2 a h)) + x17 (ix1 h)) := by
  rw [val_main_v35_apply, v34_at, val_main_call3_v0_apply, val_main_call3_cst_apply, Ideal.maximumf_def,
    Ideal.ofBits_def, Ideal.ofBits_zero_f32]
  rfl

/-- The positional code of neighbour `k`: column `j` of the perceptron of the row `p[b, n, :] - pn[b, n, k, :]`. -/
theorem v39_at (x2 : (⟨S2x16384x3, .f32⟩ : BufTy).Contents (Elt Ideal)) (x3 : (⟨S2x16384x16x3, .f32⟩ : BufTy).Contents (Elt Ideal)) (x16 : (⟨S3x64, .f32⟩ : BufTy).Contents (Elt Ideal))
    (x17 : (⟨S64, .f32⟩ : BufTy).Contents (Elt Ideal)) (x18 : (⟨S64x64, .f32⟩ : BufTy).Contents (Elt Ideal))
    (x19 : (⟨S64, .f32⟩ : BufTy).Contents (Elt Ideal)) (b : Fin 2) (n : Fin 16384) (k : Fin 16) (j : Fin 64) :
    val_main_v39 (F := Ideal) x2 x3 x16 x17 x18 x19 (ix4 b n k j)
      = mlp (fun a : Fin 3 => (x2 (ix3 b n a) - x3 (ix4 b n k a))) (fun a h => x16 (ix2 a h)) (fun h => x17 (ix1 h)) (fun a h => x18 (ix2 a h))
          (fun h => x19 (ix1 h)) j := by
  rw [val_main_v39_apply, val_main_v36_apply, val_main_v38_apply, val_main_v37_apply, Ideal.addf_def]
  have e1 : ∀ a : Fin 64, lidx_main_v36 (ix4 b n k j) a = ix4 b n k a := fun a => funext fun d => Fin.ext (by
    match d with | ⟨0, _⟩ => rfl | ⟨1, _⟩ => rfl | ⟨2, _⟩ => rfl | ⟨3, _⟩ => rfl)
  have e2 : ∀ a : Fin 64, ridx_main_v36 (ix4 b n k j) a = ix2 a j := fun a => funext fun d => Fin.ext (by
    match d with | ⟨0, _⟩ => rfl | ⟨1, _⟩ => rfl)
  have e3 : idx_main_v37 (idx_main_v38 (ix4 b n k j)) = ix1 j := funext fun d => Fin.ext (by
    match d with | ⟨0, _⟩ => rfl)
  simp only [e1, e2, e3, v35_at]
  rfl

/-! ## The logits and their maximum -/

/-- The logit of neighbour `k`: query minus key plus positional code. -/
theorem v42_at (x0 : (⟨S2x16384x64, .f32⟩ : BufTy).Contents (Elt Ideal)) (x1 : (⟨S2x16384x16x64, .f32⟩ : BufTy).Contents (Elt Ideal))
    (x2 : (⟨S2x16384x3, .f32⟩ : BufTy).Contents (Elt Ideal)) (x3 : (⟨S2x16384x16x3, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal))
    (x16 : (⟨S3x64, .f32⟩ : BufTy).Contents (Elt Ideal)) (x17 : (⟨S64, .f32⟩ : BufTy).Contents (Elt Ideal))
    (x18 : (⟨S64x64, .f32⟩ : BufTy).Contents (Elt Ideal)) (x19 : (⟨S64, .f32⟩ : BufTy).Contents (Elt Ideal))
    (b : Fin 2) (n : Fin 16384) (k : Fin 16) (j : Fin 64) :
    val_main_v42 (F := Ideal) x0 x1 x2 x3 x4 x5 x6 x7 x8 x9 x10 x11 x16 x17 x18 x19 (ix4 b n k j)
      = val_main_v8 (F := Ideal) x0 x4 x5 x6 x7 (ix3 b n j) - val_main_v18 (F := Ideal) x1 x8 x9 x10 x11 (ix4 b n k j)
          + val_main_v39 (F := Ideal) x2 x3 x16 x17 x18 x19 (ix4 b n k j) := by
  rw [val_main_v42_apply, val_main_v41_apply, val_main_v40_apply, val_main_v9_apply, Ideal.addf_def, Ideal.subf_def]
  have e : idx_main_v9 (idx_main_v40 (ix4 b n k j)) = ix3 b n j := funext fun d => Fin.ext (by
    match d with | ⟨0, _⟩ => rfl | ⟨1, _⟩ => rfl | ⟨2, _⟩ => rfl)
  rw [e]

/-- The maximum-reduction over the neighbours is the fold of `max` from `⊥` over the sixteen logits. -/
theorem v43_at (x0 : (⟨S2x16384x64, .f32⟩ : BufTy).Contents (Elt Ideal)) (x1 : (⟨S2x16384x16x64, .f32⟩ : BufTy).Contents (Elt Ideal))
    (x2 : (⟨S2x16384x3, .f32⟩ : BufTy).Contents (Elt Ideal)) (x3 : (⟨S2x16384x16x3, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal))
    (x16 : (⟨S3x64, .f32⟩ : BufTy).Contents (Elt Ideal)) (x17 : (⟨S64, .f32⟩ : BufTy).Contents (Elt Ideal))
    (x18 : (⟨S64x64, .f32⟩ : BufTy).Contents (Elt Ideal)) (x19 : (⟨S64, .f32⟩ : BufTy).Contents (Elt Ideal))
    (b : Fin 2) (n : Fin 16384) (j : Fin 64) :
    val_main_v43 (F := Ideal) x0 x1 x2 x3 x4 x5 x6 x7 x8 x9 x10 x11 x16 x17 x18 x19 (ix3 b n j) = Finset.univ.fold max ⊥ fun k' : Fin 16 => val_main_v42 (F := Ideal) x0 x1 x2 x3 x4 x5 x6 x7 x8 x9 x10 x11 x16 x17 x18 x19 (ix4 b n k' j) := by
  unfold val_main_v43
  generalize val_main_v42 (F := Ideal) x0 x1 x2 x3 x4 x5 x6 x7 x8 x9 x10 x11 x16 x17 x18 x19 = y
  rw [Cert.LibMaxReduce.hostReduce_maximumf_single y (val_main_cst (F := Ideal)) reducesTo_S2x16384x16x64_S2x16384x64_d2
    (by decide) h_S_ rfl (ix3 b n j)]
  refine congrArg (Finset.univ.fold max ⊥) (funext fun k => congrArg y (funext fun d => Fin.ext (by
    match d with | ⟨0, _⟩ => rfl | ⟨1, _⟩ => rfl | ⟨2, _⟩ => rfl | ⟨3, _⟩ => rfl)))

/-- Taking the maximum with `-∞` once more changes nothing. -/
theorem v45_at (x0 : (⟨S2x16384x64, .f32⟩ : BufTy).Contents (Elt Ideal)) (x1 : (⟨S2x16384x16x64, .f32⟩ : BufTy).Contents (Elt Ideal))
    (x2 : (⟨S2x16384x3, .f32⟩ : BufTy).Contents (Elt Ideal)) (x3 : (⟨S2x16384x16x3, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal))
    (x16 : (⟨S3x64, .f32⟩ : BufTy).Contents (Elt Ideal)) (x17 : (⟨S64, .f32⟩ : BufTy).Contents (Elt Ideal))
    (x18 : (⟨S64x64, .f32⟩ : BufTy).Contents (Elt Ideal)) (x19 : (⟨S64, .f32⟩ : BufTy).Contents (Elt Ideal))
    (b : Fin 2) (n : Fin 16384) (j : Fin 64) :
    val_main_v45 (F := Ideal) x0 x1 x2 x3 x4 x5 x6 x7 x8 x9 x10 x11 x16 x17 x18 x19 (ix3 b n j) = Finset.univ.fold max ⊥ fun k' : Fin 16 => val_main_v42 (F := Ideal) x0 x1 x2 x3 x4 x5 x6 x7 x8 x9 x10 x11 x16 x17 x18 x19 (ix4 b n k' j) := by
  rw [val_main_v45_apply, v43_at, val_main_v44_apply, val_main_cst_0_apply, Ideal.maximumf_def, Ideal.ofBits_def,
    Cert.LibMaxReduce.ofBits_neg_inf, max_bot_left]

/-! ## The softmax weights and the weighted sum -/

/-- The exponential of the logit less the maximum. -/
theorem v49_at (x0 : (⟨S2x16384x64, .f32⟩ : BufTy).Contents (Elt Ideal)) (x1 : (⟨S2x16384x16x64, .f32⟩ : BufTy).Contents (Elt Ideal))
    (x2 : (⟨S2x16384x3, .f32⟩ : BufTy).Contents (Elt Ideal)) (x3 : (⟨S2x16384x16x3, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal))
    (x16 : (⟨S3x64, .f32⟩ : BufTy).Contents (Elt Ideal)) (x17 : (⟨S64, .f32⟩ : BufTy).Contents (Elt Ideal))
    (x18 : (⟨S64x64, .f32⟩ : BufTy).Contents (Elt Ideal)) (x19 : (⟨S64, .f32⟩ : BufTy).Contents (Elt Ideal))
    (b : Fin 2) (n : Fin 16384) (k : Fin 16) (j : Fin 64) :
    val_main_v49 (F := Ideal) x0 x1 x2 x3 x4 x5 x6 x7 x8 x9 x10 x11 x16 x17 x18 x19 (ix4 b n k j) = Ideal.exp (val_main_v42 (F := Ideal) x0 x1 x2 x3 x4 x5 x6 x7 x8 x9 x10 x11 x16 x17 x18 x19 (ix4 b n k j) - Finset.univ.fold max ⊥ fun k' : Fin 16 => val_main_v42 (F := Ideal) x0 x1 x2 x3 x4 x5 x6 x7 x8 x9 x10 x11 x16 x17 x18 x19 (ix4 b n k' j)) := by
  rw [val_main_v49_apply, val_main_v48_apply, val_main_v47_apply, val_main_v46_apply, Ideal.hostUnary_exp_def, Ideal.subf_def]
  have e : idx_main_v46 (idx_main_v47 (ix4 b n k j)) = ix3 b n j := funext fun d => Fin.ext (by
    match d with | ⟨0, _⟩ => rfl | ⟨1, _⟩ => rfl | ⟨2, _⟩ => rfl)
  rw [e, v45_at]

/-- The normaliser: the sum of the sixteen exponentials. -/
theorem v50_at (x0 : (⟨S2x16384x64, .f32⟩ : BufTy).Contents (Elt Ideal)) (x1 : (⟨S2x16384x16x64, .f32⟩ : BufTy).Contents (Elt Ideal))
    (x2 : (⟨S2x16384x3, .f32⟩ : BufTy).Contents (Elt Ideal)) (x3 : (⟨S2x16384x16x3, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal))
    (x16 : (⟨S3x64, .f32⟩ : BufTy).Contents (Elt Ideal)) (x17 : (⟨S64, .f32⟩ : BufTy).Contents (Elt Ideal))
    (x18 : (⟨S64x64, .f32⟩ : BufTy).Contents (Elt Ideal)) (x19 : (⟨S64, .f32⟩ : BufTy).Contents (Elt Ideal))
    (b : Fin 2) (n : Fin 16384) (j : Fin 64) :
    val_main_v50 (F := Ideal) x0 x1 x2 x3 x4 x5 x6 x7 x8 x9 x10 x11 x16 x17 x18 x19 (ix3 b n j) = ∑ k'' : Fin 16, Ideal.exp (val_main_v42 (F := Ideal) x0 x1 x2 x3 x4 x5 x6 x7 x8 x9 x10 x11 x16 x17 x18 x19 (ix4 b n k'' j) - Finset.univ.fold max ⊥ fun k' : Fin 16 => val_main_v42 (F := Ideal) x0 x1 x2 x3 x4 x5 x6 x7 x8 x9 x10 x11 x16 x17 x18 x19 (ix4 b n k' j)) := by
  rw [val_main_v50_apply, val_main_cst_1_apply, Ideal.ofBits_def, Ideal.ofBits_zero_f32, zero_add]
  have e : ∀ k : Fin 16, idx_main_v50 (ix3 b n j) k = ix4 b n k j := fun k => funext fun d => Fin.ext (by
    match d with | ⟨0, _⟩ => rfl | ⟨1, _⟩ => rfl | ⟨2, _⟩ => rfl | ⟨3, _⟩ => rfl)
  simp only [e, v49_at]

/-- The softmax weight of neighbour `k`. -/
theorem v53_at (x0 : (⟨S2x16384x64, .f32⟩ : BufTy).Contents (Elt Ideal)) (x1 : (⟨S2x16384x16x64, .f32⟩ : BufTy).Contents (Elt Ideal))
    (x2 : (⟨S2x16384x3, .f32⟩ : BufTy).Contents (Elt Ideal)) (x3 : (⟨S2x16384x16x3, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal))
    (x16 : (⟨S3x64, .f32⟩ : BufTy).Contents (Elt Ideal)) (x17 : (⟨S64, .f32⟩ : BufTy).Contents (Elt Ideal))
    (x18 : (⟨S64x64, .f32⟩ : BufTy).Contents (Elt Ideal)) (x19 : (⟨S64, .f32⟩ : BufTy).Contents (Elt Ideal))
    (b : Fin 2) (n : Fin 16384) (k : Fin 16) (j : Fin 64) :
    val_main_v53 (F := Ideal) x0 x1 x2 x3 x4 x5 x6 x7 x8 x9 x10 x11 x16 x17 x18 x19 (ix4 b n k j) = Ideal.div (Ideal.exp (val_main_v42 (F := Ideal) x0 x1 x2 x3 x4 x5 x6 x7 x8 x9 x10 x11 x16 x17 x18 x19 (ix4 b n k j) - Finset.univ.fold max ⊥ fun k' : Fin 16 => val_main_v42 (F := Ideal) x0 x1 x2 x3 x4 x5 x6 x7 x8 x9 x10 x11 x16 x17 x18 x19 (ix4 b n k' j))) (∑ k'' : Fin 16, Ideal.exp (val_main_v42 (F := Ideal) x0 x1 x2 x3 x4 x5 x6 x7 x8 x9 x10 x11 x16 x17 x18 x19 (ix4 b n k'' j) - Finset.univ.fold max ⊥ fun k' : Fin 16 => val_main_v42 (F := Ideal) x0 x1 x2 x3 x4 x5 x6 x7 x8 x9 x10 x11 x16 x17 x18 x19 (ix4 b n k' j))) := by
  rw [val_main_v53_apply, val_main_v52_apply, val_main_v51_apply, Ideal.hostDivf_def, v49_at]
  have e : idx_main_v51 (idx_main_v52 (ix4 b n k j)) = ix3 b n j := funext fun d => Fin.ext (by
    match d with | ⟨0, _⟩ => rfl | ⟨1, _⟩ => rfl | ⟨2, _⟩ => rfl)
  rw [e, v50_at]

/-- One term of the weighted sum: the weight times value plus positional code. -/
theorem v55_at (x0 : (⟨S2x16384x64, .f32⟩ : BufTy).Contents (Elt Ideal)) (x1 : (⟨S2x16384x16x64, .f32⟩ : BufTy).Contents (Elt Ideal))
    (x2 : (⟨S2x16384x3, .f32⟩ : BufTy).Contents (Elt Ideal)) (x3 : (⟨S2x16384x16x3, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal))
    (x12 : (⟨S64x64, .f32⟩ : BufTy).Contents (Elt Ideal)) (x13 : (⟨S64, .f32⟩ : BufTy).Contents (Elt Ideal))
    (x14 : (⟨S64x64, .f32⟩ : BufTy).Contents (Elt Ideal)) (x15 : (⟨S64, .f32⟩ : BufTy).Contents (Elt Ideal))
    (x16 : (⟨S3x64, .f32⟩ : BufTy).Contents (Elt Ideal)) (x17 : (⟨S64, .f32⟩ : BufTy).Contents (Elt Ideal))
    (x18 : (⟨S64x64, .f32⟩ : BufTy).Contents (Elt Ideal)) (x19 : (⟨S64, .f32⟩ : BufTy).Contents (Elt Ideal))
    (b : Fin 2) (n : Fin 16384) (k : Fin 16) (j : Fin 64) :
    val_main_v55 (F := Ideal) x0 x1 x2 x3 x4 x5 x6 x7 x8 x9 x10 x11 x12 x13 x14 x15 x16 x17 x18 x19 (ix4 b n k j)
      = Ideal.div (Ideal.exp (val_main_v42 (F := Ideal) x0 x1 x2 x3 x4 x5 x6 x7 x8 x9 x10 x11 x16 x17 x18 x19 (ix4 b n k j) - Finset.univ.fold max ⊥ fun k' : Fin 16 => val_main_v42 (F := Ideal) x0 x1 x2 x3 x4 x5 x6 x7 x8 x9 x10 x11 x16 x17 x18 x19 (ix4 b n k' j))) (∑ k'' : Fin 16, Ideal.exp (val_main_v42 (F := Ideal) x0 x1 x2 x3 x4 x5 x6 x7 x8 x9 x10 x11 x16 x17 x18 x19 (ix4 b n k'' j) - Finset.univ.fold max ⊥ fun k' : Fin 16 => val_main_v42 (F := Ideal) x0 x1 x2 x3 x4 x5 x6 x7 x8 x9 x10 x11 x16 x17 x18 x19 (ix4 b n k' j)))
          * (val_main_v27 (F := Ideal) x1 x12 x13 x14 x15 (ix4 b n k j) + val_main_v39 (F := Ideal) x2 x3 x16 x17 x18 x19 (ix4 b n k j)) := by
  rw [val_main_v55_apply, val_main_v54_apply, v53_at, Ideal.mulf_def, Ideal.addf_def]

/-- The reference's result at `(b, n, j)` is the specification there. -/
theorem ref_at (x0 : (⟨S2x16384x64, .f32⟩ : BufTy).Contents (Elt Ideal)) (x1 : (⟨S2x16384x16x64, .f32⟩ : BufTy).Contents (Elt Ideal))
    (x2 : (⟨S2x16384x3, .f32⟩ : BufTy).Contents (Elt Ideal)) (x3 : (⟨S2x16384x16x3, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal))
    (x12 : (⟨S64x64, .f32⟩ : BufTy).Contents (Elt Ideal)) (x13 : (⟨S64, .f32⟩ : BufTy).Contents (Elt Ideal))
    (x14 : (⟨S64x64, .f32⟩ : BufTy).Contents (Elt Ideal)) (x15 : (⟨S64, .f32⟩ : BufTy).Contents (Elt Ideal))
    (x16 : (⟨S3x64, .f32⟩ : BufTy).Contents (Elt Ideal)) (x17 : (⟨S64, .f32⟩ : BufTy).Contents (Elt Ideal))
    (x18 : (⟨S64x64, .f32⟩ : BufTy).Contents (Elt Ideal)) (x19 : (⟨S64, .f32⟩ : BufTy).Contents (Elt Ideal))
    (b : Fin 2) (n : Fin 16384) (j : Fin 64) :
    val_main_v56 (F := Ideal) x0 x1 x2 x3 x4 x5 x6 x7 x8 x9 x10 x11 x12 x13 x14 x15 x16 x17 x18 x19 (ix3 b n j) = G x0 x1 x2 x3 x4 x5 x6 x7 x8 x9 x10 x11 x12 x13 x14 x15 x16 x17 x18 x19 (ix3 b n j) := by
  rw [val_main_v56_apply, val_main_cst_2_apply, Ideal.ofBits_def, Ideal.ofBits_zero_f32, zero_add]
  have e : ∀ k : Fin 16, idx_main_v56 (ix3 b n j) k = ix4 b n k j := fun k => funext fun d => Fin.ext (by
    match d with | ⟨0, _⟩ => rfl | ⟨1, _⟩ => rfl | ⟨2, _⟩ => rfl | ⟨3, _⟩ => rfl)
  simp only [e, v55_at, v42_at, v8_at, v18_at, v27_at, v39_at]
  rfl

/-- The reference's result is the specification. -/
theorem ref_eq (x0 : (⟨S2x16384x64, .f32⟩ : BufTy).Contents (Elt Ideal)) (x1 : (⟨S2x16384x16x64, .f32⟩ : BufTy).Contents (Elt Ideal))
    (x2 : (⟨S2x16384x3, .f32⟩ : BufTy).Contents (Elt Ideal)) (x3 : (⟨S2x16384x16x3, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal))
    (x12 : (⟨S64x64, .f32⟩ : BufTy).Contents (Elt Ideal)) (x13 : (⟨S64, .f32⟩ : BufTy).Contents (Elt Ideal))
    (x14 : (⟨S64x64, .f32⟩ : BufTy).Contents (Elt Ideal)) (x15 : (⟨S64, .f32⟩ : BufTy).Contents (Elt Ideal))
    (x16 : (⟨S3x64, .f32⟩ : BufTy).Contents (Elt Ideal)) (x17 : (⟨S64, .f32⟩ : BufTy).Contents (Elt Ideal))
    (x18 : (⟨S64x64, .f32⟩ : BufTy).Contents (Elt Ideal)) (x19 : (⟨S64, .f32⟩ : BufTy).Contents (Elt Ideal)) :
    val_main_v56 (F := Ideal) x0 x1 x2 x3 x4 x5 x6 x7 x8 x9 x10 x11 x12 x13 x14 x15 x16 x17 x18 x19 = G x0 x1 x2 x3 x4 x5 x6 x7 x8 x9 x10 x11 x12 x13 x14 x15 x16 x17 x18 x19 := by
  funext i
  obtain ⟨b, n, j, rfl⟩ : ∃ (b : Fin 2) (n : Fin 16384) (j : Fin 64), i = ix3 b n j := ⟨i 0, i 1, i 2, eq_ix3 i⟩
  exact ref_at x0 x1 x2 x3 x4 x5 x6 x7 x8 x9 x10 x11 x12 x13 x14 x15 x16 x17 x18 x19 b n j

end Cert.RefValue

end
-- ==== Proof.LibAffineLayer.lean ====
/-
  General lemmas for an affine layer `x ↦ x · W + b` written two ways: as ONE product over a concatenated
  operand, and as a SUM of products over the concatenation's pieces against the matching row blocks of `W`.

  * `sum_split2`, `sum_split3`: a finite sum over `Fin n` is the sum of its sums over two (three) consecutive
    ranges — in any commutative monoid, so it holds on the extended reals with no finiteness asked.
  * `plain_sum`: the contraction sum of a plain `[M,K] × [K,N]` product (one contracted axis, no batch axis),
    read at the output index `(p, q)`, is `∑ k, l (p, k) · r (k, q)`.
  * `matmul_zero_ix2` / `dotGeneral_ix2`: a matrix product into a zero accumulator, and the host's product, at the
    ideal values are that sum.
  * `concat2_left/right`, `concat3_fst/snd/thd`: a concatenation of two (three) matrices along the columns read at
    `(p, k)` with `k` in the first, second, third range of columns.
  * `row_bias_apply`: a vector cast to one row and broadcast over many rows reads, at `(p, q)`, the vector at `q`.
  * `rowBlock`, `slice_rows_eq`: rows `o … o + r - 1` of a matrix, and a slice along the rows as that block.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib.AffineLayer

open Idealize.ShloMosaic Idealize.ShloMosaic.ValueIdx

/-! ## Sums over consecutive ranges -/

/-- A sum over `Fin n` with `n = a + b` is the sum over the first `a` positions plus the sum over the next `b`. -/
theorem sum_split2 {M : Type*} [AddCommMonoid M] (a b n : ℕ) (h : a + b = n) (f : Fin n → M) :
    ∑ k : Fin n, f k = ∑ k : Fin a, f ⟨k.val, by omega⟩ + ∑ k : Fin b, f ⟨a + k.val, by omega⟩ := by
  subst h
  rw [Fin.sum_univ_add]
  rfl

/-- A sum over `Fin n` with `n = a + b + c` is the sum of its sums over the three consecutive ranges. -/
theorem sum_split3 {M : Type*} [AddCommMonoid M] (a b c n : ℕ) (h : a + b + c = n) (f : Fin n → M) :
    ∑ k : Fin n, f k
      = (∑ k : Fin a, f ⟨k.val, by omega⟩ + ∑ k : Fin b, f ⟨a + k.val, by omega⟩) + ∑ k : Fin c, f ⟨a + b + k.val, by omega⟩ := by
  subst h
  rw [Fin.sum_univ_add, Fin.sum_univ_add]
  rfl

/-! ## A plain matrix product read at an index -/

/-- The contraction sum of a plain `[M,K] × [K,N]` product at the output index `(p, q)`: the left operand's row `p`
    against the right operand's column `q`. -/
theorem plain_sum {M K N : ℕ} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

/-- A kernel's matrix product into the zero accumulator, at the ideal values, read at `(p, q)`. -/
theorem matmul_zero_ix2 {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (p : Fin M) (q : Fin N) :
    matmul D prec a b (constant (F := Ideal) ⟨2, ![M, N]⟩ .f32 0x00000000#32) (ix2 p q)
      = ∑ k : Fin K, a (ix2 p k) * b (ix2 k q) := by
  subst hD
  exact (Ideal.matmul_constant_zero_apply _ prec a b (ix2 p q)).trans (plain_sum a b p q)

/-- The host's matrix product, at the ideal values, read at `(p, q)`. -/
theorem dotGeneral_ix2 {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (p : Fin M) (q : Fin N) :
    Host.dotGeneral D prec a b (ix2 p q) = ∑ k : Fin K, a (ix2 p k) * b (ix2 k q) := by
  subst hD
  exact (Ideal.dotGeneral_apply _ prec .single a b (ix2 p q)).trans (plain_sum a b p q)

/-! ## A concatenation along the columns read at an index -/

section Concat
variable {α : Type}

/-- Two matrices joined along the columns, read in the first one's columns. -/
theorem concat2_left {R a b n : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, n]⟩ 1) (p : Fin R) (k : Fin a) (k' : Fin n)
    (hk : k'.val = k.val) :
    concatenate ⟨2, ![R, n]⟩ 1 [⟨⟨2, ![R, a]⟩, x₁⟩, ⟨⟨2, ![R, b]⟩, x₂⟩] h (ix2 p k') = x₁ (ix2 p k) :=
  concatenate_apply_piece 1 [⟨⟨2, ![R, a]⟩, x₁⟩, ⟨⟨2, ![R, b]⟩, x₂⟩] h (ix2 p k') 0 (Nat.zero_lt_succ _) _ x₁ rfl rfl 0 rfl (ix2 p k)
    (fun b hb => by
      match b with
      | ⟨0, _⟩ => rfl
      | ⟨1, _⟩ => exact absurd rfl hb)
    (by show 0 + k.val = k'.val; omega)

/-- Two matrices joined along the columns, read in the second one's columns. -/
theorem concat2_right {R a b n : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, n]⟩ 1) (p : Fin R) (k : Fin b) (k' : Fin n)
    (hk : k'.val = a + k.val) :
    concatenate ⟨2, ![R, n]⟩ 1 [⟨⟨2, ![R, a]⟩, x₁⟩, ⟨⟨2, ![R, b]⟩, x₂⟩] h (ix2 p k') = x₂ (ix2 p k) :=
  concatenate_apply_piece 1 [⟨⟨2, ![R, a]⟩, x₁⟩, ⟨⟨2, ![R, b]⟩, x₂⟩] h (ix2 p k') 1 (Nat.succ_lt_succ (Nat.zero_lt_succ _)) _ x₂ rfl rfl a (by simp) (ix2 p k)
    (fun b hb => by
      match b with
      | ⟨0, _⟩ => rfl
      | ⟨1, _⟩ => exact absurd rfl hb)
    (by show a + k.val = k'.val; omega)

/-- Three matrices joined along the columns, read in the first one's columns. -/
theorem concat3_fst {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin a) (k' : Fin n)
    (hk : k'.val = k.val) :
    concatenate ⟨2, ![R, n]⟩ 1 [⟨⟨2, ![R, a]⟩, x₁⟩, ⟨⟨2, ![R, b]⟩, x₂⟩, ⟨⟨2, ![R, c]⟩, x₃⟩] h (ix2 p k') = x₁ (ix2 p k) :=
  concatenate_apply_piece 1 [⟨⟨2, ![R, a]⟩, x₁⟩, ⟨⟨2, ![R, b]⟩, x₂⟩, ⟨⟨2, ![R, c]⟩, x₃⟩] h (ix2 p k') 0 (Nat.zero_lt_succ _) _ x₁ rfl rfl 0 rfl (ix2 p k)
    (fun b hb => by
      match b with
      | ⟨0, _⟩ => rfl
      | ⟨1, _⟩ => exact absurd rfl hb)
    (by show 0 + k.val = k'.val; omega)

/-- Three matrices joined along the columns, read in the second one's columns. -/
theorem concat3_snd {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin b) (k' : Fin n)
    (hk : k'.val = a + k.val) :
    concatenate ⟨2, ![R, n]⟩ 1 [⟨⟨2, ![R, a]⟩, x₁⟩, ⟨⟨2, ![R, b]⟩, x₂⟩, ⟨⟨2, ![R, c]⟩, x₃⟩] h (ix2 p k') = x₂ (ix2 p k) :=
  concatenate_apply_piece 1 [⟨⟨2, ![R, a]⟩, x₁⟩, ⟨⟨2, ![R, b]⟩, x₂⟩, ⟨⟨2, ![R, c]⟩, x₃⟩] h (ix2 p k') 1 (Nat.succ_lt_succ (Nat.zero_lt_succ _)) _ x₂ rfl rfl a (by simp) (ix2 p k)
    (fun b hb => by
      match b with
      | ⟨0, _⟩ => rfl
      | ⟨1, _⟩ => exact absurd rfl hb)
    (by show a + k.val = k'.val; omega)

/-- Three matrices joined along the columns, read in the third one's columns. -/
theorem concat3_thd {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin c) (k' : Fin n)
    (hk : k'.val = a + b + k.val) :
    concatenate ⟨2, ![R, n]⟩ 1 [⟨⟨2, ![R, a]⟩, x₁⟩, ⟨⟨2, ![R, b]⟩, x₂⟩, ⟨⟨2, ![R, c]⟩, x₃⟩] h (ix2 p k') = x₃ (ix2 p k) :=
  concatenate_apply_piece 1 [⟨⟨2, ![R, a]⟩, x₁⟩, ⟨⟨2, ![R, b]⟩, x₂⟩, ⟨⟨2, ![R, c]⟩, x₃⟩] h (ix2 p k') 2 (Nat.succ_lt_succ (Nat.succ_lt_succ (Nat.zero_lt_succ _))) _ x₃ rfl rfl (a + b) (by simp) (ix2 p k)
    (fun b hb => by
      match b with
      | ⟨0, _⟩ => rfl
      | ⟨1, _⟩ => exact absurd rfl hb)
    (by show a + b + k.val = k'.val; omega)

/-- A vector cast to one row and broadcast over `a` rows reads, at `(p, q)`, the vector at `q`. -/
theorem row_bias_apply {a b : ℕ} (v : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix1 q) :=
  (broadcastTo_1b_ab_apply _ h₂ p q).trans (shapeCast_a_1a_apply v h₁ 0 q)

/-- Rows `o … o + r - 1` of a matrix with `n` rows. -/
def rowBlock {n c : ℕ} (o r : ℕ) (h : o + r ≤ n) (W : (⟨2, ![n, c]⟩ : Shape).Idx → α) : (⟨2, ![r, c]⟩ : Shape).Idx → α :=
  fun j => W (ix2 ⟨o + (j 0).val, by have := idx2_lt0 j; omega⟩ (j 1))

theorem rowBlock_ix2 {n c : ℕ} (o r : ℕ) (h : o + r ≤ n) (W : (⟨2, ![n, c]⟩ : Shape).Idx → α) (p : Fin r) (q : Fin c) :
    rowBlock o r h W (ix2 p q) = W (ix2 ⟨o + p.val, by omega⟩ q) := rfl

/-- A slice of a matrix along its rows from row `o` is that block of rows. -/
theorem slice_rows_eq {n c r : ℕ} (o : ℕ) (h : o + r ≤ n) (W : (⟨2, ![n, c]⟩ : Shape).Idx → α)
    (hs : (⟨2, ![n, c]⟩ : Shape).Slices ![o, 0] ⟨2, ![r, c]⟩) :
    extractStridedSlice ⟨2, ![r, c]⟩ ![o, 0] W hs = rowBlock o r h W := by
  funext j
  obtain ⟨p, q, rfl⟩ : ∃ (p : Fin r) (q : Fin c), j = ix2 p q := ⟨j 0, j 1, eq_ix2 j⟩
  exact slice2_axis0_apply o W hs p q ⟨o + p.val, by omega⟩ rfl

end Concat

end Cert.Lib.AffineLayer

end
-- ==== Proof.LibLayerRead.lean ====
/-
  One layer of a perceptron and the layouts around a batch of rows, read at an index given by coordinates — general
  statements at the ideal values, for any extents.

  * `biased_product_apply`: a matrix product into the zero accumulator plus a bias row `[1, N]` broadcast over the
    rows is, at `(p, c)`, `(∑ k, a (p, k) · w (k, c)) + b (0, c)`.
  * `maximumf_zero_apply`: the maximum with the splat of the zero word is `max · 0`.
  * `shapeCast_abc_rc_apply`, `shapeCast_rc_abc_apply`: the cast between `[a, b, c]` and `[a·b, c]` (a batch of
    `b` rows per point laid out as rows): row `r = p·b + k` is the pair `(p, k)`.
  * `shapeCast_a1b_ab_apply`: a unit middle axis dropped.
  * `broadcastTo_a1_ab_apply`, `broadcastTo_11c_abc_apply`: a column repeated along the rows' entries, and one row
    `[1, 1, c]` repeated over `[a, b, c]`.
  * `reduces_axis1_lift`: for a reduction of `[a, b, c]` over its middle axis, the source index over the result index
    `(i, j)` with the coordinate `k` inserted is `(i, k, j)`.
-/
import Idealize.ShloMosaic.Lib.ValueIdx
import Idealize.ShloMosaic.Lib.ValueLayout
import Idealize.ShloMosaic.Lib.Pipeline.Value
import Idealize.ShloMosaic.PureOps.Ideal.Laws
import proofs.«140518_j51651276702286_2_alg».proof.Proof.LibAffineLayer

noncomputable section

namespace Cert.Lib.LayerRead

open Idealize.ShloMosaic Idealize.ShloMosaic.ValueIdx

/-! ## A product plus a bias row, and the rectifier -/

/-- A matrix product into the zero accumulator plus a bias row broadcast over the rows, at the ideal values, read at
    `(p, c)`. -/
theorem biased_product_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (p : Fin M) (c : Fin N) :
    addf (matmul D prec a w (constant (F := Ideal) ⟨2, ![M, N]⟩ .f32 0x00000000#32))
        (broadcastTo ⟨2, ![M, N]⟩ (shapeCast ⟨2, ![1, N]⟩ b hc) hb) (ix2 p c)
      = (∑ k : Fin K, a (ix2 p k) * w (ix2 k c)) + b (ix2 0 c) := by
  refine (addf_apply _ _ _).trans ?_
  rw [Cert.Lib.AffineLayer.matmul_zero_ix2 D hD prec a w p c, shapeCast_self, broadcastTo_1b_ab_apply]

/-- The maximum with the splat of the f32 zero word, at the ideal values, read at an index. -/
theorem maximumf_zero_apply {s : Shape} (v : FVec Ideal s .f32) (i : s.Idx) :
    maximumf v (broadcast s (Scalar.ofBits (F := Ideal) .f32 0x00000000#32)) i = max (v i) 0 := by
  refine (maximumf_apply _ _ _).trans ?_
  show max (v i) (Ideal.ofBits .f32 0x00000000#32) = max (v i) 0
  rw [Ideal.ofBits_zero_f32]

/-! ## Rows of pairs -/

section Layout
variable {α : Type}

/-- An `[a, b, c]` array cast to `[R, c]` reads, at row `r = p·b + k` and column `i`, the operand at `(p, k, i)`. -/
theorem shapeCast_abc_rc_apply {a b c R : ℕ} (x : (⟨3, ![a, b, c]⟩ : Shape).Idx → α)
    (h : (⟨3, ![a, b, c]⟩ : Shape).ShapeCasts ⟨2, ![R, c]⟩) (p : Fin a) (k : Fin b) (i : Fin c) (r : Fin R)
    (hr : r.val = p.val * b + k.val) :
    shapeCast ⟨2, ![R, c]⟩ x h (ix2 r i) = x (ix3 p k i) :=
  shapeCast_apply x h _ _ (by
    rw [Shape.rowMajor_val_three, Shape.rowMajor_val_two]
    show (p.val * b + k.val) * c + i.val = r.val * c + i.val
    rw [hr])

/-- An `[R, c]` array cast to `[a, b, c]` reads, at `(p, k, i)`, the operand at row `r = p·b + k` and column `i`. -/
theorem shapeCast_rc_abc_apply {a b c R : ℕ} (y : (⟨2, ![R, c]⟩ : Shape).Idx → α)
    (h : (⟨2, ![R, c]⟩ : Shape).ShapeCasts ⟨3, ![a, b, c]⟩) (p : Fin a) (k : Fin b) (i : Fin c) (r : Fin R)
    (hr : r.val = p.val * b + k.val) :
    shapeCast ⟨3, ![a, b, c]⟩ y h (ix3 p k i) = y (ix2 r i) :=
  shapeCast_apply y h _ _ (by
    rw [Shape.rowMajor_val_three, Shape.rowMajor_val_two]
    show r.val * c + i.val = (p.val * b + k.val) * c + i.val
    rw [hr])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, 1]` array broadcast to `[a, b]` reads, at `(i, j)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Layout

/-! ## The middle axis of a rank-3 array reduced away -/

/-- For a reduction of `[a, b, c]` over its middle axis, the source index over the result index `(i, j)` whose
    coordinate on the reduced axis is `k` is `(i, k, j)`. -/
theorem reduces_axis1_lift {a b c : ℕ} (h : (⟨3, ![a, b, c]⟩ : Shape).Reduces [1] ⟨2, ![a, c]⟩) (i : Fin a) (j : Fin c)
    (k : Fin b) : h.lift (ix2 i j) k = ix3 i k j := by
  funext ax
  apply Fin.ext
  match ax with
  | ⟨0, _⟩ => rfl
  | ⟨1, _⟩ => rfl
  | ⟨2, _⟩ => rfl

end Cert.Lib.LayerRead

end
-- ==== Proof.PayQuery.lean ====
/-
  The query perceptron of one grid point, read at an index: the kernel's term for it (two matrix products into a zero
  accumulator, each followed by a bias row broadcast over the 256 rows, a rectifier between them; the casts to a narrower
  format are the identity on the extended reals) is, at row `q` and column `j`, column `j` of
  `relu (x·W₁ + b₁)·W₂ + b₂` for the row `x = x0 q`.
-/
import proofs.«140518_j51651276702286_2_alg».proof.Proof.Gen.KernelIdeal.Skeleton
import proofs.«140518_j51651276702286_2_alg».proof.Proof.Spec
import proofs.«140518_j51651276702286_2_alg».proof.Proof.LibLayerRead

noncomputable section

namespace Cert.KernelIdeal.Pay

open Idealize.ShloMosaic Idealize.ShloMosaic.ValueIdx Cert.KernelIdeal Cert.KernelIdeal.Gen Cert.Lib.LayerRead

/-- The program's record of the `[256,64] × [64,64]` product is the plain one. -/
theorem dot_query_plain : dot_S256x64_S64x64_S256x64_1_0_0_1_n_n = DotDims.plain 256 64 64 := rfl

/-- The query perceptron's term at `(q, j)`. -/
theorem query_eq (x0 : Vec Ideal S256x64 .f32) (w1 : Vec Ideal S64x64 .f32) (b1 : Vec Ideal S1x64 .f32)
    (w2 : Vec Ideal S64x64 .f32) (b2 : Vec Ideal S1x64 .f32) (q : Fin 256) (j : Fin 64) :
    k0_pay2 (F := Ideal) x0 w1 b1 w2 b2 (ix2 q j)
      = Cert.Attn.mlp (fun a => x0 (ix2 q a)) (fun a h => w1 (ix2 a h)) (fun h => b1 (ix2 0 h))
          (fun a h => w2 (ix2 a h)) (fun h => b2 (ix2 0 h)) j := by
  unfold k0_pay2 Cert.Attn.mlp
  -- the second layer: a product into zero plus the bias row
  refine (biased_product_apply _ dot_query_plain none _ _ _ _ _ q j).trans ?_
  refine congrArg₂ (· + ·) (Finset.sum_congr rfl fun h _ => congrArg₂ (· * ·) ?_ rfl) rfl
  -- the hidden entry `h`: the rectifier of the first layer
  refine (truncf_apply (φ := .f32) (ψ := .bf16) _ _ (ix2 q h)).trans ((maximumf_zero_apply _ (ix2 q h)).trans ?_)
  unfold Cert.Attn.relu
  refine congrArg (max · 0) ?_
  refine (biased_product_apply _ dot_query_plain none _ _ _ _ _ q h).trans ?_
  rw [shapeCast_self]
  rfl

end Cert.KernelIdeal.Pay

end
-- ==== Proof.PayHiddenKV.lean ====
/-
  The hidden layer of the key and value perceptrons of one grid point, side by side, read at an index: the 256·16
  neighbour rows `[256,16,64]` laid out as `[4096,64]`, one product with the `[64,128]` matrix into a zero accumulator,
  the bias row, the rectifier. Row `r = q·16 + k` is neighbour `k` of point `q`.
-/
import proofs.«140518_j51651276702286_2_alg».proof.Proof.Gen.KernelIdeal.Skeleton
import proofs.«140518_j51651276702286_2_alg».proof.Proof.Spec
import proofs.«140518_j51651276702286_2_alg».proof.Proof.LibLayerRead

noncomputable section

namespace Cert.KernelIdeal.Pay

open Idealize.ShloMosaic Idealize.ShloMosaic.ValueIdx Cert.KernelIdeal Cert.KernelIdeal.Gen Cert.Lib.LayerRead

/-- The program's record of the `[4096,64] × [64,128]` product is the plain one. -/
theorem dot_kv_plain : dot_S4096x64_S64x128_S4096x128_1_0_0_1_n_n = DotDims.plain 4096 64 128 := rfl

/-- The key|value hidden layer's term at row `r = q·16 + k` and column `c`. -/
theorem hidden_kv_eq (x1 : Vec Ideal S256x16x64 .f32) (x8 : Vec Ideal S64x128 .f32) (x9 : Vec Ideal S1x128 .f32)
    (q : Fin 256) (k : Fin 16) (c : Fin 128) (r : Fin 4096) (hr : r.val = q.val * 16 + k.val) :
    k0_pay3 (F := Ideal) x1 x8 x9 (ix2 r c) = Cert.Attn.hkv x1 x8 x9 q k c := by
  unfold k0_pay3 Cert.Attn.hkv Cert.Attn.relu
  refine (maximumf_zero_apply _ (ix2 r c)).trans (congrArg (max · 0) ?_)
  refine (biased_product_apply _ dot_kv_plain none _ _ _ _ _ r c).trans ?_
  refine congrArg₂ (· + ·) (Finset.sum_congr rfl fun i _ => congrArg₂ (· * ·) ?_ ?_) rfl
  · -- the neighbour row: the cast `[256,16,64] → [4096,64]` read at `(r, i)`
    refine (truncf_apply (φ := .f32) (ψ := .bf16) _ _ (ix2 r i)).trans ?_
    rw [shapeCast_self]
    exact shapeCast_abc_rc_apply x1 _ q k i r hr
  · rw [shapeCast_self]
    rfl

end Cert.KernelIdeal.Pay

end
-- ==== Proof.LibKeepdims3.lean ====
/-
  Layout operations of rank-3 arrays with a unit axis in the MIDDLE or at the END, read at an index given by coordinates,
  for any extents: the cast [a, b] → [a, 1, b] and [a, b] → [a, b, 1] (a row or a column kept as a unit axis), and the
  broadcasts [a, 1, b] → [a, c, b] and [a, b, 1] → [a, b, c] (the kept axis repeated). Each is the library's general
  lemma (`shapeCast_apply`: equal row-major positions; `broadcastTo_apply`: a unit axis reads coordinate 0) with the
  coordinates' arithmetic done.
-/
import Idealize.ShloMosaic.Lib.ValueLayout

namespace Cert.LibKeepdims3

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, b]` array broadcast to `[a, c, b]` reads, at `(i, k, j)`, the operand at `(i, 0, j)`. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.LibKeepdims3
-- ==== Proof.PayHiddenPE.lean ====
/-
  The hidden layer of the positional perceptron of one grid point, read at an index. The kernel takes the three
  coordinates one at a time: a column of the positions `[256,3]` repeated over the sixteen neighbours minus a row of the
  transposed neighbour positions `[256,3,16]`, the difference `[256,16]` repeated over the 64 hidden entries and
  multiplied by that coordinate's weight row; the three products added up, the bias row added, the rectifier.
-/
import proofs.«140518_j51651276702286_2_alg».proof.Proof.Gen.KernelIdeal.Skeleton
import proofs.«140518_j51651276702286_2_alg».proof.Proof.Spec
import proofs.«140518_j51651276702286_2_alg».proof.Proof.LibLayerRead
import proofs.«140518_j51651276702286_2_alg».proof.Proof.LibKeepdims3

noncomputable section

namespace Cert.KernelIdeal.Pay

open Idealize.ShloMosaic Idealize.ShloMosaic.ValueIdx Cert.KernelIdeal Cert.KernelIdeal.Gen Cert.Lib.LayerRead
open Cert.LibKeepdims3

/-- Coordinate `o` of a point minus coordinate `o` of its neighbour `k`, repeated over the hidden entries, read at
    `(q, k, h)`. -/
theorem diff_apply (o : ℕ) (X2 : FVec Ideal S256x3 .f32) (X3 : FVec Ideal S256x3x16 .f32)
    (hs2 : S256x3.Slices ![0, o] S256x1) (hs3 : S256x3x16.Slices ![0, o, 0] S256x1x16)
    (hc : S256x1x16.ShapeCasts S256x16) (hb : S256x1.Broadcasts S256x16) (hc' : S256x16.ShapeCasts S256x16x1)
    (hb' : S256x16x1.Broadcasts S256x16x64) (o' : Fin 3) (ho : o'.val = o) (q : Fin 256) (k : Fin 16) (h : Fin 64) :
    broadcastTo S256x16x64
        (shapeCast S256x16x1
          (subf (broadcastTo S256x16 (extractStridedSlice S256x1 ![0, o] X2 hs2) hb)
            (shapeCast S256x16 (extractStridedSlice S256x1x16 ![0, o, 0] X3 hs3) hc)) hc') hb' (ix3 q k h)
      = X2 (ix2 q o') - X3 (ix3 q o' k) := by
  rw [broadcastTo_ab1_abc_apply, shapeCast_ab_ab1_apply]
  refine (subf_apply _ _ _).trans ?_
  rw [broadcastTo_a1_ab_apply, shapeCast_a1b_ab_apply,
    slice2_axis1_apply o X2 hs2 q 0 o' (by show o'.val = o + 0; omega),
    slice3_axis1_apply o X3 hs3 q 0 k o' (by show o'.val = o + 0; omega)]

/-- A weight row `[1,64]` repeated over the points and neighbours, read at `(q, k, h)`. -/
theorem weight_apply (W : FVec Ideal S1x64 .f32) (hc : S1x64.ShapeCasts S1x64) (hc' : S1x64.ShapeCasts S1x1x64)
    (hb : S1x1x64.Broadcasts S256x16x64) (q : Fin 256) (k : Fin 16) (h : Fin 64) :
    broadcastTo S256x16x64 (shapeCast S1x1x64 (shapeCast S1x64 W hc) hc') hb (ix3 q k h) = W (ix2 0 h) := by
  rw [broadcastTo_11c_abc_apply, shapeCast_ab_1ab_apply, shapeCast_self]

/-- The positional hidden layer's term at `(q, k, h)`. -/
theorem hidden_pe_eq (x2 : Vec Ideal S256x3 .f32) (x3 : Vec Ideal S256x3x16 .f32)
    (x12 x13 x14 x15 : Vec Ideal S1x64 .f32) (q : Fin 256) (k : Fin 16) (h : Fin 64) :
    k0_pay4 (F := Ideal) x2 x3 x12 x13 x14 x15 (ix3 q k h) = Cert.Attn.hpe x2 x3 x12 x13 x14 x15 q k h := by
  unfold k0_pay4 Cert.Attn.hpe Cert.Attn.relu
  refine (maximumf_zero_apply _ (ix3 q k h)).trans (congrArg (max · 0) ?_)
  refine (addf_apply _ _ _).trans (congrArg₂ (· + ·) ?_ (weight_apply x15 _ _ _ q k h))
  refine (addf_apply _ _ _).trans (congrArg₂ (· + ·) ?_ ?_)
  · refine (addf_apply _ _ _).trans (congrArg₂ (· + ·) ?_ ?_)
    · refine (mulf_apply _ _ _).trans (congrArg₂ (· * ·) ?_ (weight_apply x12 _ _ _ q k h))
      refine (diff_apply 0 _ _ _ _ _ _ _ _ 0 rfl q k h).trans ?_
      rw [shapeCast_self, shapeCast_self]
    · refine (mulf_apply _ _ _).trans (congrArg₂ (· * ·) ?_ (weight_apply x13 _ _ _ q k h))
      refine (diff_apply 1 _ _ _ _ _ _ _ _ 1 rfl q k h).trans ?_
      rw [shapeCast_self, shapeCast_self]
  · refine (mulf_apply _ _ _).trans (congrArg₂ (· * ·) ?_ (weight_apply x14 _ _ _ q k h))
    refine (diff_apply 2 _ _ _ _ _ _ _ _ 2 rfl q k h).trans ?_
    rw [shapeCast_self, shapeCast_self]

end Cert.KernelIdeal.Pay

end
-- ==== Proof.PayFused.lean ====
/-
  The fused second layer of one grid point, read at an index. The 128 key|value hidden entries and the 64 positional
  hidden entries of a neighbour row are joined into one row of 192, multiplied by the `[192,192]` matrix into a zero
  accumulator, and the bias row is added: at row `r = q·16 + k` and column `c` this is the sum over the first 128 rows
  of the matrix against the key|value entries plus the sum over the last 64 rows against the positional entries, plus the
  bias. A perceptron's output is then a range of 64 columns, cut out and laid back as `[256,16,64]`.
-/
import proofs.«140518_j51651276702286_2_alg».proof.Proof.Gen.KernelIdeal.Skeleton
import proofs.«140518_j51651276702286_2_alg».proof.Proof.Spec
import proofs.«140518_j51651276702286_2_alg».proof.Proof.LibLayerRead

noncomputable section

namespace Cert.KernelIdeal.Pay

open Idealize.ShloMosaic Idealize.ShloMosaic.ValueIdx Cert.KernelIdeal Cert.KernelIdeal.Gen Cert.Lib.LayerRead
open Cert.Lib.AffineLayer

/-- The program's record of the `[4096,192] × [192,192]` product is the plain one. -/
theorem dot_fused_plain : dot_S4096x192_S192x192_S4096x192_1_0_0_1_n_n = DotDims.plain 4096 192 192 := rfl

/-- The fused second layer at row `r = q·16 + k` and column `c`. -/
theorem second_layer_apply (v33 : FVec Ideal S4096x128 .f32) (v82 : FVec Ideal S256x16x64 .f32)
    (x10 : Vec Ideal S192x192 .f32) (x11 : Vec Ideal S1x192 .f32)
    (h83 : S256x16x64.ShapeCasts S4096x64) (hcat : Shape.Concatenates [S4096x128, S4096x64] S4096x192 1)
    (h88 : S192x192.ShapeCasts S192x192) (h92 : S1x192.ShapeCasts S1x192) (h93 : S1x192.Broadcasts S4096x192)
    (hlt : FTy.bits .bf16 < FTy.bits .f32) (q : Fin 256) (k : Fin 16) (r : Fin 4096) (hr : r.val = q.val * 16 + k.val)
    (c : Fin 192) :
    addf (matmul dot_S4096x192_S192x192_S4096x192_1_0_0_1_n_n none
          (concatenate S4096x192 1
            [⟨S4096x128, truncf .bf16 v33 hlt⟩, ⟨S4096x64, truncf .bf16 (shapeCast S4096x64 v82 h83) hlt⟩] hcat)
          (truncf .bf16 (shapeCast S192x192 x10 h88) hlt) (constant S4096x192 .f32 0x00000000#32))
        (broadcastTo S4096x192 (shapeCast S1x192 x11 h92) h93) (ix2 r c)
      = Cert.Attn.fused (fun a => v33 (ix2 r a)) (fun a => v82 (ix3 q k a)) x10 x11 c := by
  unfold Cert.Attn.fused
  refine (biased_product_apply _ dot_fused_plain none _ _ _ _ _ r c).trans ?_
  refine congrArg₂ (· + ·) ?_ rfl
  rw [sum_split2 128 64 192 rfl, shapeCast_self]
  refine congrArg₂ (· + ·) (Finset.sum_congr rfl fun a _ => congrArg₂ (· * ·) ?_ rfl)
    (Finset.sum_congr rfl fun a _ => congrArg₂ (· * ·) ?_ rfl)
  · exact concat2_left _ _ hcat r a _ rfl
  · refine (concat2_right _ _ hcat r a _ rfl).trans ?_
    exact shapeCast_abc_rc_apply v82 h83 q k a r hr

/-- A range of 64 columns of the `[4096,192]` result from column `o`, laid back as `[256,16,64]`, read at
    `(q, k, j)`: row `r = q·16 + k`, column `c = o + j`. -/
theorem head_apply (o : ℕ) (Y : FVec Ideal S4096x192 .f32) (hs : S4096x192.Slices ![0, o] S4096x64)
    (hc : S4096x64.ShapeCasts S256x16x64) (q : Fin 256) (k : Fin 16) (j : Fin 64) (r : Fin 4096)
    (hr : r.val = q.val * 16 + k.val) (c : Fin 192) (hc' : c.val = o + j.val) :
    shapeCast S256x16x64 (extractStridedSlice S4096x64 ![0, o] Y hs) hc (ix3 q k j) = Y (ix2 r c) := by
  rw [shapeCast_rc_abc_apply _ hc q k j r hr, slice2_axis1_apply o Y hs r j c hc']

end Cert.KernelIdeal.Pay

end
-- ==== Proof.PayAttend.lean ====
/-
  The attention of one grid point over its sixteen neighbours, read at an index, over variables: given the query block
  `[256,64]` and the key, value and positional-code blocks `[256,16,64]`, the kernel forms the logits
  `query - key + code` (the query repeated over the neighbours), subtracts their maximum over the neighbours, takes the
  exponential, divides by the sum over the neighbours, multiplies by `value + code` and sums over the neighbours. At
  `(q, j)` this is `attend` of the query's entry and the three blocks' entries `(q, k, j)`.
-/
import proofs.«140518_j51651276702286_2_alg».proof.Proof.Gen.KernelIdeal.Skeleton
import proofs.«140518_j51651276702286_2_alg».proof.Proof.Spec
import proofs.«140518_j51651276702286_2_alg».proof.Proof.LibLayerRead
import proofs.«140518_j51651276702286_2_alg».proof.Proof.LibKeepdims3
import proofs.«140518_j51651276702286_2_alg».proof.Proof.LibMaxReduce

noncomputable section

namespace Cert.KernelIdeal.Pay

open Idealize.ShloMosaic Idealize.ShloMosaic.ValueIdx Cert.KernelIdeal Cert.KernelIdeal.Gen Cert.Lib.LayerRead
open Cert.LibKeepdims3

/-- The exponential of a vector at the ideal values, read at an index. -/
theorem exp_apply {s : Shape} {φ : FTy} (a : FVec Ideal s φ) (i : s.Idx) : exp a i = Ideal.exp (a i) := rfl

/-- A `[256,64]` block kept as `[256,1,64]` and repeated over the sixteen neighbours. -/
abbrev keep (y : FVec Ideal S256x64 .f32) (hc : S256x64.ShapeCasts S256x1x64) (hb : S256x1x64.Broadcasts S256x16x64) :
    FVec Ideal S256x16x64 .f32 :=
  broadcastTo S256x16x64 (shapeCast S256x1x64 y hc) hb

theorem keep_apply (y : FVec Ideal S256x64 .f32) (hc : S256x64.ShapeCasts S256x1x64)
    (hb : S256x1x64.Broadcasts S256x16x64) (q : Fin 256) (k : Fin 16) (j : Fin 64) :
    keep y hc hb (ix3 q k j) = y (ix2 q j) := by
  show broadcastTo S256x16x64 (shapeCast S256x1x64 y hc) hb (ix3 q k j) = y (ix2 q j)
  rw [broadcastTo_a1b_acb_apply, shapeCast_ab_a1b_apply]

/-- The maximum over the neighbours from `-∞`, read at `(q, j)`. -/
theorem max_apply (L : FVec Ideal S256x16x64 .f32) (hr : S256x16x64.Reduces [1] S256x64) (hφ : FKind.Formats .f32)
    (hacc : (0xFF800000#32 : BitVec 32) = FKind.maximumf.neutral .f32 hφ) (q : Fin 256) (j : Fin 64) :
    multiReduction .maximumf [1] S256x64 L 0xFF800000#32 hr hφ hacc (ix2 q j)
      = Finset.univ.fold max ⊥ fun k : Fin 16 => L (ix3 q k j) := by
  refine (Cert.LibMaxReduce.multiReduction_maximumf_single L hr hφ hacc (ix2 q j)).trans ?_
  exact congrArg (fun f : Fin 16 → EReal => Finset.univ.fold max ⊥ f)
    (funext fun k => congrArg L (reduces_axis1_lift hr q j k))

/-- The sum over the neighbours from the zero word, read at `(q, j)`. -/
theorem sum_apply (E : FVec Ideal S256x16x64 .f32) (hr : S256x16x64.Reduces [1] S256x64) (hφ : FKind.Formats .f32)
    (hacc : (0x00000000#32 : BitVec 32) = FKind.add.neutral .f32 hφ) (q : Fin 256) (j : Fin 64) :
    multiReduction .add [1] S256x64 E 0x00000000#32 hr hφ hacc (ix2 q j) = ∑ k : Fin 16, E (ix3 q k j) := by
  refine (Ideal.multiReduction_add_single E _ hr hφ hacc (ix2 q j)).trans ?_
  exact Finset.sum_congr rfl fun k _ => congrArg E (reduces_axis1_lift hr q j k)

/-- The logits `query - key + code`. -/
abbrev logitsV (Qv : FVec Ideal S256x64 .f32) (K P : FVec Ideal S256x16x64 .f32) (hc : S256x64.ShapeCasts S256x1x64)
    (hb : S256x1x64.Broadcasts S256x16x64) : FVec Ideal S256x16x64 .f32 :=
  addf (subf (keep Qv hc hb) K) P

/-- The exponentials of the logits less their maximum over the neighbours. -/
abbrev expsV (L : FVec Ideal S256x16x64 .f32) (hc : S256x64.ShapeCasts S256x1x64) (hb : S256x1x64.Broadcasts S256x16x64)
    (hr : S256x16x64.Reduces [1] S256x64) (hφ : FKind.Formats .f32)
    (hmax : (0xFF800000#32 : BitVec 32) = FKind.maximumf.neutral .f32 hφ) : FVec Ideal S256x16x64 .f32 :=
  exp (subf L (keep (multiReduction .maximumf [1] S256x64 L 0xFF800000#32 hr hφ hmax) hc hb))

/-- The weighted sum: the exponentials over their sum, times `VP`, summed over the neighbours. -/
abbrev attnV (E VP : FVec Ideal S256x16x64 .f32) (hc : S256x64.ShapeCasts S256x1x64)
    (hb : S256x1x64.Broadcasts S256x16x64) (hr : S256x16x64.Reduces [1] S256x64) (hφ : FKind.Formats .f32)
    (hadd : (0x00000000#32 : BitVec 32) = FKind.add.neutral .f32 hφ) : FVec Ideal S256x64 .f32 :=
  multiReduction .add [1] S256x64
    (mulf (divf E (keep (multiReduction .add [1] S256x64 E 0x00000000#32 hr hφ hadd) hc hb)) VP)
    0x00000000#32 hr hφ hadd

/-- The kernel's attention at `(q, j)` is `attend` of the entries it reads. -/
theorem attend_of (Qv : FVec Ideal S256x64 .f32) (K V P : FVec Ideal S256x16x64 .f32)
    (hc : S256x64.ShapeCasts S256x1x64) (hb : S256x1x64.Broadcasts S256x16x64) (hr : S256x16x64.Reduces [1] S256x64)
    (hφ : FKind.Formats .f32) (hmax : (0xFF800000#32 : BitVec 32) = FKind.maximumf.neutral .f32 hφ)
    (hadd : (0x00000000#32 : BitVec 32) = FKind.add.neutral .f32 hφ) (q : Fin 256) (j : Fin 64) (qv : EReal)
    (kf vf pe : Fin 16 → EReal) (hq : Qv (ix2 q j) = qv) (hk : ∀ k, K (ix3 q k j) = kf k)
    (hv : ∀ k, V (ix3 q k j) = vf k) (hp : ∀ k, P (ix3 q k j) = pe k) :
    attnV (expsV (logitsV Qv K P hc hb) hc hb hr hφ hmax) (addf V P) hc hb hr hφ hadd (ix2 q j)
      = Cert.Attn.attend qv kf vf pe := by
  unfold Cert.Attn.attend
  have hL : ∀ k, logitsV Qv K P hc hb (ix3 q k j) = qv - kf k + pe k := fun k =>
    (addf_apply _ _ _).trans (congrArg₂ (· + ·)
      ((subf_apply _ _ _).trans (congrArg₂ (· - ·) ((keep_apply Qv hc hb q k j).trans hq) (hk k))) (hp k))
  have hM : ∀ k, keep (multiReduction .maximumf [1] S256x64 (logitsV Qv K P hc hb) 0xFF800000#32 hr hφ hmax) hc hb
        (ix3 q k j) = Finset.univ.fold max ⊥ fun k' : Fin 16 => qv - kf k' + pe k' := fun k =>
    (keep_apply _ hc hb q k j).trans ((max_apply _ hr hφ hmax q j).trans
      (congrArg (fun f : Fin 16 → EReal => Finset.univ.fold max ⊥ f) (funext hL)))
  have hE : ∀ k, expsV (logitsV Qv K P hc hb) hc hb hr hφ hmax (ix3 q k j)
      = Ideal.exp ((qv - kf k + pe k) - Finset.univ.fold max ⊥ fun k' : Fin 16 => qv - kf k' + pe k') := fun k =>
    (exp_apply _ _).trans (congrArg Ideal.exp ((subf_apply _ _ _).trans (congrArg₂ (· - ·) (hL k) (hM k))))
  refine (sum_apply _ hr hφ hadd q j).trans (Finset.sum_congr rfl fun k _ => ?_)
  refine (mulf_apply _ _ _).trans (congrArg₂ (· * ·) ?_
    ((addf_apply _ _ _).trans (congrArg₂ (· + ·) (hv k) (hp k))))
  refine (divf_apply _ _ _).trans (congrArg₂ Ideal.div (hE k) ?_)
  exact (keep_apply _ hc hb q k j).trans ((sum_apply _ hr hφ hadd q j).trans
    (Finset.sum_congr rfl fun k'' _ => hE k''))

end Cert.KernelIdeal.Pay

end
-- ==== Proof.PayStored.lean ====
/-
  What one grid point stores at `(q, j)` of its `[256,64]` output block, from its sixteen input blocks: the attention
  over the sixteen neighbours of the query perceptron's entry against the three column ranges (keys, values, positional
  codes) of the fused second layer applied to the key|value and positional hidden layers.
-/
import proofs.«140518_j51651276702286_2_alg».proof.Proof.Gen.KernelIdeal.Skeleton
import proofs.«140518_j51651276702286_2_alg».proof.Proof.Spec
import proofs.«140518_j51651276702286_2_alg».proof.Proof.PayQuery
import proofs.«140518_j51651276702286_2_alg».proof.Proof.PayHiddenKV
import proofs.«140518_j51651276702286_2_alg».proof.Proof.PayHiddenPE
import proofs.«140518_j51651276702286_2_alg».proof.Proof.PayFused
import proofs.«140518_j51651276702286_2_alg».proof.Proof.PayAttend

noncomputable section

namespace Cert.KernelIdeal.Pay

open Idealize.ShloMosaic Idealize.ShloMosaic.ValueIdx Cert.KernelIdeal Cert.KernelIdeal.Gen

/-- The stored term over any query block `v19`, key|value hidden block `v33` and positional hidden block `v82`, given
    what they hold at the entries point `q` reads. -/
theorem stored_of (v19 : FVec Ideal S256x64 .f32) (v33 : FVec Ideal S4096x128 .f32) (v82 : FVec Ideal S256x16x64 .f32)
    (x10 : Vec Ideal S192x192 .f32) (x11 : Vec Ideal S1x192 .f32) (q : Fin 256) (j : Fin 64) (qv : EReal)
    (hk : Fin 16 → Fin 128 → EReal) (hp : Fin 16 → Fin 64 → EReal) (hq : v19 (ix2 q j) = qv)
    (h33 : ∀ (k : Fin 16) (r : Fin 4096), r.val = q.val * 16 + k.val → ∀ c, v33 (ix2 r c) = hk k c)
    (h82 : ∀ k h, v82 (ix3 q k h) = hp k h) :
    k0_pay1 (F := Ideal) v19 v33 v82 x10 x11 (ix2 q j)
      = Cert.Attn.attend qv (fun k => Cert.Attn.fused (hk k) (hp k) x10 x11 ⟨j.val, by omega⟩)
          (fun k => Cert.Attn.fused (hk k) (hp k) x10 x11 ⟨64 + j.val, by omega⟩)
          (fun k => Cert.Attn.fused (hk k) (hp k) x10 x11 ⟨128 + j.val, by omega⟩) := by
  have row : ∀ (k : Fin 16) (c : Fin 192),
      Cert.Attn.fused (fun a => v33 (ix2 (⟨q.val * 16 + k.val, by omega⟩ : Fin 4096) a)) (fun a => v82 (ix3 q k a)) x10 x11 c
        = Cert.Attn.fused (hk k) (hp k) x10 x11 c := fun k c =>
    congrArg₂ (fun a b => Cert.Attn.fused a b x10 x11 c) (funext (h33 k _ rfl)) (funext (h82 k))
  unfold k0_pay1
  refine attend_of _ _ _ _ _ _ _ _ _ _ q j _ _ _ _ hq (fun k => ?_) (fun k => ?_) (fun k => ?_)
  · refine (head_apply 0 _ _ _ q k j ⟨q.val * 16 + k.val, by omega⟩ rfl ⟨j.val, by omega⟩ (Nat.zero_add _).symm).trans ?_
    exact (second_layer_apply v33 v82 x10 x11 _ _ _ _ _ _ q k _ rfl _).trans (row k _)
  · refine (head_apply 64 _ _ _ q k j ⟨q.val * 16 + k.val, by omega⟩ rfl ⟨64 + j.val, by omega⟩ rfl).trans ?_
    exact (second_layer_apply v33 v82 x10 x11 _ _ _ _ _ _ q k _ rfl _).trans (row k _)
  · refine (head_apply 128 _ _ _ q k j ⟨q.val * 16 + k.val, by omega⟩ rfl ⟨128 + j.val, by omega⟩ rfl).trans ?_
    exact (second_layer_apply v33 v82 x10 x11 _ _ _ _ _ _ q k _ rfl _).trans (row k _)

/-- What the kernel stores at `(q, j)`. -/
theorem stored_eq (x0 : Vec Ideal S256x64 .f32) (x1 : Vec Ideal S256x16x64 .f32) (x2 : Vec Ideal S256x3 .f32)
    (x3 : Vec Ideal S256x3x16 .f32) (x4 : Vec Ideal S64x64 .f32) (x5 : Vec Ideal S1x64 .f32)
    (x6 : Vec Ideal S64x64 .f32) (x7 : Vec Ideal S1x64 .f32) (x8 : Vec Ideal S64x128 .f32)
    (x9 : Vec Ideal S1x128 .f32) (x10 : Vec Ideal S192x192 .f32) (x11 : Vec Ideal S1x192 .f32)
    (x12 x13 x14 x15 : Vec Ideal S1x64 .f32) (q : Fin 256) (j : Fin 64) :
    k0_pay1 (F := Ideal) (k0_pay2 x0 x4 x5 x6 x7) (k0_pay3 x1 x8 x9) (k0_pay4 x2 x3 x12 x13 x14 x15) x10 x11 (ix2 q j)
      = Cert.Attn.Kspec x0 x1 x2 x3 x4 x5 x6 x7 x8 x9 x10 x11 x12 x13 x14 x15 q j := by
  unfold Cert.Attn.Kspec
  exact stored_of _ _ _ x10 x11 q j _ (Cert.Attn.hkv x1 x8 x9 q) (Cert.Attn.hpe x2 x3 x12 x13 x14 x15 q)
    (query_eq x0 x4 x5 x6 x7 q j) (fun k r hr c => hidden_kv_eq x1 x8 x9 q k c r hr)
    (fun k h => hidden_pe_eq x2 x3 x12 x13 x14 x15 q k h)

end Cert.KernelIdeal.Pay

end
-- ==== Proof.Fuse.lean ====
/-
  The algebra that joins the two arrangements, over the extended reals, with no finiteness asked: only that addition
  is a commutative monoid and that a product with zero is zero.

  * `fused_eq`: a column of the fused second layer is the sum of three contractions of 64 terms, one per range of
    64 rows of the `[192, 192]` matrix, plus the bias.
  * `Kspec_eq`: when the blocks a grid point sees hold the rows of the argument arrays — the key and value first
    layers side by side, the fused matrix block-diagonal with zero off-diagonal blocks, the three rows of the
    positional first layer apart — what the point stores at `(q, j)` is `attend` of the four perceptrons' columns.
-/
import proofs.«140518_j51651276702286_2_alg».proof.Proof.Spec
import proofs.«140518_j51651276702286_2_alg».proof.Proof.LibAffineLayer

noncomputable section

namespace Cert.Attn

open Idealize.ShloMosaic Idealize.ShloMosaic.ValueIdx Cert.Lib.AffineLayer

/-- A column of the fused second layer, its 192 rows read in three ranges of 64. -/
theorem fused_eq (hk : Fin 128 → EReal) (hp : Fin 64 → EReal) (x10 : (⟨2, ![192, 192]⟩ : Shape).Idx → EReal)
    (x11 : (⟨2, ![1, 192]⟩ : Shape).Idx → EReal) (c : Fin 192) (A B C : Fin 64 → EReal) (bias : EReal)
    (hA : ∀ a : Fin 64, x10 (ix2 ⟨a.val, by omega⟩ c) = A a)
    (hB : ∀ a : Fin 64, x10 (ix2 ⟨64 + a.val, by omega⟩ c) = B a)
    (hC : ∀ a : Fin 64, x10 (ix2 ⟨128 + a.val, by omega⟩ c) = C a)
    (hb : x11 (ix2 0 c) = bias) :
    fused hk hp x10 x11 c
      = (((∑ a : Fin 64, hk ⟨a.val, by omega⟩ * A a) + (∑ a : Fin 64, hk ⟨64 + a.val, by omega⟩ * B a))
          + (∑ a : Fin 64, hp a * C a)) + bias := by
  unfold fused
  rw [sum_split2 64 64 128 rfl, hb]
  simp only [hA, hB, hC]

/-- The same when only the first range of rows is nonzero. -/
theorem fused_fst (hk : Fin 128 → EReal) (hp : Fin 64 → EReal) (x10 : (⟨2, ![192, 192]⟩ : Shape).Idx → EReal)
    (x11 : (⟨2, ![1, 192]⟩ : Shape).Idx → EReal) (c : Fin 192) (A : Fin 64 → EReal) (bias : EReal)
    (hA : ∀ a : Fin 64, x10 (ix2 ⟨a.val, by omega⟩ c) = A a)
    (hB : ∀ a : Fin 64, x10 (ix2 ⟨64 + a.val, by omega⟩ c) = 0)
    (hC : ∀ a : Fin 64, x10 (ix2 ⟨128 + a.val, by omega⟩ c) = 0)
    (hb : x11 (ix2 0 c) = bias) :
    fused hk hp x10 x11 c = (∑ a : Fin 64, hk ⟨a.val, by omega⟩ * A a) + bias := by
  rw [fused_eq hk hp x10 x11 c A (fun _ => 0) (fun _ => 0) bias hA hB hC hb]
  simp only [mul_zero, Finset.sum_const_zero, add_zero]

/-- The same when only the second range of rows is nonzero. -/
theorem fused_snd (hk : Fin 128 → EReal) (hp : Fin 64 → EReal) (x10 : (⟨2, ![192, 192]⟩ : Shape).Idx → EReal)
    (x11 : (⟨2, ![1, 192]⟩ : Shape).Idx → EReal) (c : Fin 192) (B : Fin 64 → EReal) (bias : EReal)
    (hA : ∀ a : Fin 64, x10 (ix2 ⟨a.val, by omega⟩ c) = 0)
    (hB : ∀ a : Fin 64, x10 (ix2 ⟨64 + a.val, by omega⟩ c) = B a)
    (hC : ∀ a : Fin 64, x10 (ix2 ⟨128 + a.val, by omega⟩ c) = 0)
    (hb : x11 (ix2 0 c) = bias) :
    fused hk hp x10 x11 c = (∑ a : Fin 64, hk ⟨64 + a.val, by omega⟩ * B a) + bias := by
  rw [fused_eq hk hp x10 x11 c (fun _ => 0) B (fun _ => 0) bias hA hB hC hb]
  simp only [mul_zero, Finset.sum_const_zero, add_zero, zero_add]

/-- The same when only the third range of rows is nonzero. -/
theorem fused_thd (hk : Fin 128 → EReal) (hp : Fin 64 → EReal) (x10 : (⟨2, ![192, 192]⟩ : Shape).Idx → EReal)
    (x11 : (⟨2, ![1, 192]⟩ : Shape).Idx → EReal) (c : Fin 192) (C : Fin 64 → EReal) (bias : EReal)
    (hA : ∀ a : Fin 64, x10 (ix2 ⟨a.val, by omega⟩ c) = 0)
    (hB : ∀ a : Fin 64, x10 (ix2 ⟨64 + a.val, by omega⟩ c) = 0)
    (hC : ∀ a : Fin 64, x10 (ix2 ⟨128 + a.val, by omega⟩ c) = C a)
    (hb : x11 (ix2 0 c) = bias) :
    fused hk hp x10 x11 c = (∑ a : Fin 64, hp a * C a) + bias := by
  rw [fused_eq hk hp x10 x11 c (fun _ => 0) (fun _ => 0) C bias hA hB hC hb]
  simp only [mul_zero, Finset.sum_const_zero, add_zero, zero_add]

/-- A contraction over three coordinates is the three products added in order. -/
theorem sum_three (f : Fin 3 → EReal) : ∑ i : Fin 3, f i = (f 0 + f 1) + f 2 := Fin.sum_univ_three f

end Cert.Attn

end
-- ==== Proof.KspecEq.lean ====
/-
  What one grid point stores, when its blocks hold the rows of the argument arrays, is the attention of the four
  perceptrons' columns: the query column from the point's feature row; for each neighbour the key column from the
  first 64 hidden entries of the fused key/value layer against the upper-left block of the fused matrix, the value
  column from the next 64 against the middle block, the positional column from the three multiply-adds against the
  lower-right block — every other block of the fused matrix being zero.
-/
import proofs.«140518_j51651276702286_2_alg».proof.Proof.Fuse

noncomputable section

namespace Cert.Attn

open Idealize.ShloMosaic Idealize.ShloMosaic.ValueIdx Cert.Lib.AffineLayer

/-- The query perceptron over a block row is the perceptron over the argument row. -/
theorem q_eq (x0 : (⟨2, ![256, 64]⟩ : Shape).Idx → EReal) (x4 : (⟨2, ![64, 64]⟩ : Shape).Idx → EReal) (x5 : (⟨2, ![1, 64]⟩ : Shape).Idx → EReal)
    (x6 : (⟨2, ![64, 64]⟩ : Shape).Idx → EReal) (x7 : (⟨2, ![1, 64]⟩ : Shape).Idx → EReal) (q : Fin 256) (j : Fin 64)
    (xrow : Fin 64 → EReal) (qW1 qW2 : Fin 64 → Fin 64 → EReal) (qb1 qb2 : Fin 64 → EReal)
    (h0 : ∀ a, x0 (ix2 q a) = xrow a) (h4 : ∀ a h, x4 (ix2 a h) = qW1 a h) (h5 : ∀ h, x5 (ix2 0 h) = qb1 h)
    (h6 : ∀ a h, x6 (ix2 a h) = qW2 a h) (h7 : ∀ h, x7 (ix2 0 h) = qb2 h) :
    mlp (fun a => x0 (ix2 q a)) (fun a h => x4 (ix2 a h)) (fun h => x5 (ix2 0 h)) (fun a h => x6 (ix2 a h))
      (fun h => x7 (ix2 0 h)) j = mlp xrow qW1 qb1 qW2 qb2 j := by
  have e0 : (fun a => x0 (ix2 q a)) = xrow := funext h0
  have e4 : (fun a h => x4 (ix2 a h)) = qW1 := funext fun a => funext fun h => h4 a h
  have e5 : (fun h => x5 (ix2 0 h)) = qb1 := funext h5
  have e6 : (fun a h => x6 (ix2 a h)) = qW2 := funext fun a => funext fun h => h6 a h
  have e7 : (fun h => x7 (ix2 0 h)) = qb2 := funext h7
  rw [e0, e4, e5, e6, e7]

/-- A hidden entry of the key perceptron, of the value perceptron, and of the positional one. -/
theorem hkv_fst (x1 : (⟨3, ![256, 16, 64]⟩ : Shape).Idx → EReal) (x8 : (⟨2, ![64, 128]⟩ : Shape).Idx → EReal)
    (x9 : (⟨2, ![1, 128]⟩ : Shape).Idx → EReal) (q : Fin 256) (k : Fin 16) (a : Fin 64)
    (xnrow : Fin 16 → Fin 64 → EReal) (kW1 : Fin 64 → Fin 64 → EReal) (kb1 : Fin 64 → EReal)
    (h1 : ∀ k a, x1 (ix3 q k a) = xnrow k a)
    (h8k : ∀ i (c : Fin 64), x8 (ix2 i ⟨c.val, by omega⟩) = kW1 i c)
    (h9k : ∀ c : Fin 64, x9 (ix2 0 ⟨c.val, by omega⟩) = kb1 c) :
    hkv x1 x8 x9 q k ⟨a.val, by omega⟩ = relu ((∑ i : Fin 64, xnrow k i * kW1 i a) + kb1 a) := by
  unfold hkv
  rw [h9k a, Finset.sum_congr rfl (fun i _ => by rw [h1 k i, h8k i a] :
    ∀ i ∈ (Finset.univ : Finset (Fin 64)), x1 (ix3 q k i) * x8 (ix2 i ⟨a.val, by omega⟩) = xnrow k i * kW1 i a)]

theorem hkv_snd (x1 : (⟨3, ![256, 16, 64]⟩ : Shape).Idx → EReal) (x8 : (⟨2, ![64, 128]⟩ : Shape).Idx → EReal)
    (x9 : (⟨2, ![1, 128]⟩ : Shape).Idx → EReal) (q : Fin 256) (k : Fin 16) (a : Fin 64)
    (xnrow : Fin 16 → Fin 64 → EReal) (vW1 : Fin 64 → Fin 64 → EReal) (vb1 : Fin 64 → EReal)
    (h1 : ∀ k a, x1 (ix3 q k a) = xnrow k a)
    (h8v : ∀ i (c : Fin 64), x8 (ix2 i ⟨64 + c.val, by omega⟩) = vW1 i c)
    (h9v : ∀ c : Fin 64, x9 (ix2 0 ⟨64 + c.val, by omega⟩) = vb1 c) :
    hkv x1 x8 x9 q k ⟨64 + a.val, by omega⟩ = relu ((∑ i : Fin 64, xnrow k i * vW1 i a) + vb1 a) := by
  unfold hkv
  rw [h9v a, Finset.sum_congr rfl (fun i _ => by rw [h1 k i, h8v i a] :
    ∀ i ∈ (Finset.univ : Finset (Fin 64)), x1 (ix3 q k i) * x8 (ix2 i ⟨64 + a.val, by omega⟩) = xnrow k i * vW1 i a)]

theorem hpe_eq (x2 : (⟨2, ![256, 3]⟩ : Shape).Idx → EReal) (x3 : (⟨3, ![256, 3, 16]⟩ : Shape).Idx → EReal)
    (x12 x13 x14 x15 : (⟨2, ![1, 64]⟩ : Shape).Idx → EReal) (q : Fin 256) (k : Fin 16) (a : Fin 64)
    (prow : Fin 3 → EReal) (pnrow : Fin 16 → Fin 3 → EReal) (pW1 : Fin 3 → Fin 64 → EReal) (pb1 : Fin 64 → EReal)
    (h2 : ∀ c, x2 (ix2 q c) = prow c) (h3 : ∀ c k, x3 (ix3 q c k) = pnrow k c)
    (h12 : ∀ h, x12 (ix2 0 h) = pW1 0 h) (h13 : ∀ h, x13 (ix2 0 h) = pW1 1 h) (h14 : ∀ h, x14 (ix2 0 h) = pW1 2 h)
    (h15 : ∀ h, x15 (ix2 0 h) = pb1 h) :
    hpe x2 x3 x12 x13 x14 x15 q k a = relu ((∑ i : Fin 3, (prow i - pnrow k i) * pW1 i a) + pb1 a) := by
  unfold hpe
  rw [h2 0, h2 1, h2 2, h3 0 k, h3 1 k, h3 2 k, h12 a, h13 a, h14 a, h15 a, sum_three]

/-- The key column: the first 64 hidden entries against the upper-left block of the fused matrix. -/
theorem key_col (x1 : (⟨3, ![256, 16, 64]⟩ : Shape).Idx → EReal) (x8 : (⟨2, ![64, 128]⟩ : Shape).Idx → EReal)
    (x9 : (⟨2, ![1, 128]⟩ : Shape).Idx → EReal) (x10 : (⟨2, ![192, 192]⟩ : Shape).Idx → EReal) (x11 : (⟨2, ![1, 192]⟩ : Shape).Idx → EReal) (hp : Fin 64 → EReal) (q : Fin 256) (k : Fin 16) (j : Fin 64)
    (xnrow : Fin 16 → Fin 64 → EReal) (kW1 kW2 : Fin 64 → Fin 64 → EReal) (kb1 kb2 : Fin 64 → EReal)
    (h1 : ∀ k a, x1 (ix3 q k a) = xnrow k a)
    (h8k : ∀ i (c : Fin 64), x8 (ix2 i ⟨c.val, by omega⟩) = kW1 i c)
    (h9k : ∀ c : Fin 64, x9 (ix2 0 ⟨c.val, by omega⟩) = kb1 c)
    (hkk : ∀ a c : Fin 64, x10 (ix2 ⟨a.val, by omega⟩ ⟨c.val, by omega⟩) = kW2 a c)
    (hkv' : ∀ a c : Fin 64, x10 (ix2 ⟨64 + a.val, by omega⟩ ⟨c.val, by omega⟩) = 0)
    (hkp : ∀ a c : Fin 64, x10 (ix2 ⟨128 + a.val, by omega⟩ ⟨c.val, by omega⟩) = 0)
    (h11k : ∀ c : Fin 64, x11 (ix2 0 ⟨c.val, by omega⟩) = kb2 c) :
    fused (hkv x1 x8 x9 q k) hp x10 x11 ⟨j.val, by omega⟩ = mlp (xnrow k) kW1 kb1 kW2 kb2 j := by
  refine (fused_fst _ _ x10 x11 ⟨j.val, by omega⟩ (fun a => kW2 a j) (kb2 j) (fun a => hkk a j) (fun a => hkv' a j)
    (fun a => hkp a j) (h11k j)).trans ?_
  unfold mlp
  exact congrArg (· + kb2 j) (Finset.sum_congr rfl fun a _ => by
    rw [hkv_fst x1 x8 x9 q k a xnrow kW1 kb1 h1 h8k h9k])

/-- The value column: the next 64 hidden entries against the middle block. -/
theorem value_col (x1 : (⟨3, ![256, 16, 64]⟩ : Shape).Idx → EReal) (x8 : (⟨2, ![64, 128]⟩ : Shape).Idx → EReal)
    (x9 : (⟨2, ![1, 128]⟩ : Shape).Idx → EReal) (x10 : (⟨2, ![192, 192]⟩ : Shape).Idx → EReal) (x11 : (⟨2, ![1, 192]⟩ : Shape).Idx → EReal) (hp : Fin 64 → EReal) (q : Fin 256) (k : Fin 16) (j : Fin 64)
    (xnrow : Fin 16 → Fin 64 → EReal) (vW1 vW2 : Fin 64 → Fin 64 → EReal) (vb1 vb2 : Fin 64 → EReal)
    (h1 : ∀ k a, x1 (ix3 q k a) = xnrow k a)
    (h8v : ∀ i (c : Fin 64), x8 (ix2 i ⟨64 + c.val, by omega⟩) = vW1 i c)
    (h9v : ∀ c : Fin 64, x9 (ix2 0 ⟨64 + c.val, by omega⟩) = vb1 c)
    (hvk : ∀ a c : Fin 64, x10 (ix2 ⟨a.val, by omega⟩ ⟨64 + c.val, by omega⟩) = 0)
    (hvv : ∀ a c : Fin 64, x10 (ix2 ⟨64 + a.val, by omega⟩ ⟨64 + c.val, by omega⟩) = vW2 a c)
    (hvp : ∀ a c : Fin 64, x10 (ix2 ⟨128 + a.val, by omega⟩ ⟨64 + c.val, by omega⟩) = 0)
    (h11v : ∀ c : Fin 64, x11 (ix2 0 ⟨64 + c.val, by omega⟩) = vb2 c) :
    fused (hkv x1 x8 x9 q k) hp x10 x11 ⟨64 + j.val, by omega⟩ = mlp (xnrow k) vW1 vb1 vW2 vb2 j := by
  refine (fused_snd _ _ x10 x11 ⟨64 + j.val, by omega⟩ (fun a => vW2 a j) (vb2 j) (fun a => hvk a j) (fun a => hvv a j)
    (fun a => hvp a j) (h11v j)).trans ?_
  unfold mlp
  exact congrArg (· + vb2 j) (Finset.sum_congr rfl fun a _ => by
    rw [hkv_snd x1 x8 x9 q k a xnrow vW1 vb1 h1 h8v h9v])

/-- The positional column: the three multiply-adds' hidden entries against the lower-right block. -/
theorem pos_col (x2 : (⟨2, ![256, 3]⟩ : Shape).Idx → EReal) (x3 : (⟨3, ![256, 3, 16]⟩ : Shape).Idx → EReal)
    (x12 x13 x14 x15 : (⟨2, ![1, 64]⟩ : Shape).Idx → EReal) (x10 : (⟨2, ![192, 192]⟩ : Shape).Idx → EReal) (x11 : (⟨2, ![1, 192]⟩ : Shape).Idx → EReal) (hk : Fin 128 → EReal) (q : Fin 256) (k : Fin 16)
    (j : Fin 64) (prow : Fin 3 → EReal) (pnrow : Fin 16 → Fin 3 → EReal) (pW1 : Fin 3 → Fin 64 → EReal)
    (pW2 : Fin 64 → Fin 64 → EReal) (pb1 pb2 : Fin 64 → EReal)
    (h2 : ∀ c, x2 (ix2 q c) = prow c) (h3 : ∀ c k, x3 (ix3 q c k) = pnrow k c)
    (h12 : ∀ h, x12 (ix2 0 h) = pW1 0 h) (h13 : ∀ h, x13 (ix2 0 h) = pW1 1 h) (h14 : ∀ h, x14 (ix2 0 h) = pW1 2 h)
    (h15 : ∀ h, x15 (ix2 0 h) = pb1 h)
    (hpk : ∀ a c : Fin 64, x10 (ix2 ⟨a.val, by omega⟩ ⟨128 + c.val, by omega⟩) = 0)
    (hpv : ∀ a c : Fin 64, x10 (ix2 ⟨64 + a.val, by omega⟩ ⟨128 + c.val, by omega⟩) = 0)
    (hpp : ∀ a c : Fin 64, x10 (ix2 ⟨128 + a.val, by omega⟩ ⟨128 + c.val, by omega⟩) = pW2 a c)
    (h11p : ∀ c : Fin 64, x11 (ix2 0 ⟨128 + c.val, by omega⟩) = pb2 c) :
    fused hk (hpe x2 x3 x12 x13 x14 x15 q k) x10 x11 ⟨128 + j.val, by omega⟩
      = mlp (fun c => prow c - pnrow k c) pW1 pb1 pW2 pb2 j := by
  refine (fused_thd _ _ x10 x11 ⟨128 + j.val, by omega⟩ (fun a => pW2 a j) (pb2 j) (fun a => hpk a j) (fun a => hpv a j)
    (fun a => hpp a j) (h11p j)).trans ?_
  unfold mlp
  exact congrArg (· + pb2 j) (Finset.sum_congr rfl fun a _ => by
    rw [hpe_eq x2 x3 x12 x13 x14 x15 q k a prow pnrow pW1 pb1 h2 h3 h12 h13 h14 h15])

/-- What a grid point stores at `(q, j)` is the attention of: the query column over the feature block's row `q`; and for
    each neighbour the three columns `j`, `64 + j`, `128 + j` of the fused second layer. -/
theorem Kspec_unfold (x0 : (⟨2, ![256, 64]⟩ : Shape).Idx → EReal) (x1 : (⟨3, ![256, 16, 64]⟩ : Shape).Idx → EReal)
    (x2 : (⟨2, ![256, 3]⟩ : Shape).Idx → EReal) (x3 : (⟨3, ![256, 3, 16]⟩ : Shape).Idx → EReal)
    (x4 : (⟨2, ![64, 64]⟩ : Shape).Idx → EReal) (x5 : (⟨2, ![1, 64]⟩ : Shape).Idx → EReal)
    (x6 : (⟨2, ![64, 64]⟩ : Shape).Idx → EReal) (x7 : (⟨2, ![1, 64]⟩ : Shape).Idx → EReal)
    (x8 : (⟨2, ![64, 128]⟩ : Shape).Idx → EReal) (x9 : (⟨2, ![1, 128]⟩ : Shape).Idx → EReal)
    (x10 : (⟨2, ![192, 192]⟩ : Shape).Idx → EReal) (x11 : (⟨2, ![1, 192]⟩ : Shape).Idx → EReal)
    (x12 x13 x14 x15 : (⟨2, ![1, 64]⟩ : Shape).Idx → EReal) (q : Fin 256) (j : Fin 64) :
    Kspec x0 x1 x2 x3 x4 x5 x6 x7 x8 x9 x10 x11 x12 x13 x14 x15 q j
      = attend
          (mlp (fun a => x0 (ix2 q a)) (fun a h => x4 (ix2 a h)) (fun h => x5 (ix2 0 h)) (fun a h => x6 (ix2 a h))
            (fun h => x7 (ix2 0 h)) j)
          (fun k => fused (hkv x1 x8 x9 q k) (hpe x2 x3 x12 x13 x14 x15 q k) x10 x11 ⟨j.val, by omega⟩)
          (fun k => fused (hkv x1 x8 x9 q k) (hpe x2 x3 x12 x13 x14 x15 q k) x10 x11 ⟨64 + j.val, by omega⟩)
          (fun k => fused (hkv x1 x8 x9 q k) (hpe x2 x3 x12 x13 x14 x15 q k) x10 x11 ⟨128 + j.val, by omega⟩) := rfl

end Cert.Attn

end
-- ==== Proof.BlockArrays.lean ====
/-
  What the arrays the region's input windows stage hold when the region is entered, as layout operations of the
  argument arrays: the reshapes that merge the batch and point axes, the exchange of two axes of the neighbour
  positions, the key and value first layers joined side by side, the row slices of the positional first-layer
  matrix, and the biases recast as single rows.
-/
import proofs.«140518_j51651276702286_2_alg».proof.Proof.FrameIdeal
import Idealize.ShloMosaic.Lib.StableHlo.Run
import Idealize.ShloMosaic.Lib.Pipeline.Value
import Idealize.ShloMosaic.Lib.ValueIdx

noncomputable section

namespace Cert.KernelIdeal.Blocks

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The point features with batch and point axes merged into one axis of rows. -/
theorem V_main_v0 (c : Dev nD) : (V m c main_v0 : S32768x64.Idx → EReal) = shapeCast S32768x64 (m ((c : Thread nD τ).loc main_arg0) : S2x16384x64.Idx → EReal) shapeCasts_S2x16384x64_S32768x64 := by
  show StableHlo.after hostOps0 (fun b => m (c, b)) (Proc.devRef .tc main_v0) = _
  after_results
  rfl

/-- The neighbour features with batch and point axes merged. -/
theorem V_main_v1 (c : Dev nD) : (V m c main_v1 : S32768x16x64.Idx → EReal) = shapeCast S32768x16x64 (m ((c : Thread nD τ).loc main_arg1) : S2x16384x16x64.Idx → EReal) shapeCasts_S2x16384x16x64_S32768x16x64 := by
  show StableHlo.after hostOps0 (fun b => m (c, b)) (Proc.devRef .tc main_v1) = _
  after_results
  rfl

/-- The point positions with batch and point axes merged. -/
theorem V_main_v2 (c : Dev nD) : (V m c main_v2 : S32768x3.Idx → EReal) = shapeCast S32768x3 (m ((c : Thread nD τ).loc main_arg2) : S2x16384x3.Idx → EReal) shapeCasts_S2x16384x3_S32768x3 := by
  show StableHlo.after hostOps0 (fun b => m (c, b)) (Proc.devRef .tc main_v2) = _
  after_results
  rfl

/-- The neighbour positions with batch and point axes merged, then the neighbour and coordinate axes exchanged. -/
theorem V_main_v4 (c : Dev nD) : (V m c main_v4 : S32768x3x16.Idx → EReal) = transpose S32768x3x16 [0, 2, 1] (shapeCast S32768x16x3 (m ((c : Thread nD τ).loc main_arg3) : S2x16384x16x3.Idx → EReal) shapeCasts_S2x16384x16x3_S32768x16x3) transposes_S32768x16x3_S32768x3x16_0_2_1 := by
  show StableHlo.after hostOps0 (fun b => m (c, b)) (Proc.devRef .tc main_v4) = _
  after_results
  rfl

/-- The key and value first-layer matrices side by side. -/
theorem V_main_v5 (c : Dev nD) : (V m c main_v5 : S64x128.Idx → EReal) = concatenate S64x128 1 [⟨S64x64, (m ((c : Thread nD τ).loc main_arg8) : S64x64.Idx → EReal)⟩, ⟨S64x64, (m ((c : Thread nD τ).loc main_arg12) : S64x64.Idx → EReal)⟩] concatenates_S64x64_S64x64_S64x128_d1 := by
  show StableHlo.after hostOps0 (fun b => m (c, b)) (Proc.devRef .tc main_v5) = _
  after_results

/-- The key and value first-layer biases end to end, as one row. -/
theorem V_main_v7 (c : Dev nD) : (V m c main_v7 : S1x128.Idx → EReal) = shapeCast S1x128 (concatenate S128 0 [⟨S64, (m ((c : Thread nD τ).loc main_arg9) : S64.Idx → EReal)⟩, ⟨S64, (m ((c : Thread nD τ).loc main_arg13) : S64.Idx → EReal)⟩] concatenates_S64_S64_S128_d0) shapeCasts_S128_S1x128 := by
  show StableHlo.after hostOps0 (fun b => m (c, b)) (Proc.devRef .tc main_v7) = _
  after_results
  rfl

/-- Row 0 of the positional first-layer matrix. -/
theorem V_main_v15 (c : Dev nD) : (V m c main_v15 : S1x64.Idx → EReal) = extractStridedSlice S1x64 ![0, 0] (m ((c : Thread nD τ).loc main_arg16) : S3x64.Idx → EReal) slices_S3x64_S1x64_0_0 := by
  show StableHlo.after hostOps0 (fun b => m (c, b)) (Proc.devRef .tc main_v15) = _
  after_results

/-- Row 1 of the positional first-layer matrix. -/
theorem V_main_v16 (c : Dev nD) : (V m c main_v16 : S1x64.Idx → EReal) = extractStridedSlice S1x64 ![1, 0] (m ((c : Thread nD τ).loc main_arg16) : S3x64.Idx → EReal) slices_S3x64_S1x64_1_0 := by
  show StableHlo.after hostOps0 (fun b => m (c, b)) (Proc.devRef .tc main_v16) = _
  after_results

/-- Row 2 of the positional first-layer matrix. -/
theorem V_main_v17 (c : Dev nD) : (V m c main_v17 : S1x64.Idx → EReal) = extractStridedSlice S1x64 ![2, 0] (m ((c : Thread nD τ).loc main_arg16) : S3x64.Idx → EReal) slices_S3x64_S1x64_2_0 := by
  show StableHlo.after hostOps0 (fun b => m (c, b)) (Proc.devRef .tc main_v17) = _
  after_results

/-- The positional first-layer bias as one row. -/
theorem V_main_v18 (c : Dev nD) : (V m c main_v18 : S1x64.Idx → EReal) = shapeCast S1x64 (m ((c : Thread nD τ).loc main_arg17) : S64.Idx → EReal) shapeCasts_S64_S1x64 := by
  show StableHlo.after hostOps0 (fun b => m (c, b)) (Proc.devRef .tc main_v18) = _
  after_results
  rfl

/-- The query first-layer bias as one row. -/
theorem V_main_v19 (c : Dev nD) : (V m c main_v19 : S1x64.Idx → EReal) = shapeCast S1x64 (m ((c : Thread nD τ).loc main_arg5) : S64.Idx → EReal) shapeCasts_S64_S1x64 := by
  show StableHlo.after hostOps0 (fun b => m (c, b)) (Proc.devRef .tc main_v19) = _
  after_results
  rfl

/-- The query second-layer bias as one row. -/
theorem V_main_v20 (c : Dev nD) : (V m c main_v20 : S1x64.Idx → EReal) = shapeCast S1x64 (m ((c : Thread nD τ).loc main_arg7) : S64.Idx → EReal) shapeCasts_S64_S1x64 := by
  show StableHlo.after hostOps0 (fun b => m (c, b)) (Proc.devRef .tc main_v20) = _
  after_results
  rfl

end Cert.KernelIdeal.Blocks

end
-- ==== Proof.LibMergeRows.lean ====
/-
  General lemmas for arrays whose two leading axes are merged into one by a row-major shape cast, and for two
  vectors joined end to end.

  * `shapeCast_merge_ix2`, `shapeCast_merge_ix3`: an `[A, B, C]` (`[A, B, K, C]`) array cast to `[R, C]`
    (`[R, K, C]`) reads, at row `r = b · B + n`, the operand at `(b, n, …)`.
  * `concat1_left`, `concat1_right`: two vectors joined end to end, read in the first and in the second one's range.
-/
import Idealize.ShloMosaic.Lib.ValueIdx
import Idealize.ShloMosaic.Lib.Pipeline.Value

namespace Cert.Lib.MergeRows

open Idealize.ShloMosaic Idealize.ShloMosaic.ValueIdx

variable {α : Type}

/-- An `[A, B, C]` array cast to `[R, C]` reads, at `(r, a)` with `r = b · B + n`, the operand at `(b, n, a)`. -/
theorem shapeCast_merge_ix2 {A B C R : ℕ} (x : (⟨3, ![A, B, C]⟩ : Shape).Idx → α)
    (h : (⟨3, ![A, B, C]⟩ : Shape).ShapeCasts ⟨2, ![R, C]⟩) (b : Fin A) (n : Fin B) (a : Fin C) (r : Fin R)
    (hr : r.val = b.val * B + n.val) : shapeCast ⟨2, ![R, C]⟩ x h (ix2 r a) = x (ix3 b n a) :=
  shapeCast_apply x h _ _ (by
    rw [Shape.rowMajor_val_three, Shape.rowMajor_val_two]
    show (b.val * B + n.val) * C + a.val = r.val * C + a.val
    rw [hr])

/-- An `[A, B, K, C]` array cast to `[R, K, C]` reads, at `(r, k, a)` with `r = b · B + n`, the operand at
    `(b, n, k, a)`. -/
theorem shapeCast_merge_ix3 {A B K C R : ℕ} (x : (⟨4, ![A, B, K, C]⟩ : Shape).Idx → α)
    (h : (⟨4, ![A, B, K, C]⟩ : Shape).ShapeCasts ⟨3, ![R, K, C]⟩) (b : Fin A) (n : Fin B) (k : Fin K) (a : Fin C) (r : Fin R)
    (hr : r.val = b.val * B + n.val) : shapeCast ⟨3, ![R, K, C]⟩ x h (ix3 r k a) = x (ix4 b n k a) :=
  shapeCast_apply x h _ _ (by
    rw [Shape.rowMajor_val_four, Shape.rowMajor_val_three]
    show ((b.val * B + n.val) * K + k.val) * C + a.val = (r.val * K + k.val) * C + a.val
    rw [hr])

/-- Two vectors joined end to end, read in the first one's range. -/
theorem concat1_left {a b n : ℕ} (x₁ : (⟨1, ![a]⟩ : Shape).Idx → α) (x₂ : (⟨1, ![b]⟩ : Shape).Idx → α)
    (h : Shape.Concatenates [⟨1, ![a]⟩, ⟨1, ![b]⟩] ⟨1, ![n]⟩ 0) (k : Fin a) (k' : Fin n) (hk : k'.val = k.val) :
    concatenate ⟨1, ![n]⟩ 0 [⟨⟨1, ![a]⟩, x₁⟩, ⟨⟨1, ![b]⟩, x₂⟩] h (ix1 k') = x₁ (ix1 k) :=
  concatenate_apply_piece 0 [⟨⟨1, ![a]⟩, x₁⟩, ⟨⟨1, ![b]⟩, x₂⟩] h (ix1 k') 0 (Nat.zero_lt_succ _) _ x₁ rfl rfl 0 rfl (ix1 k)
    (fun b hb => by
      match b with
      | ⟨0, _⟩ => exact absurd rfl hb)
    (by show 0 + k.val = k'.val; omega)

/-- Two vectors joined end to end, read in the second one's range. -/
theorem concat1_right {a b n : ℕ} (x₁ : (⟨1, ![a]⟩ : Shape).Idx → α) (x₂ : (⟨1, ![b]⟩ : Shape).Idx → α)
    (h : Shape.Concatenates [⟨1, ![a]⟩, ⟨1, ![b]⟩] ⟨1, ![n]⟩ 0) (k : Fin b) (k' : Fin n) (hk : k'.val = a + k.val) :
    concatenate ⟨1, ![n]⟩ 0 [⟨⟨1, ![a]⟩, x₁⟩, ⟨⟨1, ![b]⟩, x₂⟩] h (ix1 k') = x₂ (ix1 k) :=
  concatenate_apply_piece 0 [⟨⟨1, ![a]⟩, x₁⟩, ⟨⟨1, ![b]⟩, x₂⟩] h (ix1 k') 1 (Nat.succ_lt_succ (Nat.zero_lt_succ _)) _ x₂ rfl rfl a (by simp) (ix1 k)
    (fun b hb => by
      match b with
      | ⟨0, _⟩ => exact absurd rfl hb)
    (by show a + k.val = k'.val; omega)

end Cert.Lib.MergeRows
-- ==== Proof.BlockReads.lean ====
/-
  What each input window's block holds at a grid point, read off the argument arrays.

  The grid has 128 points; at point `t` the four windows over the merged `[32768, …]` arrays hold rows
  `t · 256 … t · 256 + 255`, and row `t · 256 + q` of a merged array is the point `(b, n)` of the argument array with
  `b · 16384 + n = t · 256 + q`. The other windows hold a whole small array at every point: a weight matrix or a bias
  as it was passed, the key and value first layers in the two halves of the columns of one matrix (one row), and
  the three rows of the positional first-layer matrix one by one.
-/
import proofs.«140518_j51651276702286_2_alg».proof.Proof.BlockArrays
import proofs.«140518_j51651276702286_2_alg».proof.Proof.LibMergeRows
import Idealize.ShloMosaic.Lib.ValueLayout
import proofs.«140518_j51651276702286_2_alg».proof.Proof.LibAffineLayer
import Idealize.ShloMosaic.Lib.StableHlo.Run
import Idealize.ShloMosaic.Lib.Pipeline.Value
import Idealize.ShloMosaic.Lib.ValueIdx

noncomputable section

namespace Cert.KernelIdeal.Blocks

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## The index maps, decided over the grid -/

/-- Window 0's block index at point `t`: `t` along the rows, zero on the other axes. -/
theorem idx0 : ∀ t : Fin cfg0.N, win0_0.index t (0 : Fin 2) = t.val ∧ win0_0.index t (1 : Fin 2) = 0 :=
  (by decide +kernel : ∀ t : Fin grid0.N, _)

/-- Window 1's block index at point `t`: `t` along the rows, zero on the other axes. -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- Window 2's block index at point `t`: `t` along the rows, zero on the other axes. -/
theorem idx2 : ∀ t : Fin cfg0.N, win0_2.index t (0 : Fin 2) = t.val ∧ win0_2.index t (1 : Fin 2) = 0 :=
  (by decide +kernel : ∀ t : Fin grid0.N, _)

/-- Window 3's block index at point `t`: `t` along the rows, zero on the other axes. -/
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

/-- Window 4's block index at point `t`: zero on every axis. -/
theorem idx4 : ∀ t : Fin cfg0.N, win0_4.index t (0 : Fin 2) = 0 ∧ win0_4.index t (1 : Fin 2) = 0 :=
  (by decide +kernel : ∀ t : Fin grid0.N, _)

/-- Window 5's block index at point `t`: zero on every axis. -/
theorem idx5 : ∀ t : Fin cfg0.N, win0_5.index t (0 : Fin 2) = 0 ∧ win0_5.index t (1 : Fin 2) = 0 :=
  (by decide +kernel : ∀ t : Fin grid0.N, _)

/-- Window 6's block index at point `t`: zero on every axis. -/
theorem idx6 : ∀ t : Fin cfg0.N, win0_6.index t (0 : Fin 2) = 0 ∧ win0_6.index t (1 : Fin 2) = 0 :=
  (by decide +kernel : ∀ t : Fin grid0.N, _)

/-- Window 7's block index at point `t`: zero on every axis. -/
theorem idx7 : ∀ t : Fin cfg0.N, win0_7.index t (0 : Fin 2) = 0 ∧ win0_7.index t (1 : Fin 2) = 0 :=
  (by decide +kernel : ∀ t : Fin grid0.N, _)

/-- Window 8's block index at point `t`: zero on every axis. -/
theorem idx8 : ∀ t : Fin cfg0.N, win0_8.index t (0 : Fin 2) = 0 ∧ win0_8.index t (1 : Fin 2) = 0 :=
  (by decide +kernel : ∀ t : Fin grid0.N, _)

/-- Window 9's block index at point `t`: zero on every axis. -/
theorem idx9 : ∀ t : Fin cfg0.N, win0_9.index t (0 : Fin 2) = 0 ∧ win0_9.index t (1 : Fin 2) = 0 :=
  (by decide +kernel : ∀ t : Fin grid0.N, _)

/-- Window 12's block index at point `t`: zero on every axis. -/
theorem idx12 : ∀ t : Fin cfg0.N, win0_12.index t (0 : Fin 2) = 0 ∧ win0_12.index t (1 : Fin 2) = 0 :=
  (by decide +kernel : ∀ t : Fin grid0.N, _)

/-- Window 13's block index at point `t`: zero on every axis. -/
theorem idx13 : ∀ t : Fin cfg0.N, win0_13.index t (0 : Fin 2) = 0 ∧ win0_13.index t (1 : Fin 2) = 0 :=
  (by decide +kernel : ∀ t : Fin grid0.N, _)

/-- Window 14's block index at point `t`: zero on every axis. -/
theorem idx14 : ∀ t : Fin cfg0.N, win0_14.index t (0 : Fin 2) = 0 ∧ win0_14.index t (1 : Fin 2) = 0 :=
  (by decide +kernel : ∀ t : Fin grid0.N, _)

/-- Window 15's block index at point `t`: zero on every axis. -/
theorem idx15 : ∀ t : Fin cfg0.N, win0_15.index t (0 : Fin 2) = 0 ∧ win0_15.index t (1 : Fin 2) = 0 :=
  (by decide +kernel : ∀ t : Fin grid0.N, _)

/-! ## The four windows that move with the grid: 256 rows per point -/

/-- Window 0 at point `t`, row `q`: the features of the point `(b, n)` with `b · 16384 + n = t · 256 + q`. -/
theorem blk0 (c : Dev nD) (t : Fin cfg0.N) (q : Fin 256) (b : Fin 2) (n : Fin 16384)
    (hr : b.val * 16384 + n.val = t.val * 256 + q.val) (a : Fin 64) :
    iblk m c 0 t (ix2 q a) = m ((c : Thread nD τ).loc main_arg0) (ix3 b n a) := by
  have e : ((cfg0.win 0).blk t).view.emb (ix2 q a) = ix2 ⟨t.val * 256 + q.val, by have ht : t.val < 128 := t.isLt; have := q.isLt; show _ < 32768; omega⟩ a := by
    obtain ⟨e0, e1⟩ := idx0 t
    funext d; apply Fin.ext
    match d with
    | ⟨0, _⟩ => show win0_0.index t (0 : Fin 2) * 256 + 1 * q.val = t.val * 256 + q.val; omega
    | ⟨1, _⟩ => show win0_0.index t (1 : Fin 2) * 64 + 1 * a.val = a.val; omega
  unfold iblk
  show (V m c main_v0 : S32768x64.Idx → EReal) (((cfg0.win 0).blk t).view.emb (ix2 q a)) = _
  rw [e, V_main_v0]
  exact Cert.Lib.MergeRows.shapeCast_merge_ix2 _ _ b n a _ hr.symm

/-- Window 1 at point `t`, row `q`: the features of the neighbours of the point `(b, n)`. -/
theorem blk1 (c : Dev nD) (t : Fin cfg0.N) (q : Fin 256) (b : Fin 2) (n : Fin 16384)
    (hr : b.val * 16384 + n.val = t.val * 256 + q.val) (k : Fin 16) (a : Fin 64) :
    iblk m c 1 t (ix3 q k a) = m ((c : Thread nD τ).loc main_arg1) (ix4 b n k a) := by
  have e : ((cfg0.win 1).blk t).view.emb (ix3 q k a) = ix3 ⟨t.val * 256 + q.val, by have ht : t.val < 128 := t.isLt; have := q.isLt; show _ < 32768; omega⟩ k a := by
    obtain ⟨e0, e1, e2⟩ := idx1 t
    funext d; apply Fin.ext
    match d with
    | ⟨0, _⟩ => show win0_1.index t (0 : Fin 3) * 256 + 1 * q.val = t.val * 256 + q.val; omega
    | ⟨1, _⟩ => show win0_1.index t (1 : Fin 3) * 16 + 1 * k.val = k.val; omega
    | ⟨2, _⟩ => show win0_1.index t (2 : Fin 3) * 64 + 1 * a.val = a.val; omega
  unfold iblk
  show (V m c main_v1 : S32768x16x64.Idx → EReal) (((cfg0.win 1).blk t).view.emb (ix3 q k a)) = _
  rw [e, V_main_v1]
  exact Cert.Lib.MergeRows.shapeCast_merge_ix3 _ _ b n k a _ hr.symm

/-- Window 2 at point `t`, row `q`: the position of the point `(b, n)`. -/
theorem blk2 (c : Dev nD) (t : Fin cfg0.N) (q : Fin 256) (b : Fin 2) (n : Fin 16384)
    (hr : b.val * 16384 + n.val = t.val * 256 + q.val) (a : Fin 3) :
    iblk m c 2 t (ix2 q a) = m ((c : Thread nD τ).loc main_arg2) (ix3 b n a) := by
  have e : ((cfg0.win 2).blk t).view.emb (ix2 q a) = ix2 ⟨t.val * 256 + q.val, by have ht : t.val < 128 := t.isLt; have := q.isLt; show _ < 32768; omega⟩ a := by
    obtain ⟨e0, e1⟩ := idx2 t
    funext d; apply Fin.ext
    match d with
    | ⟨0, _⟩ => show win0_2.index t (0 : Fin 2) * 256 + 1 * q.val = t.val * 256 + q.val; omega
    | ⟨1, _⟩ => show win0_2.index t (1 : Fin 2) * 3 + 1 * a.val = a.val; omega
  unfold iblk
  show (V m c main_v2 : S32768x3.Idx → EReal) (((cfg0.win 2).blk t).view.emb (ix2 q a)) = _
  rw [e, V_main_v2]
  exact Cert.Lib.MergeRows.shapeCast_merge_ix2 _ _ b n a _ hr.symm

/-- Window 3 at point `t`, row `q`: the positions of the neighbours of the point `(b, n)`, coordinate axis before
    neighbour axis. -/
theorem blk3 (c : Dev nD) (t : Fin cfg0.N) (q : Fin 256) (b : Fin 2) (n : Fin 16384)
    (hr : b.val * 16384 + n.val = t.val * 256 + q.val) (a : Fin 3) (k : Fin 16) :
    iblk m c 3 t (ix3 q a k) = m ((c : Thread nD τ).loc main_arg3) (ix4 b n k a) := by
  have e : ((cfg0.win 3).blk t).view.emb (ix3 q a k) = ix3 ⟨t.val * 256 + q.val, by have ht : t.val < 128 := t.isLt; have := q.isLt; show _ < 32768; omega⟩ a k := by
    obtain ⟨e0, e1, e2⟩ := idx3 t
    funext d; apply Fin.ext
    match d with
    | ⟨0, _⟩ => show win0_3.index t (0 : Fin 3) * 256 + 1 * q.val = t.val * 256 + q.val; omega
    | ⟨1, _⟩ => show win0_3.index t (1 : Fin 3) * 3 + 1 * a.val = a.val; omega
    | ⟨2, _⟩ => show win0_3.index t (2 : Fin 3) * 16 + 1 * k.val = k.val; omega
  unfold iblk
  show (V m c main_v4 : S32768x3x16.Idx → EReal) (((cfg0.win 3).blk t).view.emb (ix3 q a k)) = _
  rw [e, V_main_v4]
  refine (transpose_ix3_021_apply _ _ _ a k).trans ?_
  exact Cert.Lib.MergeRows.shapeCast_merge_ix3 _ _ b n k a _ hr.symm

/-! ## The windows that hold a whole small array at every point -/

/-- Window 4 at every point: the query first-layer matrix. -/
theorem blk4 (c : Dev nD) (t : Fin cfg0.N) (a h : Fin 64) :
    iblk m c 4 t (ix2 a h) = m ((c : Thread nD τ).loc main_arg4) (ix2 a h) := by
  have e : ((cfg0.win 4).blk t).view.emb (ix2 a h) = ix2 a h := by
    obtain ⟨e0, e1⟩ := idx4 t
    funext d; apply Fin.ext
    match d with
    | ⟨0, _⟩ => show win0_4.index t (0 : Fin 2) * 64 + 1 * a.val = a.val; omega
    | ⟨1, _⟩ => show win0_4.index t (1 : Fin 2) * 64 + 1 * h.val = h.val; omega
  unfold iblk
  show (V m c main_arg4 : S64x64.Idx → EReal) (((cfg0.win 4).blk t).view.emb (ix2 a h)) = _
  rw [e, V_main_arg4]

/-- Window 5 at every point: the query first-layer bias. -/
theorem blk5 (c : Dev nD) (t : Fin cfg0.N) (h : Fin 64) :
    iblk m c 5 t (ix2 (0 : Fin 1) h) = m ((c : Thread nD τ).loc main_arg5) (ix1 h) := by
  have e : ((cfg0.win 5).blk t).view.emb (ix2 (0 : Fin 1) h) = ix2 (0 : Fin 1) h := by
    obtain ⟨e0, e1⟩ := idx5 t
    funext d; apply Fin.ext
    match d with
    | ⟨0, _⟩ => show win0_5.index t (0 : Fin 2) * 1 + 1 * 0 = 0; omega
    | ⟨1, _⟩ => show win0_5.index t (1 : Fin 2) * 64 + 1 * h.val = h.val; omega
  unfold iblk
  show (V m c main_v19 : S1x64.Idx → EReal) (((cfg0.win 5).blk t).view.emb (ix2 (0 : Fin 1) h)) = _
  rw [e, V_main_v19]
  exact shapeCast_a_1a_apply _ _ 0 h

/-- Window 6 at every point: the query second-layer matrix. -/
theorem blk6 (c : Dev nD) (t : Fin cfg0.N) (a h : Fin 64) :
    iblk m c 6 t (ix2 a h) = m ((c : Thread nD τ).loc main_arg6) (ix2 a h) := by
  have e : ((cfg0.win 6).blk t).view.emb (ix2 a h) = ix2 a h := by
    obtain ⟨e0, e1⟩ := idx6 t
    funext d; apply Fin.ext
    match d with
    | ⟨0, _⟩ => show win0_6.index t (0 : Fin 2) * 64 + 1 * a.val = a.val; omega
    | ⟨1, _⟩ => show win0_6.index t (1 : Fin 2) * 64 + 1 * h.val = h.val; omega
  unfold iblk
  show (V m c main_arg6 : S64x64.Idx → EReal) (((cfg0.win 6).blk t).view.emb (ix2 a h)) = _
  rw [e, V_main_arg6]

/-- Window 7 at every point: the query second-layer bias. -/
theorem blk7 (c : Dev nD) (t : Fin cfg0.N) (h : Fin 64) :
    iblk m c 7 t (ix2 (0 : Fin 1) h) = m ((c : Thread nD τ).loc main_arg7) (ix1 h) := by
  have e : ((cfg0.win 7).blk t).view.emb (ix2 (0 : Fin 1) h) = ix2 (0 : Fin 1) h := by
    obtain ⟨e0, e1⟩ := idx7 t
    funext d; apply Fin.ext
    match d with
    | ⟨0, _⟩ => show win0_7.index t (0 : Fin 2) * 1 + 1 * 0 = 0; omega
    | ⟨1, _⟩ => show win0_7.index t (1 : Fin 2) * 64 + 1 * h.val = h.val; omega
  unfold iblk
  show (V m c main_v20 : S1x64.Idx → EReal) (((cfg0.win 7).blk t).view.emb (ix2 (0 : Fin 1) h)) = _
  rw [e, V_main_v20]
  exact shapeCast_a_1a_apply _ _ 0 h

/-- Window 8 at every point, columns `0 … 63`: the key first-layer matrix. -/
theorem blk8k (c : Dev nD) (t : Fin cfg0.N) (i j : Fin 64) :
    iblk m c 8 t (ix2 i (⟨j.val, by omega⟩ : Fin 128)) = m ((c : Thread nD τ).loc main_arg8) (ix2 i j) := by
  have e : ((cfg0.win 8).blk t).view.emb (ix2 i (⟨j.val, by omega⟩ : Fin 128)) = ix2 i (⟨j.val, by omega⟩ : Fin 128) := by
    obtain ⟨e0, e1⟩ := idx8 t
    funext d; apply Fin.ext
    match d with
    | ⟨0, _⟩ => show win0_8.index t (0 : Fin 2) * 64 + 1 * i.val = i.val; omega
    | ⟨1, _⟩ => show win0_8.index t (1 : Fin 2) * 128 + 1 * j.val = j.val; omega
  unfold iblk
  show (V m c main_v5 : S64x128.Idx → EReal) (((cfg0.win 8).blk t).view.emb (ix2 i (⟨j.val, by omega⟩ : Fin 128))) = _
  rw [e, V_main_v5]
  exact Cert.Lib.AffineLayer.concat2_left _ _ _ i j _ rfl

/-- Window 8 at every point, columns `64 … 127`: the value first-layer matrix. -/
theorem blk8v (c : Dev nD) (t : Fin cfg0.N) (i j : Fin 64) :
    iblk m c 8 t (ix2 i (⟨64 + j.val, by omega⟩ : Fin 128)) = m ((c : Thread nD τ).loc main_arg12) (ix2 i j) := by
  have e : ((cfg0.win 8).blk t).view.emb (ix2 i (⟨64 + j.val, by omega⟩ : Fin 128)) = ix2 i (⟨64 + j.val, by omega⟩ : Fin 128) := by
    obtain ⟨e0, e1⟩ := idx8 t
    funext d; apply Fin.ext
    match d with
    | ⟨0, _⟩ => show win0_8.index t (0 : Fin 2) * 64 + 1 * i.val = i.val; omega
    | ⟨1, _⟩ => show win0_8.index t (1 : Fin 2) * 128 + 1 * (64 + j.val) = (64 + j.val); omega
  unfold iblk
  show (V m c main_v5 : S64x128.Idx → EReal) (((cfg0.win 8).blk t).view.emb (ix2 i (⟨64 + j.val, by omega⟩ : Fin 128))) = _
  rw [e, V_main_v5]
  exact Cert.Lib.AffineLayer.concat2_right _ _ _ i j _ rfl

/-- Window 9 at every point, columns `0 … 63`: the key first-layer bias. -/
theorem blk9k (c : Dev nD) (t : Fin cfg0.N) (j : Fin 64) :
    iblk m c 9 t (ix2 (0 : Fin 1) (⟨j.val, by omega⟩ : Fin 128)) = m ((c : Thread nD τ).loc main_arg9) (ix1 j) := by
  have e : ((cfg0.win 9).blk t).view.emb (ix2 (0 : Fin 1) (⟨j.val, by omega⟩ : Fin 128)) = ix2 (0 : Fin 1) (⟨j.val, by omega⟩ : Fin 128) := by
    obtain ⟨e0, e1⟩ := idx9 t
    funext d; apply Fin.ext
    match d with
    | ⟨0, _⟩ => show win0_9.index t (0 : Fin 2) * 1 + 1 * 0 = 0; omega
    | ⟨1, _⟩ => show win0_9.index t (1 : Fin 2) * 128 + 1 * j.val = j.val; omega
  unfold iblk
  show (V m c main_v7 : S1x128.Idx → EReal) (((cfg0.win 9).blk t).view.emb (ix2 (0 : Fin 1) (⟨j.val, by omega⟩ : Fin 128))) = _
  rw [e, V_main_v7]
  refine (shapeCast_a_1a_apply _ _ 0 _).trans ?_
  exact Cert.Lib.MergeRows.concat1_left _ _ _ j _ rfl

/-- Window 9 at every point, columns `64 … 127`: the value first-layer bias. -/
theorem blk9v (c : Dev nD) (t : Fin cfg0.N) (j : Fin 64) :
    iblk m c 9 t (ix2 (0 : Fin 1) (⟨64 + j.val, by omega⟩ : Fin 128)) = m ((c : Thread nD τ).loc main_arg13) (ix1 j) := by
  have e : ((cfg0.win 9).blk t).view.emb (ix2 (0 : Fin 1) (⟨64 + j.val, by omega⟩ : Fin 128)) = ix2 (0 : Fin 1) (⟨64 + j.val, by omega⟩ : Fin 128) := by
    obtain ⟨e0, e1⟩ := idx9 t
    funext d; apply Fin.ext
    match d with
    | ⟨0, _⟩ => show win0_9.index t (0 : Fin 2) * 1 + 1 * 0 = 0; omega
    | ⟨1, _⟩ => show win0_9.index t (1 : Fin 2) * 128 + 1 * (64 + j.val) = (64 + j.val); omega
  unfold iblk
  show (V m c main_v7 : S1x128.Idx → EReal) (((cfg0.win 9).blk t).view.emb (ix2 (0 : Fin 1) (⟨64 + j.val, by omega⟩ : Fin 128))) = _
  rw [e, V_main_v7]
  refine (shapeCast_a_1a_apply _ _ 0 _).trans ?_
  exact Cert.Lib.MergeRows.concat1_right _ _ _ j _ rfl

/-- Window 12 at every point: row 0 of the positional first-layer matrix. -/
theorem blk12 (c : Dev nD) (t : Fin cfg0.N) (h : Fin 64) :
    iblk m c 12 t (ix2 (0 : Fin 1) h) = m ((c : Thread nD τ).loc main_arg16) (ix2 (0 : Fin 3) h) := by
  have e : ((cfg0.win 12).blk t).view.emb (ix2 (0 : Fin 1) h) = ix2 (0 : Fin 1) h := by
    obtain ⟨e0, e1⟩ := idx12 t
    funext d; apply Fin.ext
    match d with
    | ⟨0, _⟩ => show win0_12.index t (0 : Fin 2) * 1 + 1 * 0 = 0; omega
    | ⟨1, _⟩ => show win0_12.index t (1 : Fin 2) * 64 + 1 * h.val = h.val; omega
  unfold iblk
  show (V m c main_v15 : S1x64.Idx → EReal) (((cfg0.win 12).blk t).view.emb (ix2 (0 : Fin 1) h)) = _
  rw [e, V_main_v15]
  exact slice2_axis0_apply 0 _ _ 0 h 0 rfl

/-- Window 13 at every point: row 1 of the positional first-layer matrix. -/
theorem blk13 (c : Dev nD) (t : Fin cfg0.N) (h : Fin 64) :
    iblk m c 13 t (ix2 (0 : Fin 1) h) = m ((c : Thread nD τ).loc main_arg16) (ix2 (1 : Fin 3) h) := by
  have e : ((cfg0.win 13).blk t).view.emb (ix2 (0 : Fin 1) h) = ix2 (0 : Fin 1) h := by
    obtain ⟨e0, e1⟩ := idx13 t
    funext d; apply Fin.ext
    match d with
    | ⟨0, _⟩ => show win0_13.index t (0 : Fin 2) * 1 + 1 * 0 = 0; omega
    | ⟨1, _⟩ => show win0_13.index t (1 : Fin 2) * 64 + 1 * h.val = h.val; omega
  unfold iblk
  show (V m c main_v16 : S1x64.Idx → EReal) (((cfg0.win 13).blk t).view.emb (ix2 (0 : Fin 1) h)) = _
  rw [e, V_main_v16]
  exact slice2_axis0_apply 1 _ _ 0 h 1 rfl

/-- Window 14 at every point: row 2 of the positional first-layer matrix. -/
theorem blk14 (c : Dev nD) (t : Fin cfg0.N) (h : Fin 64) :
    iblk m c 14 t (ix2 (0 : Fin 1) h) = m ((c : Thread nD τ).loc main_arg16) (ix2 (2 : Fin 3) h) := by
  have e : ((cfg0.win 14).blk t).view.emb (ix2 (0 : Fin 1) h) = ix2 (0 : Fin 1) h := by
    obtain ⟨e0, e1⟩ := idx14 t
    funext d; apply Fin.ext
    match d with
    | ⟨0, _⟩ => show win0_14.index t (0 : Fin 2) * 1 + 1 * 0 = 0; omega
    | ⟨1, _⟩ => show win0_14.index t (1 : Fin 2) * 64 + 1 * h.val = h.val; omega
  unfold iblk
  show (V m c main_v17 : S1x64.Idx → EReal) (((cfg0.win 14).blk t).view.emb (ix2 (0 : Fin 1) h)) = _
  rw [e, V_main_v17]
  exact slice2_axis0_apply 2 _ _ 0 h 2 rfl

/-- Window 15 at every point: the positional first-layer bias. -/
theorem blk15 (c : Dev nD) (t : Fin cfg0.N) (h : Fin 64) :
    iblk m c 15 t (ix2 (0 : Fin 1) h) = m ((c : Thread nD τ).loc main_arg17) (ix1 h) := by
  have e : ((cfg0.win 15).blk t).view.emb (ix2 (0 : Fin 1) h) = ix2 (0 : Fin 1) h := by
    obtain ⟨e0, e1⟩ := idx15 t
    funext d; apply Fin.ext
    match d with
    | ⟨0, _⟩ => show win0_15.index t (0 : Fin 2) * 1 + 1 * 0 = 0; omega
    | ⟨1, _⟩ => show win0_15.index t (1 : Fin 2) * 64 + 1 * h.val = h.val; omega
  unfold iblk
  show (V m c main_v18 : S1x64.Idx → EReal) (((cfg0.win 15).blk t).view.emb (ix2 (0 : Fin 1) h)) = _
  rw [e, V_main_v18]
  exact shapeCast_a_1a_apply _ _ 0 h

end Cert.KernelIdeal.Blocks

end
-- ==== Proof.LibNary3.lean ====
/-
  A host operation with three operands (a three-piece concatenation): what its result buffer holds is the operation's
  function of the three operands' contents, each read at its own buffer — so that, when the operands are themselves
  results of earlier operations of the same list, their contents can be computed in turn. With it, what any one
  buffer holds after a list of host operations is a computation: at an operation's result buffer, its function of
  what its operands held; at any other buffer, what was there before.
-/
import Idealize.ShloMosaic.Lib.StableHlo.Run

namespace Cert.Lib.Nary3

open Idealize.ShloMosaic Idealize.ShloMosaic.StableHlo

variable {τ : Topo} {sig : RefSig} {Val : EltTy → Type}
variable {x a b y : Ref sig .tc}

/-- The result of a three-operand operation, each operand's contents read at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- What a buffer holds after a literal list of host operations with up to three operands each: every operation's
    result at its own result buffer is its function of the operands' contents, and every other buffer keeps what it
    held (two distinct literal buffers are told apart by evaluation). -/
macro "after_results3" : tactic =>
  `(tactic| (simp only [after_cons, after_nil]
             repeat (first
               | rw [nullary_result] | rw [unary_result] | rw [binary_result] | rw [reshape_result] | rw [nary3_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

end Cert.Lib.Nary3
-- ==== Proof.LibConcatRows.lean ====
/-
  Three arrays joined along the FIRST axis, read at an index: three matrices `[a, C]`, `[b, C]`, `[c, C]` stacked by
  rows into `[n, C]` read at row `p'` in the first, second or third range of rows; and three vectors `[a]`, `[b]`, `[c]`
  joined into `[n]` read in each range. (The column-wise counterparts for matrices are in the affine-layer lemmas.)
-/
import Idealize.ShloMosaic.Lib.ValueIdx
import Idealize.ShloMosaic.Lib.Pipeline.Value

noncomputable section

namespace Cert.Lib.ConcatRows

open Idealize.ShloMosaic Idealize.ShloMosaic.ValueIdx

variable {α : Type}

/-- Three matrices stacked by rows, read in the first one's rows. -/
theorem rows3_fst {C a b c n : ℕ} (x₁ : (⟨2, ![a, C]⟩ : Shape).Idx → α) (x₂ : (⟨2, ![b, C]⟩ : Shape).Idx → α)
    (x₃ : (⟨2, ![c, C]⟩ : Shape).Idx → α)
    (h : Shape.Concatenates [⟨2, ![a, C]⟩, ⟨2, ![b, C]⟩, ⟨2, ![c, C]⟩] ⟨2, ![n, C]⟩ 0) (p : Fin a) (q : Fin C) (p' : Fin n)
    (hp : p'.val = p.val) :
    concatenate ⟨2, ![n, C]⟩ 0 [⟨⟨2, ![a, C]⟩, x₁⟩, ⟨⟨2, ![b, C]⟩, x₂⟩, ⟨⟨2, ![c, C]⟩, x₃⟩] h (ix2 p' q) = x₁ (ix2 p q) :=
  concatenate_apply_piece 0 [⟨⟨2, ![a, C]⟩, x₁⟩, ⟨⟨2, ![b, C]⟩, x₂⟩, ⟨⟨2, ![c, C]⟩, x₃⟩] h (ix2 p' q) 0 (Nat.zero_lt_succ _) _ x₁ rfl rfl 0 rfl (ix2 p q)
    (fun d hd => by
      match d with
      | ⟨0, _⟩ => exact absurd rfl hd
      | ⟨1, _⟩ => rfl)
    (by show 0 + p.val = p'.val; omega)

/-- Three matrices stacked by rows, read in the second one's rows. -/
theorem rows3_snd {C a b c n : ℕ} (x₁ : (⟨2, ![a, C]⟩ : Shape).Idx → α) (x₂ : (⟨2, ![b, C]⟩ : Shape).Idx → α)
    (x₃ : (⟨2, ![c, C]⟩ : Shape).Idx → α)
    (h : Shape.Concatenates [⟨2, ![a, C]⟩, ⟨2, ![b, C]⟩, ⟨2, ![c, C]⟩] ⟨2, ![n, C]⟩ 0) (p : Fin b) (q : Fin C) (p' : Fin n)
    (hp : p'.val = a + p.val) :
    concatenate ⟨2, ![n, C]⟩ 0 [⟨⟨2, ![a, C]⟩, x₁⟩, ⟨⟨2, ![b, C]⟩, x₂⟩, ⟨⟨2, ![c, C]⟩, x₃⟩] h (ix2 p' q) = x₂ (ix2 p q) :=
  concatenate_apply_piece 0 [⟨⟨2, ![a, C]⟩, x₁⟩, ⟨⟨2, ![b, C]⟩, x₂⟩, ⟨⟨2, ![c, C]⟩, x₃⟩] h (ix2 p' q) 1 (Nat.succ_lt_succ (Nat.zero_lt_succ _)) _ x₂ rfl rfl a (by simp) (ix2 p q)
    (fun d hd => by
      match d with
      | ⟨0, _⟩ => exact absurd rfl hd
      | ⟨1, _⟩ => rfl)
    (by show a + p.val = p'.val; omega)

/-- Three matrices stacked by rows, read in the third one's rows. -/
theorem rows3_thd {C a b c n : ℕ} (x₁ : (⟨2, ![a, C]⟩ : Shape).Idx → α) (x₂ : (⟨2, ![b, C]⟩ : Shape).Idx → α)
    (x₃ : (⟨2, ![c, C]⟩ : Shape).Idx → α)
    (h : Shape.Concatenates [⟨2, ![a, C]⟩, ⟨2, ![b, C]⟩, ⟨2, ![c, C]⟩] ⟨2, ![n, C]⟩ 0) (p : Fin c) (q : Fin C) (p' : Fin n)
    (hp : p'.val = a + b + p.val) :
    concatenate ⟨2, ![n, C]⟩ 0 [⟨⟨2, ![a, C]⟩, x₁⟩, ⟨⟨2, ![b, C]⟩, x₂⟩, ⟨⟨2, ![c, C]⟩, x₃⟩] h (ix2 p' q) = x₃ (ix2 p q) :=
  concatenate_apply_piece 0 [⟨⟨2, ![a, C]⟩, x₁⟩, ⟨⟨2, ![b, C]⟩, x₂⟩, ⟨⟨2, ![c, C]⟩, x₃⟩] h (ix2 p' q) 2 (Nat.succ_lt_succ (Nat.succ_lt_succ (Nat.zero_lt_succ _))) _ x₃ rfl rfl (a + b) (by simp) (ix2 p q)
    (fun d hd => by
      match d with
      | ⟨0, _⟩ => exact absurd rfl hd
      | ⟨1, _⟩ => rfl)
    (by show a + b + p.val = p'.val; omega)

/-- Three vectors joined, read in the first one's range. -/
theorem vec3_fst {a b c n : ℕ} (x₁ : (⟨1, ![a]⟩ : Shape).Idx → α) (x₂ : (⟨1, ![b]⟩ : Shape).Idx → α)
    (x₃ : (⟨1, ![c]⟩ : Shape).Idx → α)
    (h : Shape.Concatenates [⟨1, ![a]⟩, ⟨1, ![b]⟩, ⟨1, ![c]⟩] ⟨1, ![n]⟩ 0) (p : Fin a) (p' : Fin n) (hp : p'.val = p.val) :
    concatenate ⟨1, ![n]⟩ 0 [⟨⟨1, ![a]⟩, x₁⟩, ⟨⟨1, ![b]⟩, x₂⟩, ⟨⟨1, ![c]⟩, x₃⟩] h (ix1 p') = x₁ (ix1 p) :=
  concatenate_apply_piece 0 [⟨⟨1, ![a]⟩, x₁⟩, ⟨⟨1, ![b]⟩, x₂⟩, ⟨⟨1, ![c]⟩, x₃⟩] h (ix1 p') 0 (Nat.zero_lt_succ _) _ x₁ rfl rfl 0 rfl (ix1 p)
    (fun d hd => by
      match d with
      | ⟨0, _⟩ => exact absurd rfl hd)
    (by show 0 + p.val = p'.val; omega)

/-- Three vectors joined, read in the second one's range. -/
theorem vec3_snd {a b c n : ℕ} (x₁ : (⟨1, ![a]⟩ : Shape).Idx → α) (x₂ : (⟨1, ![b]⟩ : Shape).Idx → α)
    (x₃ : (⟨1, ![c]⟩ : Shape).Idx → α)
    (h : Shape.Concatenates [⟨1, ![a]⟩, ⟨1, ![b]⟩, ⟨1, ![c]⟩] ⟨1, ![n]⟩ 0) (p : Fin b) (p' : Fin n) (hp : p'.val = a + p.val) :
    concatenate ⟨1, ![n]⟩ 0 [⟨⟨1, ![a]⟩, x₁⟩, ⟨⟨1, ![b]⟩, x₂⟩, ⟨⟨1, ![c]⟩, x₃⟩] h (ix1 p') = x₂ (ix1 p) :=
  concatenate_apply_piece 0 [⟨⟨1, ![a]⟩, x₁⟩, ⟨⟨1, ![b]⟩, x₂⟩, ⟨⟨1, ![c]⟩, x₃⟩] h (ix1 p') 1 (Nat.succ_lt_succ (Nat.zero_lt_succ _)) _ x₂ rfl rfl a (by simp) (ix1 p)
    (fun d hd => by
      match d with
      | ⟨0, _⟩ => exact absurd rfl hd)
    (by show a + p.val = p'.val; omega)

/-- Three vectors joined, read in the third one's range. -/
theorem vec3_thd {a b c n : ℕ} (x₁ : (⟨1, ![a]⟩ : Shape).Idx → α) (x₂ : (⟨1, ![b]⟩ : Shape).Idx → α)
    (x₃ : (⟨1, ![c]⟩ : Shape).Idx → α)
    (h : Shape.Concatenates [⟨1, ![a]⟩, ⟨1, ![b]⟩, ⟨1, ![c]⟩] ⟨1, ![n]⟩ 0) (p : Fin c) (p' : Fin n) (hp : p'.val = a + b + p.val) :
    concatenate ⟨1, ![n]⟩ 0 [⟨⟨1, ![a]⟩, x₁⟩, ⟨⟨1, ![b]⟩, x₂⟩, ⟨⟨1, ![c]⟩, x₃⟩] h (ix1 p') = x₃ (ix1 p) :=
  concatenate_apply_piece 0 [⟨⟨1, ![a]⟩, x₁⟩, ⟨⟨1, ![b]⟩, x₂⟩, ⟨⟨1, ![c]⟩, x₃⟩] h (ix1 p') 2 (Nat.succ_lt_succ (Nat.succ_lt_succ (Nat.zero_lt_succ _))) _ x₃ rfl rfl (a + b) (by simp) (ix1 p)
    (fun d hd => by
      match d with
      | ⟨0, _⟩ => exact absurd rfl hd)
    (by show a + b + p.val = p'.val; omega)

end Cert.Lib.ConcatRows

end
-- ==== Proof.BlockReadsFused.lean ====
/-
  The two windows whose arrays the program assembles from three pieces: the fused second-layer matrix `[192, 192]`
  (three rows of three `[64, 64]` blocks: the key, value and positional second layers on the diagonal, a zero block
  everywhere else) and the fused bias `[1, 192]` (the three biases side by side). Both windows hold their whole array
  at every grid point, so a block entry is the array's entry, and that is read off the pieces.
-/
import proofs.«140518_j51651276702286_2_alg».proof.Proof.FrameIdeal
import proofs.«140518_j51651276702286_2_alg».proof.Proof.LibNary3
import proofs.«140518_j51651276702286_2_alg».proof.Proof.LibConcatRows
import proofs.«140518_j51651276702286_2_alg».proof.Proof.LibAffineLayer
import Idealize.ShloMosaic.Lib.IdealHost
import Idealize.ShloMosaic.Lib.StableHlo.Run
import Idealize.ShloMosaic.PureOps.Ideal.Laws

-- indices into arrays of 192 × 192 entries are compared coordinate by coordinate
set_option maxRecDepth 16384

noncomputable section

namespace Cert.KernelIdeal.Blocks

open Cert.KernelIdeal Cert.KernelIdeal.Gen Cert.KernelIdeal.Hand
open Idealize.ShloMosaic Idealize.ShloMosaic.TcCoe Idealize.ShloMosaic.ValueIdx Idealize.ShloMosaic.StableHlo
open Idealize.SL Idealize.SL.Sem
open Cert.Lib.AffineLayer Cert.Lib.ConcatRows Cert.Lib.Nary3

variable (m : (ℓ : Loc nD τ sig) → Buf (Elt Ideal) ℓ)

/-- The zero block: the zero scalar broadcast to `[64, 64]`. -/
abbrev Z : S64x64.Idx → EReal :=
  broadcastInDim S64x64 ![] bcast_S_S64x64 (constant (F := Ideal) S_ .f32 0x00000000#32)

theorem Z_apply (i : S64x64.Idx) : Z i = 0 := by
  unfold Z
  rw [broadcastInDim_scalar_apply, constant_apply, Ideal.ofBits_zero_f32]

/-- The fused matrix from its three diagonal blocks. -/
def W2f (A B C : S64x64.Idx → EReal) : S192x192.Idx → EReal :=
  concatenate S192x192 0
    [⟨S64x192, concatenate S64x192 1 [⟨S64x64, A⟩, ⟨S64x64, Z⟩, ⟨S64x64, Z⟩] concatenates_S64x64_S64x64_S64x64_S64x192_d1⟩,
     ⟨S64x192, concatenate S64x192 1 [⟨S64x64, Z⟩, ⟨S64x64, B⟩, ⟨S64x64, Z⟩] concatenates_S64x64_S64x64_S64x64_S64x192_d1⟩,
     ⟨S64x192, concatenate S64x192 1 [⟨S64x64, Z⟩, ⟨S64x64, Z⟩, ⟨S64x64, C⟩] concatenates_S64x64_S64x64_S64x64_S64x192_d1⟩]
    concatenates_S64x192_S64x192_S64x192_S192x192_d0

/-- The fused bias from its three pieces. -/
def b2f (A B C : S64.Idx → EReal) : S1x192.Idx → EReal :=
  shapeCast S1x192 (concatenate S192 0 [⟨S64, A⟩, ⟨S64, B⟩, ⟨S64, C⟩] concatenates_S64_S64_S64_S192_d0) shapeCasts_S192_S1x192

section Entries
variable (A B C : S64x64.Idx → EReal) (a c : Fin 64)

theorem W2f_kk : W2f A B C (ix2 ⟨a.val, by omega⟩ ⟨c.val, by omega⟩) = A (ix2 a c) := by
  unfold W2f
  refine (rows3_fst _ _ _ concatenates_S64x192_S64x192_S64x192_S192x192_d0 a ⟨c.val, by omega⟩ ⟨a.val, by omega⟩ rfl).trans ?_
  exact concat3_fst _ _ _ concatenates_S64x64_S64x64_S64x64_S64x192_d1 a c ⟨c.val, by omega⟩ rfl
theorem W2f_kv : W2f A B C (ix2 ⟨64 + a.val, by omega⟩ ⟨c.val, by omega⟩) = 0 := by
  unfold W2f
  refine (rows3_snd _ _ _ concatenates_S64x192_S64x192_S64x192_S192x192_d0 a ⟨c.val, by omega⟩ ⟨64 + a.val, by omega⟩ rfl).trans ?_
  refine (concat3_fst _ _ _ concatenates_S64x64_S64x64_S64x64_S64x192_d1 a c ⟨c.val, by omega⟩ rfl).trans ?_
  exact Z_apply _
theorem W2f_kp : W2f A B C (ix2 ⟨128 + a.val, by omega⟩ ⟨c.val, by omega⟩) = 0 := by
  unfold W2f
  refine (rows3_thd _ _ _ concatenates_S64x192_S64x192_S64x192_S192x192_d0 a ⟨c.val, by omega⟩ ⟨128 + a.val, by omega⟩ rfl).trans ?_
  refine (concat3_fst _ _ _ concatenates_S64x64_S64x64_S64x64_S64x192_d1 a c ⟨c.val, by omega⟩ rfl).trans ?_
  exact Z_apply _
theorem W2f_vk : W2f A B C (ix2 ⟨a.val, by omega⟩ ⟨64 + c.val, by omega⟩) = 0 := by
  unfold W2f
  refine (rows3_fst _ _ _ concatenates_S64x192_S64x192_S64x192_S192x192_d0 a ⟨64 + c.val, by omega⟩ ⟨a.val, by omega⟩ rfl).trans ?_
  refine (concat3_snd _ _ _ concatenates_S64x64_S64x64_S64x64_S64x192_d1 a c ⟨64 + c.val, by omega⟩ rfl).trans ?_
  exact Z_apply _
theorem W2f_vv : W2f A B C (ix2 ⟨64 + a.val, by omega⟩ ⟨64 + c.val, by omega⟩) = B (ix2 a c) := by
  unfold W2f
  refine (rows3_snd _ _ _ concatenates_S64x192_S64x192_S64x192_S192x192_d0 a ⟨64 + c.val, by omega⟩ ⟨64 + a.val, by omega⟩ rfl).trans ?_
  exact concat3_snd _ _ _ concatenates_S64x64_S64x64_S64x64_S64x192_d1 a c ⟨64 + c.val, by omega⟩ rfl
theorem W2f_vp : W2f A B C (ix2 ⟨128 + a.val, by omega⟩ ⟨64 + c.val, by omega⟩) = 0 := by
  unfold W2f
  refine (rows3_thd _ _ _ concatenates_S64x192_S64x192_S64x192_S192x192_d0 a ⟨64 + c.val, by omega⟩ ⟨128 + a.val, by omega⟩ rfl).trans ?_
  refine (concat3_snd _ _ _ concatenates_S64x64_S64x64_S64x64_S64x192_d1 a c ⟨64 + c.val, by omega⟩ rfl).trans ?_
  exact Z_apply _
theorem W2f_pk : W2f A B C (ix2 ⟨a.val, by omega⟩ ⟨128 + c.val, by omega⟩) = 0 := by
  unfold W2f
  refine (rows3_fst _ _ _ concatenates_S64x192_S64x192_S64x192_S192x192_d0 a ⟨128 + c.val, by omega⟩ ⟨a.val, by omega⟩ rfl).trans ?_
  refine (concat3_thd _ _ _ concatenates_S64x64_S64x64_S64x64_S64x192_d1 a c ⟨128 + c.val, by omega⟩ rfl).trans ?_
  exact Z_apply _
theorem W2f_pv : W2f A B C (ix2 ⟨64 + a.val, by omega⟩ ⟨128 + c.val, by omega⟩) = 0 := by
  unfold W2f
  refine (rows3_snd _ _ _ concatenates_S64x192_S64x192_S64x192_S192x192_d0 a ⟨128 + c.val, by omega⟩ ⟨64 + a.val, by omega⟩ rfl).trans ?_
  refine (concat3_thd _ _ _ concatenates_S64x64_S64x64_S64x64_S64x192_d1 a c ⟨128 + c.val, by omega⟩ rfl).trans ?_
  exact Z_apply _
theorem W2f_pp : W2f A B C (ix2 ⟨128 + a.val, by omega⟩ ⟨128 + c.val, by omega⟩) = C (ix2 a c) := by
  unfold W2f
  refine (rows3_thd _ _ _ concatenates_S64x192_S64x192_S64x192_S192x192_d0 a ⟨128 + c.val, by omega⟩ ⟨128 + a.val, by omega⟩ rfl).trans ?_
  exact concat3_thd _ _ _ concatenates_S64x64_S64x64_S64x64_S64x192_d1 a c ⟨128 + c.val, by omega⟩ rfl

end Entries

section BiasEntries
variable (A B C : S64.Idx → EReal) (c : Fin 64)

theorem b2f_k : b2f A B C (ix2 0 ⟨c.val, by omega⟩) = A (ix1 c) := by
  unfold b2f
  refine (shapeCast_a_1a_apply _ shapeCasts_S192_S1x192 0 ⟨c.val, by omega⟩).trans ?_
  exact vec3_fst _ _ _ concatenates_S64_S64_S64_S192_d0 c ⟨c.val, by omega⟩ rfl
theorem b2f_v : b2f A B C (ix2 0 ⟨64 + c.val, by omega⟩) = B (ix1 c) := by
  unfold b2f
  refine (shapeCast_a_1a_apply _ shapeCasts_S192_S1x192 0 ⟨64 + c.val, by omega⟩).trans ?_
  exact vec3_snd _ _ _ concatenates_S64_S64_S64_S192_d0 c ⟨64 + c.val, by omega⟩ rfl
theorem b2f_p : b2f A B C (ix2 0 ⟨128 + c.val, by omega⟩) = C (ix1 c) := by
  unfold b2f
  refine (shapeCast_a_1a_apply _ shapeCasts_S192_S1x192 0 ⟨128 + c.val, by omega⟩).trans ?_
  exact vec3_thd _ _ _ concatenates_S64_S64_S64_S192_d0 c ⟨128 + c.val, by omega⟩ rfl

end BiasEntries

/-! ## What the region finds in the two arrays -/

-- twenty-two host operations precede the region; the matrix is the last of four nested three-piece concatenations,
-- each operand traced back through all the operations before it
set_option maxHeartbeats 8000000 in
/-- The fused matrix as the region finds it: the block-diagonal of the three second-layer matrices. -/
theorem V_main_v12 (c : Dev nD) :
    (V m c main_v12 : S192x192.Idx → EReal) = W2f (m ((c : Thread nD τ).loc main_arg10)) (m ((c : Thread nD τ).loc main_arg14)) (m ((c : Thread nD τ).loc main_arg18)) := by
  show StableHlo.after hostOps0 (fun b => m (c, b)) (Proc.devRef .tc main_v12) = _
  after_results3
  rfl

-- the same trace through the twenty-two host operations, for the three-piece bias
set_option maxHeartbeats 8000000 in
/-- The fused bias as the region finds it: the three second-layer biases side by side, as one row. -/
theorem V_main_v14 (c : Dev nD) :
    (V m c main_v14 : S1x192.Idx → EReal) = b2f (m ((c : Thread nD τ).loc main_arg11)) (m ((c : Thread nD τ).loc main_arg15)) (m ((c : Thread nD τ).loc main_arg19)) := by
  show StableHlo.after hostOps0 (fun b => m (c, b)) (Proc.devRef .tc main_v14) = _
  after_results3
  rfl

/-! ## The two windows' blocks: the whole array at every point -/

theorem idx10 : ∀ t : Fin cfg0.N, win0_10.index t (0 : Fin 2) = 0 ∧ win0_10.index t (1 : Fin 2) = 0 :=
  (by decide +kernel : ∀ t : Fin grid0.N, _)

theorem idx11 : ∀ t : Fin cfg0.N, win0_11.index t (0 : Fin 2) = 0 ∧ win0_11.index t (1 : Fin 2) = 0 :=
  (by decide +kernel : ∀ t : Fin grid0.N, _)

/-- An entry of window 10's block is the fused matrix's entry. -/
theorem blk10 (c : Dev nD) (t : Fin cfg0.N) (a j : Fin 192) :
    iblk m c 10 t (ix2 a j) = W2f (m ((c : Thread nD τ).loc main_arg10)) (m ((c : Thread nD τ).loc main_arg14)) (m ((c : Thread nD τ).loc main_arg18)) (ix2 a j) := by
  have e : ((cfg0.win 10).blk t).view.emb (ix2 a j) = ix2 a j := by
    obtain ⟨e0, e1⟩ := idx10 t
    funext d; apply Fin.ext
    match d with
    | ⟨0, _⟩ => show win0_10.index t (0 : Fin 2) * 192 + 1 * a.val = a.val; omega
    | ⟨1, _⟩ => show win0_10.index t (1 : Fin 2) * 192 + 1 * j.val = j.val; omega
  unfold iblk
  show (V m c main_v12 : S192x192.Idx → EReal) (((cfg0.win 10).blk t).view.emb (ix2 a j)) = _
  rw [e, V_main_v12]

/-- An entry of window 11's block is the fused bias's entry. -/
theorem blk11 (c : Dev nD) (t : Fin cfg0.N) (j : Fin 192) :
    iblk m c 11 t (ix2 (0 : Fin 1) j) = b2f (m ((c : Thread nD τ).loc main_arg11)) (m ((c : Thread nD τ).loc main_arg15)) (m ((c : Thread nD τ).loc main_arg19)) (ix2 (0 : Fin 1) j) := by
  have e : ((cfg0.win 11).blk t).view.emb (ix2 (0 : Fin 1) j) = ix2 (0 : Fin 1) j := by
    obtain ⟨e0, e1⟩ := idx11 t
    funext d; apply Fin.ext
    match d with
    | ⟨0, _⟩ => show win0_11.index t (0 : Fin 2) * 1 + 1 * (0 : Fin 1).val = (0 : Fin 1).val; omega
    | ⟨1, _⟩ => show win0_11.index t (1 : Fin 2) * 192 + 1 * j.val = j.val; omega
  unfold iblk
  show (V m c main_v14 : S1x192.Idx → EReal) (((cfg0.win 11).blk t).view.emb (ix2 (0 : Fin 1) j)) = _
  rw [e, V_main_v14]

section Fused
variable (c : Dev nD) (t : Fin cfg0.N)

theorem blk10_kk (a j : Fin 64) :
    iblk m c 10 t (ix2 (⟨a.val, by omega⟩ : Fin 192) (⟨j.val, by omega⟩ : Fin 192)) = m ((c : Thread nD τ).loc main_arg10) (ix2 a j) :=
  (blk10 m c t _ _).trans (W2f_kk _ _ _ a j)
theorem blk10_kv (a j : Fin 64) :
    (iblk m c 10 t (ix2 (⟨64 + a.val, by omega⟩ : Fin 192) (⟨j.val, by omega⟩ : Fin 192)) : EReal) = (0 : EReal) :=
  (blk10 m c t _ _).trans (W2f_kv _ _ _ a j)
theorem blk10_kp (a j : Fin 64) :
    (iblk m c 10 t (ix2 (⟨128 + a.val, by omega⟩ : Fin 192) (⟨j.val, by omega⟩ : Fin 192)) : EReal) = (0 : EReal) :=
  (blk10 m c t _ _).trans (W2f_kp _ _ _ a j)
theorem blk10_vk (a j : Fin 64) :
    (iblk m c 10 t (ix2 (⟨a.val, by omega⟩ : Fin 192) (⟨64 + j.val, by omega⟩ : Fin 192)) : EReal) = (0 : EReal) :=
  (blk10 m c t _ _).trans (W2f_vk _ _ _ a j)
theorem blk10_vv (a j : Fin 64) :
    iblk m c 10 t (ix2 (⟨64 + a.val, by omega⟩ : Fin 192) (⟨64 + j.val, by omega⟩ : Fin 192)) = m ((c : Thread nD τ).loc main_arg14) (ix2 a j) :=
  (blk10 m c t _ _).trans (W2f_vv _ _ _ a j)
theorem blk10_vp (a j : Fin 64) :
    (iblk m c 10 t (ix2 (⟨128 + a.val, by omega⟩ : Fin 192) (⟨64 + j.val, by omega⟩ : Fin 192)) : EReal) = (0 : EReal) :=
  (blk10 m c t _ _).trans (W2f_vp _ _ _ a j)
theorem blk10_pk (a j : Fin 64) :
    (iblk m c 10 t (ix2 (⟨a.val, by omega⟩ : Fin 192) (⟨128 + j.val, by omega⟩ : Fin 192)) : EReal) = (0 : EReal) :=
  (blk10 m c t _ _).trans (W2f_pk _ _ _ a j)
theorem blk10_pv (a j : Fin 64) :
    (iblk m c 10 t (ix2 (⟨64 + a.val, by omega⟩ : Fin 192) (⟨128 + j.val, by omega⟩ : Fin 192)) : EReal) = (0 : EReal) :=
  (blk10 m c t _ _).trans (W2f_pv _ _ _ a j)
theorem blk10_pp (a j : Fin 64) :
    iblk m c 10 t (ix2 (⟨128 + a.val, by omega⟩ : Fin 192) (⟨128 + j.val, by omega⟩ : Fin 192)) = m ((c : Thread nD τ).loc main_arg18) (ix2 a j) :=
  (blk10 m c t _ _).trans (W2f_pp _ _ _ a j)
theorem blk11_k (j : Fin 64) :
    iblk m c 11 t (ix2 (0 : Fin 1) (⟨j.val, by omega⟩ : Fin 192)) = m ((c : Thread nD τ).loc main_arg11) (ix1 j) :=
  (blk11 m c t _).trans (b2f_k _ _ _ j)
theorem blk11_v (j : Fin 64) :
    iblk m c 11 t (ix2 (0 : Fin 1) (⟨64 + j.val, by omega⟩ : Fin 192)) = m ((c : Thread nD τ).loc main_arg15) (ix1 j) :=
  (blk11 m c t _).trans (b2f_v _ _ _ j)
theorem blk11_p (j : Fin 64) :
    iblk m c 11 t (ix2 (0 : Fin 1) (⟨128 + j.val, by omega⟩ : Fin 192)) = m ((c : Thread nD τ).loc main_arg19) (ix1 j) :=
  (blk11 m c t _).trans (b2f_p _ _ _ j)

end Fused

end Cert.KernelIdeal.Blocks

end
-- ==== Proof.KernelIsSpec.lean ====
/-
  What one grid point stores is the result array's entry: at point `t`, row `q`, column `j`, the output block holds
  `G` of the twenty argument arrays at `(b, n, j)`, where `b · 16384 + n = t · 256 + q`. The block's one store covers
  it whole and the loads read the input blocks whole; the stored term is `Kspec` of the blocks; the blocks hold the rows
  of the argument arrays (the fused matrices their blocks and zeros), so `Kspec` is the attention of the four
  perceptrons' columns, which is `G` there.
-/
import proofs.«140518_j51651276702286_2_alg».proof.Proof.FrameIdeal
import proofs.«140518_j51651276702286_2_alg».proof.Proof.PayStored
import proofs.«140518_j51651276702286_2_alg».proof.Proof.KspecEq
import proofs.«140518_j51651276702286_2_alg».proof.Proof.BlockReads
import proofs.«140518_j51651276702286_2_alg».proof.Proof.BlockReadsFused
import Idealize.ShloMosaic.Lib.Pipeline.Value

-- whole-block rectangles of up to 256 × 16 × 64 entries are unfolded coordinate by coordinate
set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- The output block after the body, at `(q, j)`, is `Kspec` of the input blocks. -/
theorem out16_eq (m : (ℓ : Loc nD τ sig) → Buf (Elt Ideal) ℓ) (c : Dev nD) (t : Fin cfg0.N) (q : Fin 256) (j : Fin 64) :
    out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 q j)
      = Cert.Attn.Kspec (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) q j := by
  unfold out16
  rw [View.canon_unit_zero hz2]
  simp only [View.ld_unit_zero (S := S256x64) hz2, View.ld_unit_zero (S := S256x16x64) hz3, View.ld_unit_zero (S := S256x3) hz2,
    View.ld_unit_zero (S := S256x3x16) hz3, View.ld_unit_zero (S := S64x64) hz2, View.ld_unit_zero (S := S1x64) hz2,
    View.ld_unit_zero (S := S64x128) hz2, View.ld_unit_zero (S := S1x128) hz2, View.ld_unit_zero (S := S192x192) hz2,
    View.ld_unit_zero (S := S1x192) hz2]
  exact Cert.KernelIdeal.Pay.stored_eq _ _ _ _ _ _ _ _ _ _ _ _ _ _ _ _ q j

/-- The output block after the body, at `(q, j)`, is the result array's entry `(b, n, j)`. -/
theorem stored_is_G (m : (ℓ : Loc nD τ sig) → Buf (Elt Ideal) ℓ) (c : Dev nD) (t : Fin cfg0.N) (q : Fin 256) (j : Fin 64)
    (b : Fin 2) (n : Fin 16384) (hr : b.val * 16384 + n.val = t.val * 256 + q.val) :
    out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 q j)
      = Cert.Attn.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (ix3 b n j) := by
  refine (out16_eq m c t q j).trans ?_
  refine (Cert.Attn.Kspec_unfold (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) q j).trans ?_
  refine (congr (congr (congr (congrArg Cert.Attn.attend
      (Cert.Attn.q_eq (iblk m c 0 t) (iblk m c 4 t) (iblk m c 5 t) (iblk m c 6 t) (iblk m c 7 t) q j (fun a => m ((c : Thread nD τ).loc main_arg0) (ix3 b n a)) (fun a h => m ((c : Thread nD τ).loc main_arg4) (ix2 a h)) (fun a h => m ((c : Thread nD τ).loc main_arg6) (ix2 a h)) (fun h => m ((c : Thread nD τ).loc main_arg5) (ix1 h)) (fun h => m ((c : Thread nD τ).loc main_arg7) (ix1 h))
        (Cert.KernelIdeal.Blocks.blk0 m c t q b n hr) (Cert.KernelIdeal.Blocks.blk4 m c t) (Cert.KernelIdeal.Blocks.blk5 m c t) (Cert.KernelIdeal.Blocks.blk6 m c t) (Cert.KernelIdeal.Blocks.blk7 m c t)))
      (funext fun k => Cert.Attn.key_col (iblk m c 1 t) (iblk m c 8 t) (iblk m c 9 t) (iblk m c 10 t) (iblk m c 11 t) _ q k j (fun k a => m ((c : Thread nD τ).loc main_arg1) (ix4 b n k a)) (fun a h => m ((c : Thread nD τ).loc main_arg8) (ix2 a h)) (fun a h => m ((c : Thread nD τ).loc main_arg10) (ix2 a h)) (fun h => m ((c : Thread nD τ).loc main_arg9) (ix1 h)) (fun h => m ((c : Thread nD τ).loc main_arg11) (ix1 h))
        (Cert.KernelIdeal.Blocks.blk1 m c t q b n hr) (Cert.KernelIdeal.Blocks.blk8k m c t) (Cert.KernelIdeal.Blocks.blk9k m c t) (Cert.KernelIdeal.Blocks.blk10_kk m c t) (Cert.KernelIdeal.Blocks.blk10_kv m c t) (Cert.KernelIdeal.Blocks.blk10_kp m c t) (Cert.KernelIdeal.Blocks.blk11_k m c t)))
      (funext fun k => Cert.Attn.value_col (iblk m c 1 t) (iblk m c 8 t) (iblk m c 9 t) (iblk m c 10 t) (iblk m c 11 t) _ q k j (fun k a => m ((c : Thread nD τ).loc main_arg1) (ix4 b n k a)) (fun a h => m ((c : Thread nD τ).loc main_arg12) (ix2 a h)) (fun a h => m ((c : Thread nD τ).loc main_arg14) (ix2 a h)) (fun h => m ((c : Thread nD τ).loc main_arg13) (ix1 h)) (fun h => m ((c : Thread nD τ).loc main_arg15) (ix1 h))
        (Cert.KernelIdeal.Blocks.blk1 m c t q b n hr) (Cert.KernelIdeal.Blocks.blk8v m c t) (Cert.KernelIdeal.Blocks.blk9v m c t) (Cert.KernelIdeal.Blocks.blk10_vk m c t) (Cert.KernelIdeal.Blocks.blk10_vv m c t) (Cert.KernelIdeal.Blocks.blk10_vp m c t) (Cert.KernelIdeal.Blocks.blk11_v m c t)))
      (funext fun k => Cert.Attn.pos_col (iblk m c 2 t) (iblk m c 3 t) (iblk m c 12 t) (iblk m c 13 t) (iblk m c 14 t) (iblk m c 15 t) (iblk m c 10 t) (iblk m c 11 t) _ q k j (fun a => m ((c : Thread nD τ).loc main_arg2) (ix3 b n a)) (fun k a => m ((c : Thread nD τ).loc main_arg3) (ix4 b n k a)) (fun a h => m ((c : Thread nD τ).loc main_arg16) (ix2 a h)) (fun a h => m ((c : Thread nD τ).loc main_arg18) (ix2 a h)) (fun h => m ((c : Thread nD τ).loc main_arg17) (ix1 h)) (fun h => m ((c : Thread nD τ).loc main_arg19) (ix1 h))
        (Cert.KernelIdeal.Blocks.blk2 m c t q b n hr) (Cert.KernelIdeal.Blocks.blk3 m c t q b n hr) (Cert.KernelIdeal.Blocks.blk12 m c t) (Cert.KernelIdeal.Blocks.blk13 m c t) (Cert.KernelIdeal.Blocks.blk14 m c t) (Cert.KernelIdeal.Blocks.blk15 m c t) (Cert.KernelIdeal.Blocks.blk10_pk m c t) (Cert.KernelIdeal.Blocks.blk10_pv m c t) (Cert.KernelIdeal.Blocks.blk10_pp m c t) (Cert.KernelIdeal.Blocks.blk11_p m c t))).trans ?_
  unfold Cert.Attn.G
  rfl

end Cert.KernelIdeal.KVal

end
-- ==== Proof.lean ====
/- The proof of `Cert.Claim`: the kernel and the reference compute one attention formula.

   A point has a feature row, sixteen neighbours with feature rows, a position and sixteen neighbour positions. Four
   two-layer perceptrons `relu (v·W₁ + b₁)·W₂ + b₂` give a query from the point's row, a key and a value from each
   neighbour's row, and a positional code from each difference of positions; column by column the weights over the
   neighbours are the softmax of `query - key + code` (the maximum subtracted first), and the result is the weighted
   sum of `value + code`. The reference computes this stage by stage over whole arrays. The kernel computes it block by
   block, 256 points at a time, with three fusions: the key and value first layers act side by side as one [64, 128]
   matrix; the three second layers act as one block-diagonal [192, 192] matrix, whose off-diagonal blocks are zero
   and so contribute nothing to any column; and the positional first layer, a contraction over three coordinates, is
   written as three multiply-adds, which is that sum of three terms. At the ideal values (extended reals, exact
   operations, format changes the identity) each fusion is an identity of sums, so the two results are equal element
   by element, with no finiteness assumed. The kernel's blocks tile its output array, row `r` of the flat [32768, 64]
   array being batch `r / 16384`, position `r % 16384`, and the reshape after the region returns the result's own shape.
   Every argument array of either program ends as launched; the idealization rewrote no operation of the kernel. -/
import proofs.«140518_j51651276702286_2_alg».proof.Defs
import proofs.«140518_j51651276702286_2_alg».proof.Proof.Gen.Kernel
import proofs.«140518_j51651276702286_2_alg».proof.Proof.Gen.Kernel.Skeleton
import proofs.«140518_j51651276702286_2_alg».proof.Proof.Gen.Kernel.Launch
import proofs.«140518_j51651276702286_2_alg».proof.Proof.Gen.Kernel.Points
import proofs.«140518_j51651276702286_2_alg».proof.Proof.Gen.KernelIdeal
import proofs.«140518_j51651276702286_2_alg».proof.Proof.Gen.KernelIdeal.Skeleton
import proofs.«140518_j51651276702286_2_alg».proof.Proof.Gen.KernelIdeal.Launch
import proofs.«140518_j51651276702286_2_alg».proof.Proof.Gen.KernelIdeal.Points
import proofs.«140518_j51651276702286_2_alg».proof.Proof.Gen.ReferenceIdeal
import proofs.«140518_j51651276702286_2_alg».proof.Proof.Gen.Pre_finite_inputs
import proofs.«140518_j51651276702286_2_alg».proof.Proof.Gen.ReferenceIdeal.Run
import proofs.«140518_j51651276702286_2_alg».proof.Proof.Gen.ReferenceIdeal.Read
import proofs.«140518_j51651276702286_2_alg».proof.Proof.FrameBits
import proofs.«140518_j51651276702286_2_alg».proof.Proof.FrameIdeal
import proofs.«140518_j51651276702286_2_alg».proof.Proof.KernelFinal
import proofs.«140518_j51651276702286_2_alg».proof.Proof.RefIsSpec
import proofs.«140518_j51651276702286_2_alg».proof.Proof.KernelIsSpec
import Idealize.ShloMosaic.Adequacy
import Idealize.ShloMosaic.Init

noncomputable section

namespace Cert.Proof

open Idealize.ShloMosaic Idealize.ShloMosaic.TcCoe Idealize.SL.Sem

/-! ## The frames -/

/-- The kernel at the bit-exact values runs and leaves its arguments unchanged. -/
theorem frame_kernel : Cert.frame_Kernel := fun m ρ _ => Cert.Kernel.Hand.frame m ρ

/-- So does the kernel at the ideal values. -/
theorem frame_kernelIdeal : Cert.frame_KernelIdeal := fun m ρ _ => Cert.KernelIdeal.Hand.frame m ρ

/-- And the reference: its run's post is its result and then its twenty arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-! ## The value -/

/-- The attention formula at the kernel's launch arrays on core `c`. -/
def spec (m : (ℓ : Loc Cert.KernelIdeal.nD Cert.KernelIdeal.τ Cert.KernelIdeal.sig) → Buf (Elt Ideal) ℓ) (c : Dev Cert.KernelIdeal.nD) :
    Cert.KernelIdeal.S2x16384x64.Idx → Elt Ideal .f32 :=
  Cert.Attn.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))

/-- At the ideal values the kernel's result is the attention formula of its arguments (each grid point's block is the
    formula at the rows it covers, the blocks tile the array, the reshape after the region restores the shape), the
    reference's result is the same formula of its arguments, and the arguments agree. -/
theorem algebraic : Cert.algebraic_KernelIdeal_ReferenceIdeal := by
  intro m ρ m' ρ' _ hagree
  refine ⟨spec m, Cert.KernelIdeal.KVal.run_value (F := Ideal) m ρ (spec m)
    (fun c t q j b n hr => Cert.KernelIdeal.KVal.stored_is_G m c t q j b n hr), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19⟩ := hagree c
  rw [Cert.ReferenceIdeal.Read.val_main_v56_eq, Cert.RefValue.ref_eq, e0, e1, e2, e3, e4, e5, e6, e7, e8, e9, e10, e11, e12, e13, e14, e15, e16, e17, e18, e19]
  rfl

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
